-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v126)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v126) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x300000 : Shape := ⟨2, ![2, 300000]⟩
abbrev S50000 : Shape := ⟨1, ![50000]⟩
abbrev S128x256 : Shape := ⟨2, ![128, 256]⟩
abbrev S256 : Shape := ⟨1, ![256]⟩
abbrev S3x256x256 : Shape := ⟨3, ![3, 256, 256]⟩
abbrev S3x256 : Shape := ⟨2, ![3, 256]⟩
abbrev S256x64 : Shape := ⟨2, ![256, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S3x256x256 : S_.BroadcastsInDim S3x256x256 (![] : Fin 0 → Fin S3x256x256.rank)
  reducesTo_S3x256x256_S_d0_1_2 : S3x256x256.ReducesTo [0, 1, 2] S_
  bcast_S_S3x256 : S_.BroadcastsInDim S3x256 (![] : Fin 0 → Fin S3x256.rank)
  reducesTo_S3x256_S_d0_1 : S3x256.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S64 .f32) (main_arg10 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg6 : FVec F S3x256 .f32) (main_arg7 : FVec F S256x64 .f32) (main_arg8 : FVec F S64 .f32) (main_arg9 : FVec F S64 .f32) (main_arg10 : FVec F S64 .f32) (main_v13 : IVec S_ 1) (main_v16 : IVec S3x256x256 1) : IVec S_ 1 :=
  let main_c_5 : IVec S_ 1 := constantI S_ 1 1#1
  let main_v17 : IVec S_ 1 := (fun x v => Host.reduce IntOp.andi x v reducesTo_S3x256x256_S_d0_1_2 h_S_) main_v16 main_c_5
  let main_v18 : IVec S_ 1 := andi main_v13 main_v17
  let main_v19 : FVec F S3x256 .f32 := Host.absf main_arg6
  let main_cst_6 : FVec F S_ .f32 := constant S_ .f32 0x7F800000#32
  let main_v20 : FVec F S3x256 .f32 := broadcastInDim S3x256 ![] bcast_S_S3x256 main_cst_6
  let main_v21 : IVec S3x256 1 := cmpf .olt main_v19 main_v20
  let main_c_7 : IVec S_ 1 := constantI S_ 1 1#1
  let main_v22 : IVec S_ 1 := (fun x v => Host.reduce IntOp.andi x v reducesTo_S3x256_S_d0_1 h_S_) main_v21 main_c_7
  let main_v23 : IVec S_ 1 := andi main_v18 main_v22
  let main_v24 : FVec F S256x64 .f32 := Host.absf main_arg7
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x300000 32) (main_arg2 : IVec S50000 32) (main_arg3 : FVec F S128x256 .f32) (main_arg4 : FVec F S256 .f32) (main_arg5 : FVec F S3x256x256 .f32) (main_arg6 : FVec F S3x256 .f32) (main_arg7 : FVec F S256x64 .f32) (main_arg8 : FVec F S64 .f32) (main_arg9 : FVec F S64 .f32) (main_arg10 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S3x256x256 .f32 := Host.absf main_arg5
  let main_cst_4 : FVec F S_ .f32 := constant S_ .f32 0x7F800000#32
  let main_v15 : FVec F S3x256x256 .f32 := broadcastInDim S3x256x256 ![] bcast_S_S3x256x256 main_cst_4
  let main_v16 : IVec S3x256x256 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x300000 : Shape := ⟨2, ![2, 300000]⟩
abbrev S50000 : Shape := ⟨1, ![50000]⟩
abbrev S128x256 : Shape := ⟨2, ![128, 256]⟩
abbrev S256 : Shape := ⟨1, ![256]⟩
abbrev S3x256x256 : Shape := ⟨3, ![3, 256, 256]⟩
abbrev S3x256 : Shape := ⟨2, ![3, 256]⟩
abbrev S256x64 : Shape := ⟨2, ![256, 64]⟩
abbrev S64 : Shape := ⟨1, ![64]⟩
abbrev S1x300000 : Shape := ⟨2, ![1, 300000]⟩
abbrev S300000 : Shape := ⟨1, ![300000]⟩
abbrev S350000 : Shape := ⟨1, ![350000]⟩
abbrev S_ : Shape := ⟨0, ![]⟩
abbrev S350000x1 : Shape := ⟨2, ![350000, 1]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S1x256x256 : Shape := ⟨3, ![1, 256, 256]⟩
abbrev S256x256 : Shape := ⟨2, ![256, 256]⟩
abbrev S350000x256 : Shape := ⟨2, ![350000, 256]⟩
abbrev S50000x1 : Shape := ⟨2, ![50000, 1]⟩
abbrev S2000 : Shape := ⟨1, ![2000]⟩
abbrev S2000x1 : Shape := ⟨2, ![2000, 1]⟩
abbrev S1x64 : Shape := ⟨2, ![1, 64]⟩
abbrev S2000x64 : Shape := ⟨2, ![2000, 64]⟩
abbrev S400x256 : Shape := ⟨2, ![400, 256]⟩
abbrev S400x64 : Shape := ⟨2, ![400, 64]⟩
abbrev S400 : Shape := ⟨1, ![400]⟩
abbrev S400x1 : Shape := ⟨2, ![400, 1]⟩

abbrev nBuf : Space → Nat
  | .hbm => 168
  | .vmem => 47
  | .smem => 0
  | _ => 0

abbrev hbmTy0_0 (i : Nat) : BufTy := match i % 128 with
  | 0 => ⟨S50000x128, .f32⟩
  | 1 => ⟨S2x300000, .i32⟩
  | 2 => ⟨S50000, .i32⟩
  | 3 => ⟨S128x256, .f32⟩
  | 4 => ⟨S256, .f32⟩
  | 5 => ⟨S3x256x256, .f32⟩
  | 6 => ⟨S3x256, .f32⟩
  | 7 => ⟨S256x64, .f32⟩
  | 8 => ⟨S64, .f32⟩
  | 9 => ⟨S64, .f32⟩
  | 10 => ⟨S64, .f32⟩
  | 11 => ⟨S50000, .i32⟩
  | 12 => ⟨S1x300000, .i32⟩
  | 13 => ⟨S300000, .i32⟩
  | 14 => ⟨S350000, .i32⟩
  | 15 => ⟨S1x300000, .i32⟩
  | 16 => ⟨S300000, .i32⟩
  | 17 => ⟨S350000, .i32⟩
  | 18 => ⟨S_, .f32⟩
  | 19 => ⟨S350000, .f32⟩
  | 20 => ⟨S_, .f32⟩
  | 21 => ⟨S50000, .f32⟩
  | 22 => ⟨S350000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S350000, .i32⟩
  | 34 => ⟨S350000, .i1⟩
  | 35 => ⟨S_, .i32⟩
  | 36 => ⟨S350000, .i32⟩
  | 37 => ⟨S350000, .i32⟩
  | 38 => ⟨S350000, .i32⟩
  | 39 => ⟨S350000x1, .i32⟩
  | 40 => ⟨S350000, .f32⟩
  | 41 => ⟨S_, .i32⟩
  | 42 => ⟨S350000, .i32⟩
  | 43 => ⟨S350000, .i1⟩
  | 44 => ⟨S_, .i32⟩
  | 45 => ⟨S350000, .i32⟩
  | 46 => ⟨S350000, .i32⟩
  | 47 => ⟨S350000, .i32⟩
  | 48 => ⟨S350000x1, .i32⟩
  | 49 => ⟨S350000, .f32⟩
  | 50 => ⟨S350000, .f32⟩
  | 51 => ⟨S1x256, .f32⟩
  | 52 => ⟨S50000x256, .f32⟩
  | 53 => ⟨S_, .f32⟩
  | 54 => ⟨S256, .f32⟩
  | 55 => ⟨S1x256x256, .f32⟩
  | 56 => ⟨S256x256, .f32⟩
  | 57 => ⟨S1x256, .f32⟩
  | 58 => ⟨S50000x256, .f32⟩
  | 59 => ⟨S_, .i32⟩
  | 60 => ⟨S350000, .i32⟩
  | 61 => ⟨S350000, .i1⟩
  | 62 => ⟨S_, .i32⟩
  | 63 => ⟨S350000, .i32⟩
  | 64 => ⟨S350000, .i32⟩
  | 65 => ⟨S350000, .i32⟩
  | 66 => ⟨S350000x1, .i32⟩
  | 67 => ⟨S350000x256, .f32⟩
  | 68 => ⟨S350000x1, .f32⟩
  | 69 => ⟨S350000x256, .f32⟩
  | 70 => ⟨S350000x256, .f32⟩
  | 71 => ⟨S_, .f32⟩
  | 72 => ⟨S50000x256, .f32⟩
  | 73 => ⟨S_, .i32⟩
  | 74 => ⟨S350000, .i32⟩
  | 75 => ⟨S350000, .i1⟩
  | 76 => ⟨S_, .i32⟩
  | 77 => ⟨S350000, .i32⟩
  | 78 => ⟨S350000, .i32⟩
  | 79 => ⟨S350000, .i32⟩
  | 80 => ⟨S350000x1, .i32⟩
  | 81 => ⟨S50000x256, .f32⟩
  | 82 => ⟨S1x256, .f32⟩
  | 83 => ⟨S256, .f32⟩
  | 84 => ⟨S1x256, .f32⟩
  | 85 => ⟨S50000x256, .f32⟩
  | 86 => ⟨S1x256x256, .f32⟩
  | 87 => ⟨S256x256, .f32⟩
  | 88 => ⟨S1x256, .f32⟩
  | 89 => ⟨S50000x256, .f32⟩
  | 90 => ⟨S_, .i32⟩
  | 91 => ⟨S350000, .i32⟩
  | 92 => ⟨S350000, .i1⟩
  | 93 => ⟨S_, .i32⟩
  | 94 => ⟨S350000, .i32⟩
  | 95 => ⟨S350000, .i32⟩
  | 96 => ⟨S350000, .i32⟩
  | 97 => ⟨S350000x1, .i32⟩
  | 98 => ⟨S350000x256, .f32⟩
  | 99 => ⟨S350000x1, .f32⟩
  | 100 => ⟨S350000x256, .f32⟩
  | 101 => ⟨S350000x256, .f32⟩
  | 102 => ⟨S_, .f32⟩
  | 103 => ⟨S50000x256, .f32⟩
  | 104 => ⟨S_, .i32⟩
  | 105 => ⟨S350000, .i32⟩
  | 106 => ⟨S350000, .i1⟩
  | 107 => ⟨S_, .i32⟩
  | 108 => ⟨S350000, .i32⟩
  | 109 => ⟨S350000, .i32⟩
  | 110 => ⟨S350000, .i32⟩
  | 111 => ⟨S350000x1, .i32⟩
  | 112 => ⟨S50000x256, .f32⟩
  | 113 => ⟨S1x256, .f32⟩
  | 114 => ⟨S256, .f32⟩
  | 115 => ⟨S1x256, .f32⟩
  | 116 => ⟨S50000x256, .f32⟩
  | 117 => ⟨S1x256x256, .f32⟩
  | 118 => ⟨S256x256, .f32⟩
  | 119 => ⟨S1x256, .f32⟩
  | 120 => ⟨S50000x256, .f32⟩
  | 121 => ⟨S_, .i32⟩
  | 122 => ⟨S350000, .i32⟩
  | 123 => ⟨S350000, .i1⟩
  | 124 => ⟨S_, .i32⟩
  | 125 => ⟨S350000, .i32⟩
  | 126 => ⟨S350000, .i32⟩
  | 127 => ⟨S350000, .i32⟩
  | _ => ⟨S50000x128, .f32⟩

abbrev hbmTy0_1 (i : Nat) : BufTy := match i % 128 with
  | 0 => ⟨S350000x1, .i32⟩
  | 1 => ⟨S350000x256, .f32⟩
  | 2 => ⟨S350000x1, .f32⟩
  | 3 => ⟨S350000x256, .f32⟩
  | 4 => ⟨S350000x256, .f32⟩
  | 5 => ⟨S_, .f32⟩
  | 6 => ⟨S50000x256, .f32⟩
  | 7 => ⟨S_, .i32⟩
  | 8 => ⟨S350000, .i32⟩
  | 9 => ⟨S350000, .i1⟩
  | 10 => ⟨S_, .i32⟩
  | 11 => ⟨S350000, .i32⟩
  | 12 => ⟨S350000, .i32⟩
  | 13 => ⟨S350000, .i32⟩
  | 14 => ⟨S350000x1, .i32⟩
  | 15 => ⟨S50000x256, .f32⟩
  | 16 => ⟨S1x256, .f32⟩
  | 17 => ⟨S256, .f32⟩
  | 18 => ⟨S1x256, .f32⟩
  | 19 => ⟨S50000x256, .f32⟩
  | 20 => ⟨S_, .f32⟩
  | 21 => ⟨S2000x256, .f32⟩
  | 22 => ⟨S50000x1, .i32⟩
  | 23 => ⟨S2000x256, .f32⟩
  | 24 => ⟨S_, .f32⟩
  | 25 => ⟨S50000, .f32⟩
  | 26 => ⟨S_, .f32⟩
  | 27 => ⟨S2000, .f32⟩
  | 28 => ⟨S50000x1, .i32⟩
  | 29 => ⟨S2000, .f32⟩
  | 30 => ⟨S_, .f32⟩
  | 31 => ⟨S2000, .f32⟩
  | 32 => ⟨S2000, .f32⟩
  | 33 => ⟨S2000x1, .f32⟩
  | 34 => ⟨S2000x256, .f32⟩
  | 35 => ⟨S2000x256, .f32⟩
  | 36 => ⟨S1x64, .f32⟩
  | 37 => ⟨S1x64, .f32⟩
  | 38 => ⟨S1x64, .f32⟩
  | 39 => ⟨S2000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S1x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S256x256, .f32⟩
  | .local _ .vmem, ⟨9, _⟩ => ⟨S1x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S1x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S256x256, .f32⟩
  | .local _ .vmem, ⟨20, _⟩ => ⟨S1x256, .f32⟩
  | .local _ .vmem, ⟨21, _⟩ => ⟨S2000x256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S1x256, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S256x256, .f32⟩
  | .local _ .vmem, ⟨31, _⟩ => ⟨S1x256, .f32⟩
  | .local _ .vmem, ⟨32, _⟩ => ⟨S2000x256, .f32⟩
  | .local _ .vmem, ⟨33, _⟩ => ⟨S2000x256, .f32⟩
  | .local _ .vmem, ⟨34, _⟩ => ⟨S2000x256, .f32⟩
  | .local _ .vmem, ⟨35, _⟩ => ⟨S2000x256, .f32⟩
  | .local _ .vmem, ⟨36, _⟩ => ⟨S1x256, .f32⟩
  | .local _ .vmem, ⟨37, _⟩ => ⟨S2000x256, .f32⟩
  | .local _ .vmem, ⟨38, _⟩ => ⟨S2000x256, .f32⟩
  | .local _ .vmem, ⟨39, _⟩ => ⟨S400x256, .f32⟩
  | .local _ .vmem, ⟨40, _⟩ => ⟨S400x256, .f32⟩
  | .local _ .vmem, ⟨41, _⟩ => ⟨S256x64, .f32⟩
  | .local _ .vmem, ⟨42, _⟩ => ⟨S1x64, .f32⟩
  | .local _ .vmem, ⟨43, _⟩ => ⟨S1x64, .f32⟩
  | .local _ .vmem, ⟨44, _⟩ => ⟨S1x64, .f32⟩
  | .local _ .vmem, ⟨45, _⟩ => ⟨S400x64, .f32⟩
  | .local _ .vmem, ⟨46, _⟩ => ⟨S400x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_6 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_7 : Ref sig .tc := ⟨.hbm, 59, rfl⟩
abbrev main_v37 : Ref sig .tc := ⟨.hbm, 60, rfl⟩
abbrev main_v38 : Ref sig .tc := ⟨.hbm, 61, rfl⟩
abbrev main_c_8 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_9 : Ref sig .tc := ⟨.hbm, 71, rfl⟩
abbrev main_v47 : Ref sig .tc := ⟨.hbm, 72, rfl⟩
abbrev main_c_10 : Ref sig .tc := ⟨.hbm, 73, rfl⟩
abbrev main_v48 : Ref sig .tc := ⟨.hbm, 74, rfl⟩
abbrev main_v49 : Ref sig .tc := ⟨.hbm, 75, rfl⟩
abbrev main_c_11 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_c_12 : Ref sig .tc := ⟨.hbm, 90, rfl⟩
abbrev main_v63 : Ref sig .tc := ⟨.hbm, 91, rfl⟩
abbrev main_v64 : Ref sig .tc := ⟨.hbm, 92, rfl⟩
abbrev main_c_13 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_14 : Ref sig .tc := ⟨.hbm, 102, rfl⟩
abbrev main_v73 : Ref sig .tc := ⟨.hbm, 103, rfl⟩
abbrev main_c_15 : Ref sig .tc := ⟨.hbm, 104, rfl⟩
abbrev main_v74 : Ref sig .tc := ⟨.hbm, 105, rfl⟩
abbrev main_v75 : Ref sig .tc := ⟨.hbm, 106, rfl⟩
abbrev main_c_16 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_c_17 : Ref sig .tc := ⟨.hbm, 121, rfl⟩
abbrev main_v89 : Ref sig .tc := ⟨.hbm, 122, rfl⟩
abbrev main_v90 : Ref sig .tc := ⟨.hbm, 123, rfl⟩
abbrev main_c_18 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_cst_19 : Ref sig .tc := ⟨.hbm, 133, rfl⟩
abbrev main_v99 : Ref sig .tc := ⟨.hbm, 134, rfl⟩
abbrev main_c_20 : Ref sig .tc := ⟨.hbm, 135, rfl⟩
abbrev main_v100 : Ref sig .tc := ⟨.hbm, 136, rfl⟩
abbrev main_v101 : Ref sig .tc := ⟨.hbm, 137, rfl⟩
abbrev main_c_21 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_cst_22 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_cst_23 : Ref sig .tc := ⟨.hbm, 152, rfl⟩
abbrev main_v114 : Ref sig .tc := ⟨.hbm, 153, rfl⟩
abbrev main_cst_24 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_cst_25 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg3_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg2_0 : Ref sig .tc := ⟨.vmem, 31, rfl⟩
abbrev cc5_stg3_0 : Ref sig .tc := ⟨.vmem, 32, rfl⟩
abbrev cc5_stg3_1 : Ref sig .tc := ⟨.vmem, 33, rfl⟩
abbrev cc6_stg0_0 : Ref sig .tc := ⟨.vmem, 34, rfl⟩
abbrev cc6_stg0_1 : Ref sig .tc := ⟨.vmem, 35, rfl⟩
abbrev cc6_stg1_0 : Ref sig .tc := ⟨.vmem, 36, rfl⟩
abbrev cc6_stg2_0 : Ref sig .tc := ⟨.vmem, 37, rfl⟩
abbrev cc6_stg2_1 : Ref sig .tc := ⟨.vmem, 38, rfl⟩
abbrev cc7_stg0_0 : Ref sig .tc := ⟨.vmem, 39, rfl⟩
abbrev cc7_stg0_1 : Ref sig .tc := ⟨.vmem, 40, rfl⟩
abbrev cc7_stg1_0 : Ref sig .tc := ⟨.vmem, 41, rfl⟩
abbrev cc7_stg2_0 : Ref sig .tc := ⟨.vmem, 42, rfl⟩
abbrev cc7_stg3_0 : Ref sig .tc := ⟨.vmem, 43, rfl⟩
abbrev cc7_stg4_0 : Ref sig .tc := ⟨.vmem, 44, rfl⟩
abbrev cc7_stg5_0 : Ref sig .tc := ⟨.vmem, 45, rfl⟩
abbrev cc7_stg5_1 : Ref sig .tc := ⟨.vmem, 46, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem3_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem3_0 : DmaSem sig := 32
abbrev cc5_sem3_1 : DmaSem sig := 33
abbrev cc6_sem0_0 : DmaSem sig := 34
abbrev cc6_sem0_1 : DmaSem sig := 35
abbrev cc6_sem1_0 : DmaSem sig := 36
abbrev cc6_sem2_0 : DmaSem sig := 37
abbrev cc6_sem2_1 : DmaSem sig := 38
abbrev cc7_sem0_0 : DmaSem sig := 39
abbrev cc7_sem0_1 : DmaSem sig := 40
abbrev cc7_sem1_0 : DmaSem sig := 41
abbrev cc7_sem2_0 : DmaSem sig := 42
abbrev cc7_sem3_0 : DmaSem sig := 43
abbrev cc7_sem4_0 : DmaSem sig := 44
abbrev cc7_sem5_0 : DmaSem sig := 45
abbrev cc7_sem5_1 : DmaSem sig := 46

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S256x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x256 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x256 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![5], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S400x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S256x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S400x64 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

class Facts₀ : Prop where
  slices_S2x300000_S1x300000_0_0 : S2x300000.Slices ![0, 0] S1x300000
  shapeCasts_S1x300000_S300000 : S1x300000.ShapeCasts S300000
  concatenates_S300000_S50000_S350000_d0 : Shape.Concatenates [S300000, S50000] S350000 0
  slices_S2x300000_S1x300000_1_0 : S2x300000.Slices ![1, 0] S1x300000
  bcast_S_S350000 : S_.BroadcastsInDim S350000 (![] : Fin 0 → Fin S350000.rank)
  bcast_S_S50000 : S_.BroadcastsInDim S50000 (![] : Fin 0 → Fin S50000.rank)
  bcast_S350000_S350000x1_0 : S350000.BroadcastsInDim S350000x1 (![0] : Fin 1 → Fin S350000x1.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S256 : S_.BroadcastsInDim S256 (![] : Fin 0 → Fin S256.rank)
  slices_S3x256x256_S1x256x256_0_0_0 : S3x256x256.Slices ![0, 0, 0] S1x256x256
  shapeCasts_S1x256x256_S256x256 : S1x256x256.ShapeCasts S256x256
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bcast_S350000x1_S350000x256_0_1 : S350000x1.BroadcastsInDim S350000x256 (![0, 1] : Fin 2 → Fin S350000x256.rank)
  bcast_S_S50000x256 : S_.BroadcastsInDim S50000x256 (![] : Fin 0 → Fin S50000x256.rank)
  slices_S3x256_S1x256_0_0 : S3x256.Slices ![0, 0] S1x256
  shapeCasts_S1x256_S256 : S1x256.ShapeCasts S256
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  bcast_S_S2000x256 : S_.BroadcastsInDim S2000x256 (![] : Fin 0 → Fin S2000x256.rank)
  bcast_S50000_S50000x1_0 : S50000.BroadcastsInDim S50000x1 (![0] : Fin 1 → Fin S50000x1.rank)
  bcast_S_S2000 : S_.BroadcastsInDim S2000 (![] : Fin 0 → Fin S2000.rank)
  bcast_S2000_S2000x1_0 : S2000.BroadcastsInDim S2000x1 (![0] : Fin 1 → Fin S2000x1.rank)
  bcast_S2000x1_S2000x256_0_1 : S2000x1.BroadcastsInDim S2000x256 (![0, 1] : Fin 2 → Fin S2000x256.rank)
  shapeCasts_S64_S1x64 : S64.ShapeCasts S1x64
  inb_S400x256_S400x256_0_0 : ∀ a, (![0, 0] : Fin 2 → Nat) a + S400x256.size a ≤ S400x256.size a
  h_S400x256 : 0 < S400x256.numel
  shapeCasts_S400x256_S400x256 : S400x256.ShapeCasts S400x256
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  reduces_S400x64_S400 : S400x64.Reduces [1] S400
  shapeCasts_S400_S400x1 : S400.ShapeCasts S400x1
  broadcasts_S400x1_S400x64 : S400x1.Broadcasts S400x64
  inb_S400x64_S400x64_0_0 : ∀ a, (![0, 0] : Fin 2 → Nat) a + S400x64.size a ≤ S400x64.size a
  h_S400x64 : 0 < S400x64.numel
  scatter_S50000_S350000x1_S350000_n_0_0_1_wf : ScatterDims.WF S50000 S350000x1 S350000 [] [0] [0] 1
  gather_S50000_S350000x1_S350000_n_0_n_n_0_1_1_wf : GatherDims.WF S50000 S350000x1 S350000 [] [0] [] [0] [] 1 ![1]
  dot_S2000x128_S128x256_S2000x256_1_0_0_1_n_n_wf : DotDims.WF S2000x128 S128x256 S2000x256 [1] [0] [0] [1] [] []
  dot_S2000x256_S256x256_S2000x256_1_0_0_1_n_n_wf : DotDims.WF S2000x256 S256x256 S2000x256 [1] [0] [0] [1] [] []
  gather_S50000x256_S350000x1_S350000x256_1_0_n_n_0_1_1256_wf : GatherDims.WF S50000x256 S350000x1 S350000x256 [1] [0] [] [0] [] 1 ![1, 256]
  scatter_S50000x256_S350000x1_S350000x256_1_0_0_1_wf : ScatterDims.WF S50000x256 S350000x1 S350000x256 [1] [0] [0] 1
  scatter_S2000x256_S50000x1_S50000x256_1_0_0_1_wf : ScatterDims.WF S2000x256 S50000x1 S50000x256 [1] [0] [0] 1
  scatter_S2000_S50000x1_S50000_n_0_0_1_wf : ScatterDims.WF S2000 S50000x1 S50000 [] [0] [0] 1
  dot_S400x256_S256x64_S400x64_1_0_0_1_n_n_wf : DotDims.WF S400x256 S256x64 S400x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S50000x256.size a
  hwx1_3 : ∀ i : grid1.Coords, EltTy.bits .f32 = 32 ∨ (Rect.block (s := S50000x256) S2000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S50000x256.size a
  hwx2_2 : ∀ i : grid2.Coords, EltTy.bits .f32 = 32 ∨ (Rect.block (s := S50000x256) S2000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x256.size a ≤ S50000x256.size a
  hwx3_3 : ∀ i : grid3.Coords, EltTy.bits .f32 = 32 ∨ (Rect.block (s := S50000x256) S2000x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x256.size a ≤ S1x256.size a
  hwx4_1 : ∀ i : grid4.Coords, EltTy.bits .f32 = 32 ∨ (Rect.block (s := S1x256) S1x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x256.size a ≤ S50000x256.size a
  hwx4_2 : ∀ i : grid4.Coords, EltTy.bits .f32 = 32 ∨ (Rect.block (s := S50000x256) S2000x256.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S50000x256.size a
  hwx5_0 : ∀ i : grid5.Coords, EltTy.bits .f32 = 32 ∨ (Rect.block (s := S50000x256) S2000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x256.size a ≤ S256x256.size a
  hwx5_1 : ∀ i : grid5.Coords, EltTy.bits .f32 = 32 ∨ (Rect.block (s := S256x256) S256x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x256.size a ≤ S50000x256.size a
  hwx5_3 : ∀ i : grid5.Coords, EltTy.bits .f32 = 32 ∨ (Rect.block (s := S50000x256) S2000x256.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S50000x256.size a
  hwx6_0 : ∀ i : grid6.Coords, EltTy.bits .f32 = 32 ∨ (Rect.block (s := S50000x256) S2000x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x256.size a ≤ S1x256.size a
  hwx6_1 : ∀ i : grid6.Coords, EltTy.bits .f32 = 32 ∨ (Rect.block (s := S1x256) S1x256.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x256.size a ≤ S50000x256.size a
  hwx6_2 : ∀ i : grid6.Coords, EltTy.bits .f32 = 32 ∨ (Rect.block (s := S50000x256) S2000x256.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S400x256.size a ≤ S2000x256.size a
  hwx7_0 : ∀ i : grid7.Coords, EltTy.bits .f32 = 32 ∨ (Rect.block (s := S2000x256) S400x256.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S256x64.size a ≤ S256x64.size a
  hwx7_1 : ∀ i : grid7.Coords, EltTy.bits .f32 = 32 ∨ (Rect.block (s := S256x64) S256x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S400x64.size a ≤ S2000x64.size a
  hwx7_5 : ∀ i : grid7.Coords, EltTy.bits .f32 = 32 ∨ (Rect.block (s := S2000x64) S400x64.size (cc7_transform_5 i) (hinb7_5 i)).WholeWords (EltTy.packing .f32)

variable [Facts₀]

def scatter_S50000_S350000x1_S350000_n_0_0_1 : ScatterDims S50000 S350000x1 S350000 where
  updateWindowDims := []
  insertedWindowDims := [0]
  scatterDimsToOperandDims := [0]
  indexVectorDim := 1
  wf := scatter_S50000_S350000x1_S350000_n_0_0_1_wf
def gather_S50000_S350000x1_S350000_n_0_n_n_0_1_1 : GatherDims S50000 S350000x1 S350000 where
  offsetDims := []
  collapsedSliceDims := [0]
  operandBatchingDims := []
  startIndicesBatchingDims := []
  startIndexMap := [0]
  indexVectorDim := 1
  sliceSizes := ![1]
  wf := gather_S50000_S350000x1_S350000_n_0_n_n_0_1_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S350000x1_S350000x256_1_0_n_n_0_1_1256 : GatherDims S50000x256 S350000x1 S350000x256 where
  offsetDims := [1]
  collapsedSliceDims := [0]
  operandBatchingDims := []
  startIndicesBatchingDims := []
  startIndexMap := [0]
  indexVectorDim := 1
  sliceSizes := ![1, 256]
  wf := gather_S50000x256_S350000x1_S350000x256_1_0_n_n_0_1_1256_wf
def scatter_S50000x256_S350000x1_S350000x256_1_0_0_1 : ScatterDims S50000x256 S350000x1 S350000x256 where
  updateWindowDims := [1]
  insertedWindowDims := [0]
  scatterDimsToOperandDims := [0]
  indexVectorDim := 1
  wf := scatter_S50000x256_S350000x1_S350000x256_1_0_0_1_wf
def scatter_S2000x256_S50000x1_S50000x256_1_0_0_1 : ScatterDims S2000x256 S50000x1 S50000x256 where
  updateWindowDims := [1]
  insertedWindowDims := [0]
  scatterDimsToOperandDims := [0]
  indexVectorDim := 1
  wf := scatter_S2000x256_S50000x1_S50000x256_1_0_0_1_wf
def scatter_S2000_S50000x1_S50000_n_0_0_1 : ScatterDims S2000 S50000x1 S50000 where
  updateWindowDims := []
  insertedWindowDims := [0]
  scatterDimsToOperandDims := [0]
  indexVectorDim := 1
  wf := scatter_S2000_S50000x1_S50000_n_0_0_1_wf
def dot_S400x256_S256x64_S400x64_1_0_0_1_n_n : DotDims S400x256 S256x64 S400x64 where
  lhsContracting := [1]
  rhsContracting := [0]
  lhsNonContracting := [0]
  rhsNonContracting := [1]
  lhsBatch := []
  rhsBatch := []
  wf := dot_S400x256_S256x64_S400x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v31) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v35) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S2000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v54) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v58) S2000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v62) S2000x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v80) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v83) S1x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v84) S2000x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v84) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v86) S256x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v87) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v88) S2000x256.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v106) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v109) S1x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v110) S2000x256.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v122) S400x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg7) S256x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v123) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v124) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v125) S1x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v126) S400x64.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S50000x128 : Shape := ⟨2, ![50000, 128]⟩
abbrev S2x300000 : Shape := ⟨2, ![2, 300000]⟩
abbrev S50000 : Shape := ⟨1, ![50000]⟩
abbrev S128x256 : Shape := ⟨2, ![128, 256]⟩
abbrev S256 : Shape := ⟨1, ![256]⟩
abbrev S3x256x256 : Shape := ⟨3, ![3, 256, 256]⟩
abbrev S3x256 : Shape := ⟨2, ![3, 256]⟩
abbrev S256x64 : Shape := ⟨2, ![256, 64]⟩
abbrev S64 : Shape := ⟨1, ![64]⟩
abbrev S1x300000 : Shape := ⟨2, ![1, 300000]⟩
abbrev S300000 : Shape := ⟨1, ![300000]⟩
abbrev S350000 : Shape := ⟨1, ![350000]⟩
abbrev S_ : Shape := ⟨0, ![]⟩
abbrev S350000x1 : Shape := ⟨2, ![350000, 1]⟩
abbrev S50000x256 : Shape := ⟨2, ![50000, 256]⟩
abbrev S1x256 : Shape := ⟨2, ![1, 256]⟩
abbrev S1x256x256 : Shape := ⟨3, ![1, 256, 256]⟩
abbrev S256x256 : Shape := ⟨2, ![256, 256]⟩
abbrev S350000x256 : Shape := ⟨2, ![350000, 256]⟩
abbrev S2000x256 : Shape := ⟨2, ![2000, 256]⟩
abbrev S50000x1 : Shape := ⟨2, ![50000, 1]⟩
abbrev S2000 : Shape := ⟨1, ![2000]⟩
abbrev S2000x1 : Shape := ⟨2, ![2000, 1]⟩
abbrev S2000x64 : Shape := ⟨2, ![2000, 64]⟩
abbrev S1x64 : Shape := ⟨2, ![1, 64]⟩

abbrev nBuf : Space → Nat
  | .hbm => 206
  | .vmem => 0
  | .smem => 0
  | _ => 0

abbrev hbmTy0_0 (i : Nat) : BufTy := match i % 128 with
  | 0 => ⟨S50000x128, .f32⟩
  | 1 => ⟨S2x300000, .i32⟩
  | 2 => ⟨S50000, .i32⟩
  | 3 => ⟨S128x256, .f32⟩
  | 4 => ⟨S256, .f32⟩
  | 5 => ⟨S3x256x256, .f32⟩
  | 6 => ⟨S3x256, .f32⟩
  | 7 => ⟨S256x64, .f32⟩
  | 8 => ⟨S64, .f32⟩
  | 9 => ⟨S64, .f32⟩
  | 10 => ⟨S64, .f32⟩
  | 11 => ⟨S50000, .i32⟩
  | 12 => ⟨S1x300000, .i32⟩
  | 13 => ⟨S300000, .i32⟩
  | 14 => ⟨S350000, .i32⟩
  | 15 => ⟨S1x300000, .i32⟩
  | 16 => ⟨S300000, .i32⟩
  | 17 => ⟨S350000, .i32⟩
  | 18 => ⟨S_, .f32⟩
  | 19 => ⟨S350000, .f32⟩
  | 20 => ⟨S_, .f32⟩
  | 21 => ⟨S50000, .f32⟩
  | 22 => ⟨S350000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S350000, .i32⟩
  | 34 => ⟨S350000, .i1⟩
  | 35 => ⟨S_, .i32⟩
  | 36 => ⟨S350000, .i32⟩
  | 37 => ⟨S350000, .i32⟩
  | 38 => ⟨S350000, .i32⟩
  | 39 => ⟨S350000x1, .i32⟩
  | 40 => ⟨S350000, .f32⟩
  | 41 => ⟨S_, .i32⟩
  | 42 => ⟨S350000, .i32⟩
  | 43 => ⟨S350000, .i1⟩
  | 44 => ⟨S_, .i32⟩
  | 45 => ⟨S350000, .i32⟩
  | 46 => ⟨S350000, .i32⟩
  | 47 => ⟨S350000, .i32⟩
  | 48 => ⟨S350000x1, .i32⟩
  | 49 => ⟨S350000, .f32⟩
  | 50 => ⟨S350000, .f32⟩
  | 51 => ⟨S50000x256, .f32⟩
  | 52 => ⟨S1x256, .f32⟩
  | 53 => ⟨S50000x256, .f32⟩
  | 54 => ⟨S50000x256, .f32⟩
  | 55 => ⟨S1x256x256, .f32⟩
  | 56 => ⟨S256x256, .f32⟩
  | 57 => ⟨S1x256, .f32⟩
  | 58 => ⟨S256, .f32⟩
  | 59 => ⟨S50000x256, .f32⟩
  | 60 => ⟨S_, .i32⟩
  | 61 => ⟨S350000, .i32⟩
  | 62 => ⟨S350000, .i1⟩
  | 63 => ⟨S_, .i32⟩
  | 64 => ⟨S350000, .i32⟩
  | 65 => ⟨S350000, .i32⟩
  | 66 => ⟨S350000, .i32⟩
  | 67 => ⟨S350000x1, .i32⟩
  | 68 => ⟨S350000x256, .f32⟩
  | 69 => ⟨S350000x1, .f32⟩
  | 70 => ⟨S350000x256, .f32⟩
  | 71 => ⟨S350000x256, .f32⟩
  | 72 => ⟨S_, .f32⟩
  | 73 => ⟨S50000x256, .f32⟩
  | 74 => ⟨S_, .i32⟩
  | 75 => ⟨S350000, .i32⟩
  | 76 => ⟨S350000, .i1⟩
  | 77 => ⟨S_, .i32⟩
  | 78 => ⟨S350000, .i32⟩
  | 79 => ⟨S350000, .i32⟩
  | 80 => ⟨S350000, .i32⟩
  | 81 => ⟨S350000x1, .i32⟩
  | 82 => ⟨S50000x256, .f32⟩
  | 83 => ⟨S1x256, .f32⟩
  | 84 => ⟨S50000x256, .f32⟩
  | 85 => ⟨S50000x256, .f32⟩
  | 86 => ⟨S_, .f32⟩
  | 87 => ⟨S50000x256, .f32⟩
  | 88 => ⟨S50000x256, .f32⟩
  | 89 => ⟨S1x256x256, .f32⟩
  | 90 => ⟨S256x256, .f32⟩
  | 91 => ⟨S1x256, .f32⟩
  | 92 => ⟨S256, .f32⟩
  | 93 => ⟨S50000x256, .f32⟩
  | 94 => ⟨S_, .i32⟩
  | 95 => ⟨S350000, .i32⟩
  | 96 => ⟨S350000, .i1⟩
  | 97 => ⟨S_, .i32⟩
  | 98 => ⟨S350000, .i32⟩
  | 99 => ⟨S350000, .i32⟩
  | 100 => ⟨S350000, .i32⟩
  | 101 => ⟨S350000x1, .i32⟩
  | 102 => ⟨S350000x256, .f32⟩
  | 103 => ⟨S350000x1, .f32⟩
  | 104 => ⟨S350000x256, .f32⟩
  | 105 => ⟨S350000x256, .f32⟩
  | 106 => ⟨S_, .f32⟩
  | 107 => ⟨S50000x256, .f32⟩
  | 108 => ⟨S_, .i32⟩
  | 109 => ⟨S350000, .i32⟩
  | 110 => ⟨S350000, .i1⟩
  | 111 => ⟨S_, .i32⟩
  | 112 => ⟨S350000, .i32⟩
  | 113 => ⟨S350000, .i32⟩
  | 114 => ⟨S350000, .i32⟩
  | 115 => ⟨S350000x1, .i32⟩
  | 116 => ⟨S50000x256, .f32⟩
  | 117 => ⟨S1x256, .f32⟩
  | 118 => ⟨S50000x256, .f32⟩
  | 119 => ⟨S50000x256, .f32⟩
  | 120 => ⟨S_, .f32⟩
  | 121 => ⟨S50000x256, .f32⟩
  | 122 => ⟨S50000x256, .f32⟩
  | 123 => ⟨S1x256x256, .f32⟩
  | 124 => ⟨S256x256, .f32⟩
  | 125 => ⟨S1x256, .f32⟩
  | 126 => ⟨S256, .f32⟩
  | 127 => ⟨S50000x256, .f32⟩
  | _ => ⟨S50000x128, .f32⟩

abbrev hbmTy0_1 (i : Nat) : BufTy := match i % 128 with
  | 0 => ⟨S_, .i32⟩
  | 1 => ⟨S350000, .i32⟩
  | 2 => ⟨S350000, .i1⟩
  | 3 => ⟨S_, .i32⟩
  | 4 => ⟨S350000, .i32⟩
  | 5 => ⟨S350000, .i32⟩
  | 6 => ⟨S350000, .i32⟩
  | 7 => ⟨S350000x1, .i32⟩
  | 8 => ⟨S350000x256, .f32⟩
  | 9 => ⟨S350000x1, .f32⟩
  | 10 => ⟨S350000x256, .f32⟩
  | 11 => ⟨S350000x256, .f32⟩
  | 12 => ⟨S_, .f32⟩
  | 13 => ⟨S50000x256, .f32⟩
  | 14 => ⟨S_, .i32⟩
  | 15 => ⟨S350000, .i32⟩
  | 16 => ⟨S350000, .i1⟩
  | 17 => ⟨S_, .i32⟩
  | 18 => ⟨S350000, .i32⟩
  | 19 => ⟨S350000, .i32⟩
  | 20 => ⟨S350000, .i32⟩
  | 21 => ⟨S350000x1, .i32⟩
  | 22 => ⟨S50000x256, .f32⟩
  | 23 => ⟨S1x256, .f32⟩
  | 24 => ⟨S50000x256, .f32⟩
  | 25 => ⟨S50000x256, .f32⟩
  | 26 => ⟨S_, .f32⟩
  | 27 => ⟨S50000x256, .f32⟩
  | 28 => ⟨S50000x256, .f32⟩
  | 29 => ⟨S_, .f32⟩
  | 30 => ⟨S2000x256, .f32⟩
  | 31 => ⟨S50000x1, .i32⟩
  | 32 => ⟨S2000x256, .f32⟩
  | 33 => ⟨S_, .f32⟩
  | 34 => ⟨S50000, .f32⟩
  | 35 => ⟨S_, .f32⟩
  | 36 => ⟨S2000, .f32⟩
  | 37 => ⟨S50000x1, .i32⟩
  | 38 => ⟨S2000, .f32⟩
  | 39 => ⟨S_, .f32⟩
  | 40 => ⟨S2000, .f32⟩
  | 41 => ⟨S2000, .f32⟩
  | 42 => ⟨S2000x1, .f32⟩
  | 43 => ⟨S2000x256, .f32⟩
  | 44 => ⟨S2000x256, .f32⟩
  | 45 => ⟨S2000x64, .f32⟩
  | 46 => ⟨S1x64, .f32⟩
  | 47 => ⟨S2000x64, .f32⟩
  | 48 => ⟨S2000x64, .f32⟩
  | 49 => ⟨S_, .f32⟩
  | 50 => ⟨S2000, .f32⟩
  | 51 => ⟨S2000x1, .f32⟩
  | 52 => ⟨S_, .f32⟩
  | 53 => ⟨S2000x1, .f32⟩
  | 54 => ⟨S2000x1, .f32⟩
  | 55 => ⟨S2000x64, .f32⟩
  | 56 => ⟨S2000x64, .f32⟩
  | 57 => ⟨S2000x64, .f32⟩
  | 58 => ⟨S_, .f32⟩
  | 59 => ⟨S2000, .f32⟩
  | 60 => ⟨S2000x1, .f32⟩
  | 61 => ⟨S_, .f32⟩
  | 62 => ⟨S2000x1, .f32⟩
  | 63 => ⟨S2000x1, .f32⟩
  | 64 => ⟨S2000x64, .f32⟩
  | 65 => ⟨S2000x64, .f32⟩
  | 66 => ⟨S_, .f32⟩
  | 67 => ⟨S2000x1, .f32⟩
  | 68 => ⟨S2000x1, .f32⟩
  | 69 => ⟨S2000x1, .f32⟩
  | 70 => ⟨S2000x64, .f32⟩
  | 71 => ⟨S2000x64, .f32⟩
  | 72 => ⟨S1x64, .f32⟩
  | 73 => ⟨S2000x64, .f32⟩
  | 74 => ⟨S2000x64, .f32⟩
  | 75 => ⟨S1x64, .f32⟩
  | 76 => ⟨S2000x64, .f32⟩
  | 77 => ⟨S2000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_6 : Ref sig .tc := ⟨.hbm, 60, rfl⟩
abbrev main_v39 : Ref sig .tc := ⟨.hbm, 61, rfl⟩
abbrev main_v40 : Ref sig .tc := ⟨.hbm, 62, rfl⟩
abbrev main_c_7 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_8 : Ref sig .tc := ⟨.hbm, 72, rfl⟩
abbrev main_v49 : Ref sig .tc := ⟨.hbm, 73, rfl⟩
abbrev main_c_9 : Ref sig .tc := ⟨.hbm, 74, rfl⟩
abbrev main_v50 : Ref sig .tc := ⟨.hbm, 75, rfl⟩
abbrev main_v51 : Ref sig .tc := ⟨.hbm, 76, rfl⟩
abbrev main_c_10 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_call1_cst : Ref sig .tc := ⟨.hbm, 86, rfl⟩
abbrev main_call1_v0 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_c_11 : Ref sig .tc := ⟨.hbm, 94, rfl⟩
abbrev main_v66 : Ref sig .tc := ⟨.hbm, 95, rfl⟩
abbrev main_v67 : Ref sig .tc := ⟨.hbm, 96, rfl⟩
abbrev main_c_12 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_13 : Ref sig .tc := ⟨.hbm, 106, rfl⟩
abbrev main_v76 : Ref sig .tc := ⟨.hbm, 107, rfl⟩
abbrev main_c_14 : Ref sig .tc := ⟨.hbm, 108, rfl⟩
abbrev main_v77 : Ref sig .tc := ⟨.hbm, 109, rfl⟩
abbrev main_v78 : Ref sig .tc := ⟨.hbm, 110, rfl⟩
abbrev main_c_15 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_call2_cst : Ref sig .tc := ⟨.hbm, 120, rfl⟩
abbrev main_call2_v0 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_c_16 : Ref sig .tc := ⟨.hbm, 128, rfl⟩
abbrev main_v93 : Ref sig .tc := ⟨.hbm, 129, rfl⟩
abbrev main_v94 : Ref sig .tc := ⟨.hbm, 130, rfl⟩
abbrev main_c_17 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_cst_18 : Ref sig .tc := ⟨.hbm, 140, rfl⟩
abbrev main_v103 : Ref sig .tc := ⟨.hbm, 141, rfl⟩
abbrev main_c_19 : Ref sig .tc := ⟨.hbm, 142, rfl⟩
abbrev main_v104 : Ref sig .tc := ⟨.hbm, 143, rfl⟩
abbrev main_v105 : Ref sig .tc := ⟨.hbm, 144, rfl⟩
abbrev main_c_20 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_call3_cst : Ref sig .tc := ⟨.hbm, 154, rfl⟩
abbrev main_call3_v0 : Ref sig .tc := ⟨.hbm, 155, rfl⟩
abbrev main_v114 : Ref sig .tc := ⟨.hbm, 156, rfl⟩
abbrev main_cst_21 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_cst_22 : Ref sig .tc := ⟨.hbm, 161, rfl⟩
abbrev main_v118 : Ref sig .tc := ⟨.hbm, 162, rfl⟩
abbrev main_cst_23 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_cst_24 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_cst_25 : Ref sig .tc := ⟨.hbm, 177, rfl⟩
abbrev main_v131 : Ref sig .tc := ⟨.hbm, 178, rfl⟩
abbrev main_v132 : Ref sig .tc := ⟨.hbm, 179, rfl⟩
abbrev main_cst_26 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_cst_27 : Ref sig .tc := ⟨.hbm, 186, rfl⟩
abbrev main_v138 : Ref sig .tc := ⟨.hbm, 187, rfl⟩
abbrev main_v139 : Ref sig .tc := ⟨.hbm, 188, rfl⟩
abbrev main_cst_28 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_cst_29 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩

abbrev nD : Nat := 1
abbrev τ : Topo := Topo.v7x

variable {F : FTy → Type} [FloatOps F]

class Facts₀ : Prop where
  slices_S2x300000_S1x300000_0_0 : S2x300000.Slices ![0, 0] S1x300000
  shapeCasts_S1x300000_S300000 : S1x300000.ShapeCasts S300000
  concatenates_S300000_S50000_S350000_d0 : Shape.Concatenates [S300000, S50000] S350000 0
  slices_S2x300000_S1x300000_1_0 : S2x300000.Slices ![1, 0] S1x300000
  bcast_S_S350000 : S_.BroadcastsInDim S350000 (![] : Fin 0 → Fin S350000.rank)
  bcast_S_S50000 : S_.BroadcastsInDim S50000 (![] : Fin 0 → Fin S50000.rank)
  bcast_S350000_S350000x1_0 : S350000.BroadcastsInDim S350000x1 (![0] : Fin 1 → Fin S350000x1.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  bcast_S350000x1_S350000x256_0_1 : S350000x1.BroadcastsInDim S350000x256 (![0, 1] : Fin 2 → Fin S350000x256.rank)
  bcast_S_S50000x256 : S_.BroadcastsInDim S50000x256 (![] : Fin 0 → Fin S50000x256.rank)
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  bcast_S_S2000x256 : S_.BroadcastsInDim S2000x256 (![] : Fin 0 → Fin S2000x256.rank)
  bcast_S50000_S50000x1_0 : S50000.BroadcastsInDim S50000x1 (![0] : Fin 1 → Fin S50000x1.rank)
  bcast_S_S2000 : S_.BroadcastsInDim S2000 (![] : Fin 0 → Fin S2000.rank)
  bcast_S2000_S2000x1_0 : S2000.BroadcastsInDim S2000x1 (![0] : Fin 1 → Fin S2000x1.rank)
  bcast_S2000x1_S2000x256_0_1 : S2000x1.BroadcastsInDim S2000x256 (![0, 1] : Fin 2 → Fin S2000x256.rank)
  bcast_S64_S1x64_1 : S64.BroadcastsInDim S1x64 (![1] : Fin 1 → Fin S1x64.rank)
  bcast_S1x64_S2000x64_0_1 : S1x64.BroadcastsInDim S2000x64 (![0, 1] : Fin 2 → Fin S2000x64.rank)
  reducesTo_S2000x64_S2000_d1 : S2000x64.ReducesTo [1] S2000
  h_S_ : 0 < S_.numel
  bcast_S_S2000x1 : S_.BroadcastsInDim S2000x1 (![] : Fin 0 → Fin S2000x1.rank)
  bcast_S2000x1_S2000x64_0_1 : S2000x1.BroadcastsInDim S2000x64 (![0, 1] : Fin 2 → Fin S2000x64.rank)
  scatter_S50000_S350000x1_S350000_n_0_0_1_wf : ScatterDims.WF S50000 S350000x1 S350000 [] [0] [0] 1
  gather_S50000_S350000x1_S350000_n_0_n_n_0_1_1_wf : GatherDims.WF S50000 S350000x1 S350000 [] [0] [] [0] [] 1 ![1]
  dot_S50000x128_S128x256_S50000x256_1_0_0_1_n_n_wf : DotDims.WF S50000x128 S128x256 S50000x256 [1] [0] [0] [1] [] []
  dot_S50000x256_S256x256_S50000x256_1_0_0_1_n_n_wf : DotDims.WF S50000x256 S256x256 S50000x256 [1] [0] [0] [1] [] []
  gather_S50000x256_S350000x1_S350000x256_1_0_n_n_0_1_1256_wf : GatherDims.WF S50000x256 S350000x1 S350000x256 [1] [0] [] [0] [] 1 ![1, 256]
  scatter_S50000x256_S350000x1_S350000x256_1_0_0_1_wf : ScatterDims.WF S50000x256 S350000x1 S350000x256 [1] [0] [0] 1
  scatter_S2000x256_S50000x1_S50000x256_1_0_0_1_wf : ScatterDims.WF S2000x256 S50000x1 S50000x256 [1] [0] [0] 1
  scatter_S2000_S50000x1_S50000_n_0_0_1_wf : ScatterDims.WF S2000 S50000x1 S50000 [] [0] [0] 1
  dot_S2000x256_S256x64_S2000x64_1_0_0_1_n_n_wf : DotDims.WF S2000x256 S256x64 S2000x64 [1] [0] [0] [1] [] []

variable [Facts₀]

def scatter_S50000_S350000x1_S350000_n_0_0_1 : ScatterDims S50000 S350000x1 S350000 where
  updateWindowDims := []
  insertedWindowDims := [0]
  scatterDimsToOperandDims := [0]
  indexVectorDim := 1
  wf := scatter_S50000_S350000x1_S350000_n_0_0_1_wf
def gather_S50000_S350000x1_S350000_n_0_n_n_0_1_1 : GatherDims S50000 S350000x1 S350000 where
  offsetDims := []
  collapsedSliceDims := [0]
  operandBatchingDims := []
  startIndicesBatchingDims := []
  startIndexMap := [0]
  indexVectorDim := 1
  sliceSizes := ![1]
  wf := gather_S50000_S350000x1_S350000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S350000x1_S350000x256_1_0_n_n_0_1_1256 : GatherDims S50000x256 S350000x1 S350000x256 where
  offsetDims := [1]
  collapsedSliceDims := [0]
  operandBatchingDims := []
  startIndicesBatchingDims := []
  startIndexMap := [0]
  indexVectorDim := 1
  sliceSizes := ![1, 256]
  wf := gather_S50000x256_S350000x1_S350000x256_1_0_n_n_0_1_1256_wf
def scatter_S50000x256_S350000x1_S350000x256_1_0_0_1 : ScatterDims S50000x256 S350000x1 S350000x256 where
  updateWindowDims := [1]
  insertedWindowDims := [0]
  scatterDimsToOperandDims := [0]
  indexVectorDim := 1
  wf := scatter_S50000x256_S350000x1_S350000x256_1_0_0_1_wf
def scatter_S2000x256_S50000x1_S50000x256_1_0_0_1 : ScatterDims S2000x256 S50000x1 S50000x256 where
  updateWindowDims := [1]
  insertedWindowDims := [0]
  scatterDimsToOperandDims := [0]
  indexVectorDim := 1
  wf := scatter_S2000x256_S50000x1_S50000x256_1_0_0_1_wf
def scatter_S2000_S50000x1_S50000_n_0_0_1 : ScatterDims S2000 S50000x1 S50000 where
  updateWindowDims := []
  insertedWindowDims := [0]
  scatterDimsToOperandDims := [0]
  indexVectorDim := 1
  wf := scatter_S2000_S50000x1_S50000_n_0_0_1_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf

class Facts : Prop extends Facts₀ where

variable [Facts]
-- ==== Proof.KernelRun.lean ====
/-
  The idealized kernel's run, with the result named.

  The program is eight kernel regions among stretches of host operations. Its run is the chain of those segments
  from the launch memory; the contents of every buffer at every segment boundary are a fold through the program
  (a stretch applies its operations; a region replaces its output array by what its write-backs leave and keeps
  everything else). After the last region every buffer that is not scoped to a region holds the last boundary's
  contents — the arguments what they held at launch, and the result buffer the last region's output array.
  This is the run that establishes the program's frame, read once more for the result buffer as well.
-/
import proofs.«173320_j31851477467888_1_alg».proof.Proof.Gen.KernelIdeal.Frame

set_option maxRecDepth 16384

noncomputable section

namespace Cert.KernelIdeal.RunK

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from a memory with zero counters terminates without a fault; the
    result buffer ends at the last boundary's contents of it, and the arguments end as launched. -/
theorem run_result : θ_run defs (onTc (τ := τ) (main (F := F))) ⟨m, fun _ => 0, ρ⟩ (fun r => ∀ c : Dev nD,
      r.2.mem ((c.tc : Thread nD τ).loc main_v126) = W18 m ρ c (Proc.devRef .tc main_v126)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v126 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c)⟩)

end Cert.KernelIdeal.RunK

end
-- ==== Proof.LibHostKeeps.lean ====
/-
  Two small tactics for reading buffers through straight lines of host operations.

  A straight line of host operations writes only its operations' result buffers. So a buffer that is none of them
  holds after the line what it held before, whatever contents the line is entered with: `host_keeps ops` proves a goal
  `StableHlo.after ops W (Proc.devRef .tc b) = W (Proc.devRef .tc b)` for a literal list `ops` (named by the
  abbreviation that a `simp only` may unfold) and a literal reference `b`, by comparing `b` with each result buffer in
  turn. It is the step with which a value is carried across the host stretches of a program of several kernel
  regions (across a region, the frame's own `W…_of_ne` does the same).

  The operations of an outlined function (a `where`, a `relu`: `TRef.unary …`) carry each value to its buffer's own
  type and back. For literal references both carriages are casts along an equation between one type and itself:
  `drop_casts` removes them all, leaving the plain operations' term for `rfl` or a rewrite.
-/
import Idealize.ShloMosaic.Lib.StableHlo.Run

namespace Cert.LibHostKeeps

open Idealize.ShloMosaic

/-- No operation of the named list writes the goal's buffer: its result buffers, one by one, are other references. -/
macro "host_keeps " ops:ident : tactic => `(tactic| exact StableHlo.after_of_forall_not_mem _ _ (List.forall_iff_forall_mem.mp (by
  simp only [$ops:ident, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide))))

/-- The carriages of values to and from their buffers' own types, at literal references, are the identity. -/
macro "drop_casts" : tactic => `(tactic| simp only [StableHlo.TRef.toBuf, StableHlo.TRef.ofBuf, cast_eq])

end Cert.LibHostKeeps
-- ==== Proof.ChainHost.lean ====
/-
  The host stretches of the idealized kernel, read one buffer at a time.

  Between its kernel regions the program runs the same host operations as the reference does: it builds the edge
  lists with self loops, the symmetric degree normalisation, and per layer the gather of the source rows, their scaling,
  the scatter-add into the destination rows, and at the end the pooling of node rows into graph rows. Each lemma
  here says what one stretch leaves in one buffer as a function of the buffers it reads — named by the reference's
  own stage for that value when the stretch's inputs hold the reference's stages — for ANY contents the stretch is
  entered with. The slices of the stacked weights and biases, and the bias rows (a length-d array viewed as [1, d]),
  are read the same way.
-/
import proofs.«173320_j31851477467888_1_alg».proof.Proof.Gen.KernelIdeal.Launch
import proofs.«173320_j31851477467888_1_alg».proof.Proof.RefRead
import Idealize.ShloMosaic.Lib.StableHlo.Run
import proofs.«173320_j31851477467888_1_alg».proof.Proof.LibHostKeeps

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo
open Cert.ReferenceIdeal.ReadP

variable (W : Valuation τ sig (Elt Ideal))

/-! ## Before the first region: edge lists, degrees, normalisation, the encoder's bias row -/

set_option maxHeartbeats 1000000 in
theorem h0_v3 (x1 : (⟨Cert.ReferenceIdeal.S2x300000, .i32⟩ : BufTy).Contents (Elt Ideal)) (h1 : W (Proc.devRef .tc main_arg1) = x1) :
    StableHlo.after hostOps0 W (Proc.devRef .tc main_v3) = val_main_v3 (F := Ideal) x1 := by
  subst h1; dsimp only [hostOps0]; after_results_simp <;> rfl
set_option maxHeartbeats 1000000 in
theorem h0_v6 (x1 : (⟨Cert.ReferenceIdeal.S2x300000, .i32⟩ : BufTy).Contents (Elt Ideal)) (h1 : W (Proc.devRef .tc main_arg1) = x1) :
    StableHlo.after hostOps0 W (Proc.devRef .tc main_v6) = val_main_v6 (F := Ideal) x1 := by
  subst h1; dsimp only [hostOps0]; after_results_simp <;> rfl
set_option maxHeartbeats 1000000 in
theorem h0_v12 (x1 : (⟨Cert.ReferenceIdeal.S2x300000, .i32⟩ : BufTy).Contents (Elt Ideal)) (h1 : W (Proc.devRef .tc main_arg1) = x1) :
    StableHlo.after hostOps0 W (Proc.devRef .tc main_v12) = val_main_v12 (F := Ideal) x1 := by
  subst h1; dsimp only [hostOps0]; after_results_simp <;> rfl
set_option maxHeartbeats 1000000 in
theorem h0_v13 (x1 : (⟨Cert.ReferenceIdeal.S2x300000, .i32⟩ : BufTy).Contents (Elt Ideal)) (h1 : W (Proc.devRef .tc main_arg1) = x1) :
    StableHlo.after hostOps0 W (Proc.devRef .tc main_v13) = val_main_v13 (F := Ideal) x1 := by
  subst h1; dsimp only [hostOps0]; after_results_simp <;> rfl
set_option maxHeartbeats 1000000 in
theorem h0_cst2 : StableHlo.after hostOps0 W (Proc.devRef .tc main_cst_2) = val_main_cst_2 (F := Ideal) := by
  dsimp only [hostOps0]; after_results_simp <;> rfl

set_option maxHeartbeats 1000000 in
theorem h01_v14 (x1 : (⟨Cert.ReferenceIdeal.S2x300000, .i32⟩ : BufTy).Contents (Elt Ideal)) (h12 : W (Proc.devRef .tc main_v12) = val_main_v12 (F := Ideal) x1)
    (h13 : W (Proc.devRef .tc main_v13) = val_main_v13 (F := Ideal) x1) (hc : W (Proc.devRef .tc main_cst_2) = val_main_cst_2 (F := Ideal)) :
    StableHlo.after hostOps0_1 W (Proc.devRef .tc main_v14) = val_main_v14 (F := Ideal) x1 := by
  dsimp only [hostOps0_1]; after_results; rw [h12, h13, hc]
  drop_casts; rfl

set_option maxHeartbeats 1000000 in
theorem h02_v29 (x1 : (⟨Cert.ReferenceIdeal.S2x300000, .i32⟩ : BufTy).Contents (Elt Ideal)) (h14 : W (Proc.devRef .tc main_v14) = val_main_v14 (F := Ideal) x1)
    (h3 : W (Proc.devRef .tc main_v3) = val_main_v3 (F := Ideal) x1) (h6 : W (Proc.devRef .tc main_v6) = val_main_v6 (F := Ideal) x1) :
    StableHlo.after hostOps0_2 W (Proc.devRef .tc main_v29) = val_main_v29 (F := Ideal) x1 := by
  dsimp only [hostOps0_2]; after_results_simp; rw [h14, h3, h6]; rfl
set_option maxHeartbeats 1000000 in
theorem h02_v30 (x4 : (⟨Cert.ReferenceIdeal.S256, .f32⟩ : BufTy).Contents (Elt Ideal)) (h4 : W (Proc.devRef .tc main_arg4) = x4) :
    StableHlo.after hostOps0_2 W (Proc.devRef .tc main_v30) = shapeCast S1x256 x4 shapeCasts_S256_S1x256 := by
  subst h4; dsimp only [hostOps0_2]; after_results_simp <;> rfl

/-! ## Before the first hidden layer: the zero bias, the first weight slice -/

set_option maxHeartbeats 1000000 in
theorem h1_v32 : StableHlo.after hostOps1 W (Proc.devRef .tc main_v32)
    = broadcastInDim S256 ![] bcast_S_S256 (constant (F := Ideal) S_ .f32 0x00000000#32) := by
  dsimp only [hostOps1]; after_results_simp <;> rfl
set_option maxHeartbeats 1000000 in
theorem h1_v34 (x5 : (⟨Cert.ReferenceIdeal.S3x256x256, .f32⟩ : BufTy).Contents (Elt Ideal)) (h5 : W (Proc.devRef .tc main_arg5) = x5) :
    StableHlo.after hostOps1 W (Proc.devRef .tc main_v34) = val_main_v35 (F := Ideal) x5 := by
  subst h5; dsimp only [hostOps1]; after_results_simp <;> rfl
set_option maxHeartbeats 1000000 in
theorem h1_v35 : StableHlo.after hostOps1 W (Proc.devRef .tc main_v35)
    = shapeCast S1x256 (broadcastInDim S256 ![] bcast_S_S256 (constant (F := Ideal) S_ .f32 0x00000000#32)) shapeCasts_S256_S1x256 := by
  dsimp only [hostOps1]; after_results_simp <;> rfl

/-! ## Layer 1: gather, scale, scatter-add; the layer's bias row -/

set_option maxHeartbeats 1000000 in
theorem h2_v54 (x0 : (⟨Cert.ReferenceIdeal.S50000x128, .f32⟩ : BufTy).Contents (Elt Ideal)) (x1 : (⟨Cert.ReferenceIdeal.S2x300000, .i32⟩ : BufTy).Contents (Elt Ideal)) (x3 : (⟨Cert.ReferenceIdeal.S128x256, .f32⟩ : BufTy).Contents (Elt Ideal)) (x4 : (⟨Cert.ReferenceIdeal.S256, .f32⟩ : BufTy).Contents (Elt Ideal)) (x5 : (⟨Cert.ReferenceIdeal.S3x256x256, .f32⟩ : BufTy).Contents (Elt Ideal))
    (h36 : W (Proc.devRef .tc main_v36) = val_main_v38 (F := Ideal) x0 x3 x4 x5) (h3 : W (Proc.devRef .tc main_v3) = val_main_v3 (F := Ideal) x1)
    (h6 : W (Proc.devRef .tc main_v6) = val_main_v6 (F := Ideal) x1) (h29 : W (Proc.devRef .tc main_v29) = val_main_v29 (F := Ideal) x1) :
    StableHlo.after hostOps2 W (Proc.devRef .tc main_v54) = val_main_v56 (F := Ideal) x0 x1 x3 x4 x5 := by
  dsimp only [hostOps2]; after_results_simp; rw [h36, h3, h6, h29]; rfl
set_option maxHeartbeats 1000000 in
theorem h2_v57 (x6 : (⟨Cert.ReferenceIdeal.S3x256, .f32⟩ : BufTy).Contents (Elt Ideal)) (h6 : W (Proc.devRef .tc main_arg6) = x6) :
    StableHlo.after hostOps2 W (Proc.devRef .tc main_v57) = shapeCast S1x256 (val_main_v37 (F := Ideal) x6) shapeCasts_S256_S1x256 := by
  subst h6; dsimp only [hostOps2]; after_results_simp <;> rfl

/-! ## Before the second hidden layer -/

set_option maxHeartbeats 1000000 in
theorem h3_v60 (x5 : (⟨Cert.ReferenceIdeal.S3x256x256, .f32⟩ : BufTy).Contents (Elt Ideal)) (h5 : W (Proc.devRef .tc main_arg5) = x5) :
    StableHlo.after hostOps3 W (Proc.devRef .tc main_v60) = val_main_v62 (F := Ideal) x5 := by
  subst h5; dsimp only [hostOps3]; after_results_simp <;> rfl
set_option maxHeartbeats 1000000 in
theorem h3_v61 : StableHlo.after hostOps3 W (Proc.devRef .tc main_v61) = shapeCast S1x256 (W (Proc.devRef .tc main_v32)) shapeCasts_S256_S1x256 := by
  dsimp only [hostOps3]; after_results_simp <;> rfl

/-! ## Layer 2 -/

set_option maxHeartbeats 1000000 in
theorem h4_v80 (x0 : (⟨Cert.ReferenceIdeal.S50000x128, .f32⟩ : BufTy).Contents (Elt Ideal)) (x1 : (⟨Cert.ReferenceIdeal.S2x300000, .i32⟩ : BufTy).Contents (Elt Ideal)) (x3 : (⟨Cert.ReferenceIdeal.S128x256, .f32⟩ : BufTy).Contents (Elt Ideal)) (x4 : (⟨Cert.ReferenceIdeal.S256, .f32⟩ : BufTy).Contents (Elt Ideal)) (x5 : (⟨Cert.ReferenceIdeal.S3x256x256, .f32⟩ : BufTy).Contents (Elt Ideal)) (x6 : (⟨Cert.ReferenceIdeal.S3x256, .f32⟩ : BufTy).Contents (Elt Ideal))
    (h62 : W (Proc.devRef .tc main_v62) = val_main_v65 (F := Ideal) x0 x1 x3 x4 x5 x6) (h3 : W (Proc.devRef .tc main_v3) = val_main_v3 (F := Ideal) x1)
    (h6 : W (Proc.devRef .tc main_v6) = val_main_v6 (F := Ideal) x1) (h29 : W (Proc.devRef .tc main_v29) = val_main_v29 (F := Ideal) x1) :
    StableHlo.after hostOps4 W (Proc.devRef .tc main_v80) = val_main_v83 (F := Ideal) x0 x1 x3 x4 x5 x6 := by
  dsimp only [hostOps4]; after_results_simp; rw [h62, h3, h6, h29]; rfl
set_option maxHeartbeats 1000000 in
theorem h4_v83 (x6 : (⟨Cert.ReferenceIdeal.S3x256, .f32⟩ : BufTy).Contents (Elt Ideal)) (h6 : W (Proc.devRef .tc main_arg6) = x6) :
    StableHlo.after hostOps4 W (Proc.devRef .tc main_v83) = shapeCast S1x256 (val_main_v64 (F := Ideal) x6) shapeCasts_S256_S1x256 := by
  subst h6; dsimp only [hostOps4]; after_results_simp <;> rfl

/-! ## Before the third hidden layer -/

set_option maxHeartbeats 1000000 in
theorem h5_v86 (x5 : (⟨Cert.ReferenceIdeal.S3x256x256, .f32⟩ : BufTy).Contents (Elt Ideal)) (h5 : W (Proc.devRef .tc main_arg5) = x5) :
    StableHlo.after hostOps5 W (Proc.devRef .tc main_v86) = val_main_v89 (F := Ideal) x5 := by
  subst h5; dsimp only [hostOps5]; after_results_simp <;> rfl
set_option maxHeartbeats 1000000 in
theorem h5_v87 : StableHlo.after hostOps5 W (Proc.devRef .tc main_v87) = shapeCast S1x256 (W (Proc.devRef .tc main_v32)) shapeCasts_S256_S1x256 := by
  dsimp only [hostOps5]; after_results_simp <;> rfl

/-! ## Layer 3 -/

set_option maxHeartbeats 1000000 in
theorem h6_v106 (x0 : (⟨Cert.ReferenceIdeal.S50000x128, .f32⟩ : BufTy).Contents (Elt Ideal)) (x1 : (⟨Cert.ReferenceIdeal.S2x300000, .i32⟩ : BufTy).Contents (Elt Ideal)) (x3 : (⟨Cert.ReferenceIdeal.S128x256, .f32⟩ : BufTy).Contents (Elt Ideal)) (x4 : (⟨Cert.ReferenceIdeal.S256, .f32⟩ : BufTy).Contents (Elt Ideal)) (x5 : (⟨Cert.ReferenceIdeal.S3x256x256, .f32⟩ : BufTy).Contents (Elt Ideal)) (x6 : (⟨Cert.ReferenceIdeal.S3x256, .f32⟩ : BufTy).Contents (Elt Ideal))
    (h88 : W (Proc.devRef .tc main_v88) = val_main_v92 (F := Ideal) x0 x1 x3 x4 x5 x6) (h3 : W (Proc.devRef .tc main_v3) = val_main_v3 (F := Ideal) x1)
    (h6 : W (Proc.devRef .tc main_v6) = val_main_v6 (F := Ideal) x1) (h29 : W (Proc.devRef .tc main_v29) = val_main_v29 (F := Ideal) x1) :
    StableHlo.after hostOps6 W (Proc.devRef .tc main_v106) = val_main_v110 (F := Ideal) x0 x1 x3 x4 x5 x6 := by
  dsimp only [hostOps6]; after_results_simp; rw [h88, h3, h6, h29]; rfl
set_option maxHeartbeats 1000000 in
theorem h6_v109 (x6 : (⟨Cert.ReferenceIdeal.S3x256, .f32⟩ : BufTy).Contents (Elt Ideal)) (h6 : W (Proc.devRef .tc main_arg6) = x6) :
    StableHlo.after hostOps6 W (Proc.devRef .tc main_v109) = shapeCast S1x256 (val_main_v91 (F := Ideal) x6) shapeCasts_S256_S1x256 := by
  subst h6; dsimp only [hostOps6]; after_results_simp <;> rfl

/-! ## Pooling of node rows into graph rows; the projection's bias, scale and shift rows -/

set_option maxHeartbeats 1000000 in
theorem h7_v122 (x0 : (⟨Cert.ReferenceIdeal.S50000x128, .f32⟩ : BufTy).Contents (Elt Ideal)) (x1 : (⟨Cert.ReferenceIdeal.S2x300000, .i32⟩ : BufTy).Contents (Elt Ideal)) (x2 : (⟨Cert.ReferenceIdeal.S50000, .i32⟩ : BufTy).Contents (Elt Ideal)) (x3 : (⟨Cert.ReferenceIdeal.S128x256, .f32⟩ : BufTy).Contents (Elt Ideal)) (x4 : (⟨Cert.ReferenceIdeal.S256, .f32⟩ : BufTy).Contents (Elt Ideal)) (x5 : (⟨Cert.ReferenceIdeal.S3x256x256, .f32⟩ : BufTy).Contents (Elt Ideal)) (x6 : (⟨Cert.ReferenceIdeal.S3x256, .f32⟩ : BufTy).Contents (Elt Ideal))
    (h110 : W (Proc.devRef .tc main_v110) = val_main_v114 (F := Ideal) x0 x1 x3 x4 x5 x6) (h2 : W (Proc.devRef .tc main_arg2) = x2) :
    StableHlo.after hostOps7 W (Proc.devRef .tc main_v122) = val_main_v126 (F := Ideal) x0 x1 x2 x3 x4 x5 x6 := by
  subst h2; dsimp only [hostOps7]; after_results_simp; rw [h110]; rfl
set_option maxHeartbeats 1000000 in
theorem h7_v123 (x8 : (⟨Cert.ReferenceIdeal.S64, .f32⟩ : BufTy).Contents (Elt Ideal)) (h8 : W (Proc.devRef .tc main_arg8) = x8) :
    StableHlo.after hostOps7 W (Proc.devRef .tc main_v123) = shapeCast S1x64 x8 shapeCasts_S64_S1x64 := by
  subst h8; dsimp only [hostOps7]; after_results_simp <;> rfl
set_option maxHeartbeats 1000000 in
theorem h7_v124 (x9 : (⟨Cert.ReferenceIdeal.S64, .f32⟩ : BufTy).Contents (Elt Ideal)) (h9 : W (Proc.devRef .tc main_arg9) = x9) :
    StableHlo.after hostOps7 W (Proc.devRef .tc main_v124) = shapeCast S1x64 x9 shapeCasts_S64_S1x64 := by
  subst h9; dsimp only [hostOps7]; after_results_simp <;> rfl
set_option maxHeartbeats 1000000 in
theorem h7_v125 (x10 : (⟨Cert.ReferenceIdeal.S64, .f32⟩ : BufTy).Contents (Elt Ideal)) (h10 : W (Proc.devRef .tc main_arg10) = x10) :
    StableHlo.after hostOps7 W (Proc.devRef .tc main_v125) = shapeCast S1x64 x10 shapeCasts_S64_S1x64 := by
  subst h10; dsimp only [hostOps7]; after_results_simp <;> rfl

end Cert.KernelIdeal.Host

end
-- ==== Proof.ChainSkip.lean ====
/-
  What a host stretch does not write, it keeps.

  Each stretch of host operations writes only its own result buffers. A buffer that is none of them — an argument of
  the program, the edge lists, the normalisation, a weight slice made earlier — holds after the stretch what it held
  before, whatever the contents the stretch is entered with. One line per stretch and buffer the proof carries
  across it.
-/
import proofs.«173320_j31851477467888_1_alg».proof.Proof.Gen.KernelIdeal.Launch
import Idealize.ShloMosaic.Lib.StableHlo.Run
import proofs.«173320_j31851477467888_1_alg».proof.Proof.LibHostKeeps

set_option maxRecDepth 16384

noncomputable section

namespace Cert.KernelIdeal.Skip

open Cert.KernelIdeal Cert.KernelIdeal.Gen
open Idealize.ShloMosaic Idealize.ShloMosaic.TcCoe Idealize.SL.Sem

variable {F : FTy → Type} [FloatOps F]
variable (W : Valuation τ sig (Elt F))

theorem s0_arg0 : StableHlo.after (hostOps0 (F := F)) W (Proc.devRef .tc main_arg0) = W (Proc.devRef .tc main_arg0) := by host_keeps hostOps0
theorem s0_arg3 : StableHlo.after (hostOps0 (F := F)) W (Proc.devRef .tc main_arg3) = W (Proc.devRef .tc main_arg3) := by host_keeps hostOps0
theorem s0_arg4 : StableHlo.after (hostOps0 (F := F)) W (Proc.devRef .tc main_arg4) = W (Proc.devRef .tc main_arg4) := by host_keeps hostOps0
theorem s0_arg5 : StableHlo.after (hostOps0 (F := F)) W (Proc.devRef .tc main_arg5) = W (Proc.devRef .tc main_arg5) := by host_keeps hostOps0
theorem s0_arg6 : StableHlo.after (hostOps0 (F := F)) W (Proc.devRef .tc main_arg6) = W (Proc.devRef .tc main_arg6) := by host_keeps hostOps0
theorem s1_v31 : StableHlo.after (hostOps1 (F := F)) W (Proc.devRef .tc main_v31) = W (Proc.devRef .tc main_v31) := by host_keeps hostOps1
theorem s1_v3 : StableHlo.after (hostOps1 (F := F)) W (Proc.devRef .tc main_v3) = W (Proc.devRef .tc main_v3) := by host_keeps hostOps1
theorem s1_v6 : StableHlo.after (hostOps1 (F := F)) W (Proc.devRef .tc main_v6) = W (Proc.devRef .tc main_v6) := by host_keeps hostOps1
theorem s1_v29 : StableHlo.after (hostOps1 (F := F)) W (Proc.devRef .tc main_v29) = W (Proc.devRef .tc main_v29) := by host_keeps hostOps1
theorem s1_arg5 : StableHlo.after (hostOps1 (F := F)) W (Proc.devRef .tc main_arg5) = W (Proc.devRef .tc main_arg5) := by host_keeps hostOps1
theorem s1_arg6 : StableHlo.after (hostOps1 (F := F)) W (Proc.devRef .tc main_arg6) = W (Proc.devRef .tc main_arg6) := by host_keeps hostOps1
theorem s2_v3 : StableHlo.after (hostOps2 (F := F)) W (Proc.devRef .tc main_v3) = W (Proc.devRef .tc main_v3) := by host_keeps hostOps2
theorem s2_v6 : StableHlo.after (hostOps2 (F := F)) W (Proc.devRef .tc main_v6) = W (Proc.devRef .tc main_v6) := by host_keeps hostOps2
theorem s2_v29 : StableHlo.after (hostOps2 (F := F)) W (Proc.devRef .tc main_v29) = W (Proc.devRef .tc main_v29) := by host_keeps hostOps2
theorem s2_v32 : StableHlo.after (hostOps2 (F := F)) W (Proc.devRef .tc main_v32) = W (Proc.devRef .tc main_v32) := by host_keeps hostOps2
theorem s2_arg5 : StableHlo.after (hostOps2 (F := F)) W (Proc.devRef .tc main_arg5) = W (Proc.devRef .tc main_arg5) := by host_keeps hostOps2
theorem s2_arg6 : StableHlo.after (hostOps2 (F := F)) W (Proc.devRef .tc main_arg6) = W (Proc.devRef .tc main_arg6) := by host_keeps hostOps2
theorem s3_v58 : StableHlo.after (hostOps3 (F := F)) W (Proc.devRef .tc main_v58) = W (Proc.devRef .tc main_v58) := by host_keeps hostOps3
theorem s3_v3 : StableHlo.after (hostOps3 (F := F)) W (Proc.devRef .tc main_v3) = W (Proc.devRef .tc main_v3) := by host_keeps hostOps3
theorem s3_v6 : StableHlo.after (hostOps3 (F := F)) W (Proc.devRef .tc main_v6) = W (Proc.devRef .tc main_v6) := by host_keeps hostOps3
theorem s3_v29 : StableHlo.after (hostOps3 (F := F)) W (Proc.devRef .tc main_v29) = W (Proc.devRef .tc main_v29) := by host_keeps hostOps3
theorem s3_v32 : StableHlo.after (hostOps3 (F := F)) W (Proc.devRef .tc main_v32) = W (Proc.devRef .tc main_v32) := by host_keeps hostOps3
theorem s3_arg5 : StableHlo.after (hostOps3 (F := F)) W (Proc.devRef .tc main_arg5) = W (Proc.devRef .tc main_arg5) := by host_keeps hostOps3
theorem s3_arg6 : StableHlo.after (hostOps3 (F := F)) W (Proc.devRef .tc main_arg6) = W (Proc.devRef .tc main_arg6) := by host_keeps hostOps3
theorem s4_v3 : StableHlo.after (hostOps4 (F := F)) W (Proc.devRef .tc main_v3) = W (Proc.devRef .tc main_v3) := by host_keeps hostOps4
theorem s4_v6 : StableHlo.after (hostOps4 (F := F)) W (Proc.devRef .tc main_v6) = W (Proc.devRef .tc main_v6) := by host_keeps hostOps4
theorem s4_v29 : StableHlo.after (hostOps4 (F := F)) W (Proc.devRef .tc main_v29) = W (Proc.devRef .tc main_v29) := by host_keeps hostOps4
theorem s4_v32 : StableHlo.after (hostOps4 (F := F)) W (Proc.devRef .tc main_v32) = W (Proc.devRef .tc main_v32) := by host_keeps hostOps4
theorem s4_arg5 : StableHlo.after (hostOps4 (F := F)) W (Proc.devRef .tc main_arg5) = W (Proc.devRef .tc main_arg5) := by host_keeps hostOps4
theorem s4_arg6 : StableHlo.after (hostOps4 (F := F)) W (Proc.devRef .tc main_arg6) = W (Proc.devRef .tc main_arg6) := by host_keeps hostOps4
theorem s5_v84 : StableHlo.after (hostOps5 (F := F)) W (Proc.devRef .tc main_v84) = W (Proc.devRef .tc main_v84) := by host_keeps hostOps5
theorem s5_v3 : StableHlo.after (hostOps5 (F := F)) W (Proc.devRef .tc main_v3) = W (Proc.devRef .tc main_v3) := by host_keeps hostOps5
theorem s5_v6 : StableHlo.after (hostOps5 (F := F)) W (Proc.devRef .tc main_v6) = W (Proc.devRef .tc main_v6) := by host_keeps hostOps5
theorem s5_v29 : StableHlo.after (hostOps5 (F := F)) W (Proc.devRef .tc main_v29) = W (Proc.devRef .tc main_v29) := by host_keeps hostOps5
theorem s5_arg6 : StableHlo.after (hostOps5 (F := F)) W (Proc.devRef .tc main_arg6) = W (Proc.devRef .tc main_arg6) := by host_keeps hostOps5
theorem s7_arg2 : StableHlo.after (hostOps7 (F := F)) W (Proc.devRef .tc main_arg2) = W (Proc.devRef .tc main_arg2) := by host_keeps hostOps7
theorem s7_arg8 : StableHlo.after (hostOps7 (F := F)) W (Proc.devRef .tc main_arg8) = W (Proc.devRef .tc main_arg8) := by host_keeps hostOps7
theorem s7_arg9 : StableHlo.after (hostOps7 (F := F)) W (Proc.devRef .tc main_arg9) = W (Proc.devRef .tc main_arg9) := by host_keeps hostOps7
theorem s7_arg10 : StableHlo.after (hostOps7 (F := F)) W (Proc.devRef .tc main_arg10) = W (Proc.devRef .tc main_arg10) := by host_keeps hostOps7
theorem s01_arg0 : StableHlo.after (hostOps0_1 (F := F)) W (Proc.devRef .tc main_arg0) = W (Proc.devRef .tc main_arg0) := by host_keeps hostOps0_1
theorem s01_arg3 : StableHlo.after (hostOps0_1 (F := F)) W (Proc.devRef .tc main_arg3) = W (Proc.devRef .tc main_arg3) := by host_keeps hostOps0_1
theorem s01_arg4 : StableHlo.after (hostOps0_1 (F := F)) W (Proc.devRef .tc main_arg4) = W (Proc.devRef .tc main_arg4) := by host_keeps hostOps0_1
theorem s01_arg5 : StableHlo.after (hostOps0_1 (F := F)) W (Proc.devRef .tc main_arg5) = W (Proc.devRef .tc main_arg5) := by host_keeps hostOps0_1
theorem s01_arg6 : StableHlo.after (hostOps0_1 (F := F)) W (Proc.devRef .tc main_arg6) = W (Proc.devRef .tc main_arg6) := by host_keeps hostOps0_1
theorem s01_v3 : StableHlo.after (hostOps0_1 (F := F)) W (Proc.devRef .tc main_v3) = W (Proc.devRef .tc main_v3) := by host_keeps hostOps0_1
theorem s01_v6 : StableHlo.after (hostOps0_1 (F := F)) W (Proc.devRef .tc main_v6) = W (Proc.devRef .tc main_v6) := by host_keeps hostOps0_1
theorem s02_arg0 : StableHlo.after (hostOps0_2 (F := F)) W (Proc.devRef .tc main_arg0) = W (Proc.devRef .tc main_arg0) := by host_keeps hostOps0_2
theorem s02_arg3 : StableHlo.after (hostOps0_2 (F := F)) W (Proc.devRef .tc main_arg3) = W (Proc.devRef .tc main_arg3) := by host_keeps hostOps0_2
theorem s02_arg5 : StableHlo.after (hostOps0_2 (F := F)) W (Proc.devRef .tc main_arg5) = W (Proc.devRef .tc main_arg5) := by host_keeps hostOps0_2
theorem s02_arg6 : StableHlo.after (hostOps0_2 (F := F)) W (Proc.devRef .tc main_arg6) = W (Proc.devRef .tc main_arg6) := by host_keeps hostOps0_2
theorem s02_v3 : StableHlo.after (hostOps0_2 (F := F)) W (Proc.devRef .tc main_v3) = W (Proc.devRef .tc main_v3) := by host_keeps hostOps0_2
theorem s02_v6 : StableHlo.after (hostOps0_2 (F := F)) W (Proc.devRef .tc main_v6) = W (Proc.devRef .tc main_v6) := by host_keeps hostOps0_2

end Cert.KernelIdeal.Skip

end
-- ==== Proof.Spec.lean ====
/-
  The three row-wise functions the network is made of, over the extended reals.

  Every dense stage of the graph network acts on each row of its input matrix by itself: a dense layer takes the
  row x to  (∑ q, x q · W q c) + b c ; the activation stage takes it to  max (x c + b c) 0 ; and the last stage
  projects the row by a dense layer and normalises the result — with μ the mean of the projected row p and v the
  mean of (p − μ)², the output is  (p c − μ) · (v + ε)^(−1/2) · γ c + β c.  Stated here for matrices of any number
  of rows, so that a tile of rows computed by itself and the whole matrix computed at once are instances of one
  function; the bias, scale and shift are rows [1, d], read at (0, c).
-/
import Idealize.ShloMosaic.PureOps.Ideal
import Idealize.ShloMosaic.Lib.ValueIdx

noncomputable section

open scoped BigOperators

namespace Cert.Spec

open Idealize.ShloMosaic Idealize.ShloMosaic.ValueIdx

/-- An [a, b] array of extended reals. -/
abbrev Arr2 (a b : ℕ) : Type := (⟨2, ![a, b]⟩ : Shape).Idx → EReal

variable {n k d : ℕ}

/-- A dense layer applied to every row: entry (p, c) is (∑ q, X (p, q) · W (q, c)) + B (0, c). -/
def lin (X : Arr2 n k) (W : Arr2 k d) (B : Arr2 1 d) : Arr2 n d :=
  fun i => (∑ q : Fin k, X (ix2 (i 0) q) * W (ix2 q (i 1))) + B (ix2 (0 : Fin 1) (i 1))

theorem lin_apply (X : Arr2 n k) (W : Arr2 k d) (B : Arr2 1 d) (p : Fin n) (c : Fin d) :
    lin X W B (ix2 p c) = (∑ q : Fin k, X (ix2 p q) * W (ix2 q c)) + B (ix2 (0 : Fin 1) c) := rfl

/-- Bias then rectifier on every row: entry (p, c) is max (A (p, c) + B (0, c)) 0, the 0 being the zero word. -/
def biasRelu (A : Arr2 n d) (B : Arr2 1 d) : Arr2 n d :=
  fun i => max (A (ix2 (i 0) (i 1)) + B (ix2 (0 : Fin 1) (i 1))) (Ideal.ofBits .f32 0x00000000#32)

theorem biasRelu_apply (A : Arr2 n d) (B : Arr2 1 d) (p : Fin n) (c : Fin d) :
    biasRelu A B (ix2 p c) = max (A (ix2 p c) + B (ix2 (0 : Fin 1) c)) (Ideal.ofBits .f32 0x00000000#32) := rfl

/-- The count a row's sums are divided by, as the program writes it: the word of 64.0. -/
def cnt : EReal := Ideal.ofBits .f32 0x42800000#32
/-- The variance offset, as the program writes it: the word nearest 1e-5. -/
def eps : EReal := Ideal.ofBits .f32 0x3727C5AC#32

/-- The mean of a row: its sum over the count. -/
def mean (p : Fin d → EReal) : EReal := Ideal.div (∑ j : Fin d, p j) cnt
/-- The mean squared deviation of a row from its mean. -/
def var (p : Fin d → EReal) : EReal := Ideal.div (∑ j : Fin d, (p j - mean p) * (p j - mean p)) cnt
/-- A row normalised, scaled and shifted, at c. -/
def norm (p g b : Fin d → EReal) (c : Fin d) : EReal :=
  (p c - mean p) * Ideal.rsqrt (var p + eps) * g c + b c

/-- The projection stage on every row: the dense layer of the row, then its normalisation. -/
def projLN (X : Arr2 n k) (W : Arr2 k d) (B G Be : Arr2 1 d) : Arr2 n d :=
  fun i => norm (fun j => lin X W B (ix2 (i 0) j)) (fun j => G (ix2 (0 : Fin 1) j)) (fun j => Be (ix2 (0 : Fin 1) j)) (i 1)

theorem projLN_apply (X : Arr2 n k) (W : Arr2 k d) (B G Be : Arr2 1 d) (p : Fin n) (c : Fin d) :
    projLN X W B G Be (ix2 p c)
      = norm (fun j => lin X W B (ix2 p j)) (fun j => G (ix2 (0 : Fin 1) j)) (fun j => Be (ix2 (0 : Fin 1) j)) c := rfl

end Cert.Spec

end
-- ==== Proof.SpecRows.lean ====
/-
  Each of the network's row-wise functions reads, at row p, only row p of its input matrix.

  So when row p' of a tile holds what row p of the whole matrix holds, the function of the tile at (p', c) is the
  function of the whole matrix at (p, c): computing the rows tile by tile and computing them all at once give the
  same array. Stated for each of the three functions, with the shared operands allowed to be equal rather than
  identical.
-/
import proofs.«173320_j31851477467888_1_alg».proof.Proof.Spec

noncomputable section

open scoped BigOperators

namespace Cert.Spec

open Idealize.ShloMosaic Idealize.ShloMosaic.ValueIdx

variable {n n' k d : ℕ}

/-- A dense layer at row p' of one matrix and row p of another that hold the same entries. -/
theorem lin_rows (X' : Arr2 n' k) (X : Arr2 n k) (W' W : Arr2 k d) (B' B : Arr2 1 d) (p' : Fin n') (p : Fin n)
    (hX : ∀ q, X' (ix2 p' q) = X (ix2 p q)) (hW : W' = W) (hB : B' = B) (c : Fin d) :
    lin X' W' B' (ix2 p' c) = lin X W B (ix2 p c) := by
  subst hW hB
  rw [lin_apply, lin_apply]
  exact congrArg (· + B' (ix2 (0 : Fin 1) c)) (Finset.sum_congr rfl fun q _ => congrArg (· * W' (ix2 q c)) (hX q))

/-- Bias and rectifier at row p' of one matrix and row p of another that hold the same entries. -/
theorem biasRelu_rows (A' : Arr2 n' d) (A : Arr2 n d) (B' B : Arr2 1 d) (p' : Fin n') (p : Fin n)
    (hA : ∀ q, A' (ix2 p' q) = A (ix2 p q)) (hB : B' = B) (c : Fin d) :
    biasRelu A' B' (ix2 p' c) = biasRelu A B (ix2 p c) := by
  subst hB
  rw [biasRelu_apply, biasRelu_apply, hA c]

/-- The projection stage at row p' of one matrix and row p of another that hold the same entries. -/
theorem projLN_rows (X' : Arr2 n' k) (X : Arr2 n k) (W' W : Arr2 k d) (B' B G' G Be' Be : Arr2 1 d) (p' : Fin n') (p : Fin n)
    (hX : ∀ q, X' (ix2 p' q) = X (ix2 p q)) (hW : W' = W) (hB : B' = B) (hG : G' = G) (hBe : Be' = Be) (c : Fin d) :
    projLN X' W' B' G' Be' (ix2 p' c) = projLN X W B G Be (ix2 p c) := by
  subst hG hBe
  rw [projLN_apply, projLN_apply]
  exact congrArg (fun f => norm f (fun j => G' (ix2 (0 : Fin 1) j)) (fun j => Be' (ix2 (0 : Fin 1) j)) c)
    (funext fun j => lin_rows X' X W' W B' B p' p hX hW hB j)

end Cert.Spec

end
-- ==== Proof.LibDense.lean ====
/-
  A plain matrix product read at an entry.

  For dimension numbers that contract the left operand's columns against the right operand's rows —
  rows × inner times inner × columns, no batch axis — the contraction index is its one coordinate, and
  the sum over it of the operands' products at entry `(p, c)` is `∑ q, lhs (p, q) · rhs (q, c)`.  Read at
  the exact extended reals, a matrix-unit product into a zero accumulator and a host `dot_general` are
  both that sum, whatever their precision or schedule, and whatever the number of rows.
-/
import Idealize.ShloMosaic.Lib.ValueIdx
import Idealize.ShloMosaic.PureOps.Ideal.Laws

noncomputable section

open scoped BigOperators

namespace Cert.LibDense

open Idealize.ShloMosaic Idealize.ShloMosaic.ValueIdx

variable {n k d : ℕ}

/-- The sum over a one-axis contraction index, re-indexed by the axis's coordinate, for a product whose
    operand indices at output `(p, c)` and contraction coordinate `q` are `(p, q)` and `(q, c)`. -/
theorem sum_contr_eq {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (lhs : FVec Ideal ⟨2, ![n, k]⟩ φ₁) (rhs : FVec Ideal ⟨2, ![k, d]⟩ φ₂) (p : Fin n) (c : Fin d) :
    (∑ q : D.contr.Idx, lhs (D.lhsIdx (ix2 p c) q) * rhs (D.rhsIdx (ix2 p c) q) : EReal)
      = ∑ q : Fin k, lhs (ix2 p q) * rhs (ix2 q c) := by
  rw [← Equiv.sum_comp (contrEquiv1 D k hr hs).symm]
  refine Finset.sum_congr rfl fun q _ => ?_
  have hk := contrEquiv1_symm_val D k hr hs q
  have el : D.lhsIdx (ix2 p c) ((contrEquiv1 D k hr hs).symm q) = ix2 p q := funext fun a => Fin.ext (by
    match a with
    | ⟨0, _⟩ => exact hl0 _ _
    | ⟨1, _⟩ => exact (hl1 _ _).trans hk)
  have er : D.rhsIdx (ix2 p c) ((contrEquiv1 D k hr hs).symm q) = ix2 q c := funext fun a => Fin.ext (by
    match a with
    | ⟨0, _⟩ => exact (hr0 _ _).trans hk
    | ⟨1, _⟩ => exact hr1 _ _)
  rw [el, er]

/-- A matrix-unit product into the zero accumulator, at entry `(p, c)`. -/
theorem matmul_zero_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  rw [Ideal.matmul_constant_zero_apply]
  exact sum_contr_eq D hr hs hl0 hl1 hr0 hr1 lhs rhs p c

/-- A host `dot_general`, at entry `(p, c)`. -/
theorem dotGeneral_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  rw [Ideal.dotGeneral_apply]
  exact sum_contr_eq D hr hs hl0 hl1 hr0 hr1 lhs rhs p c

end Cert.LibDense

end
-- ==== Proof.LibPlainDot.lean ====
/-
  Plain matrix products, whatever name their dimension numbers are printed under.

  A program prints the dimension numbers of each of its matrix products as a record of its own; for rows × inner
  times inner × columns with no batch axis that record is the library's `DotDims.plain n k d` but for its proof
  field. For any record equal to it, a matrix-unit product into the zero accumulator and a host `dot_general`
  are, at entry (p, c) and over the exact extended reals, the sum over q of lhs (p, q) · rhs (q, c).
-/
import Idealize.ShloMosaic.Lib.ValueIdx
import Idealize.ShloMosaic.PureOps.Ideal.Laws
import proofs.«173320_j31851477467888_1_alg».proof.Proof.LibDense

noncomputable section

open scoped BigOperators

namespace Cert.LibPlainDot

open Idealize.ShloMosaic Idealize.ShloMosaic.ValueIdx

variable {n k d : ℕ}

theorem plain_rank : (DotDims.plain n k d).contr.rank = 1 := rfl
theorem plain_size : (DotDims.plain n k d).contr.size ⟨0, by rw [plain_rank]; omega⟩ = k := rfl

theorem plain_lhs0 (i : (⟨2, ![n, d]⟩ : Shape).Idx) (q : (DotDims.plain n k d).contr.Idx) :
    ((DotDims.plain n k d).lhsIdx i q 0).val = (i 0).val := by
  unfold DotDims.lhsIdx
  rw [dif_neg (show ¬(0 : Fin 2) ∈ (DotDims.plain n k d).lhsBatch from List.not_mem_nil),
    dif_pos (show (0 : Fin 2) ∈ (DotDims.plain n k d).lhsNonContracting from List.mem_cons_self)]
  rfl
theorem plain_lhs1 (i : (⟨2, ![n, d]⟩ : Shape).Idx) (q : (DotDims.plain n k d).contr.Idx) :
    ((DotDims.plain n k d).lhsIdx i q 1).val = (q ⟨0, by rw [plain_rank]; omega⟩).val :=
  (DotDims.plain n k d).lhsIdx_val_of_single rfl i q
theorem plain_rhs0 (i : (⟨2, ![n, d]⟩ : Shape).Idx) (q : (DotDims.plain n k d).contr.Idx) :
    ((DotDims.plain n k d).rhsIdx i q 0).val = (q ⟨0, by rw [plain_rank]; omega⟩).val :=
  (DotDims.plain n k d).rhsIdx_val_of_single rfl i q
theorem plain_rhs1 (i : (⟨2, ![n, d]⟩ : Shape).Idx) (q : (DotDims.plain n k d).contr.Idx) :
    ((DotDims.plain n k d).rhsIdx i q 1).val = (i 1).val := by
  unfold DotDims.rhsIdx
  rw [dif_neg (show ¬(1 : Fin 2) ∈ (DotDims.plain n k d).rhsBatch from List.not_mem_nil),
    dif_pos (show (1 : Fin 2) ∈ (DotDims.plain n k d).rhsNonContracting from List.mem_cons_self)]
  rfl

/-- A matrix-unit product into the zero accumulator under dimension numbers that are the plain ones, at (p, c). -/
theorem matmul_zero_apply {φ₁ φ₂ : FTy} (D : DotDims ⟨2, ![n, k]⟩ ⟨2, ![k, d]⟩ ⟨2, ![n, d]⟩) (hD : D = DotDims.plain n k d)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  subst hD
  exact Cert.LibDense.matmul_zero_apply (DotDims.plain n k d) plain_rank plain_size plain_lhs0 plain_lhs1 plain_rhs0 plain_rhs1
    prec lhs rhs p c

/-- A host `dot_general` under dimension numbers that are the plain ones, at (p, c). -/
theorem dotGeneral_apply {φ₁ φ₂ : FTy} (D : DotDims ⟨2, ![n, k]⟩ ⟨2, ![k, d]⟩ ⟨2, ![n, d]⟩) (hD : D = DotDims.plain n k d)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  subst hD
  exact Cert.LibDense.dotGeneral_apply (DotDims.plain n k d) plain_rank plain_size plain_lhs0 plain_lhs1 plain_rhs0 plain_rhs1
    prec sched lhs rhs p c

end Cert.LibPlainDot

end
-- ==== Proof.DenseTile.lean ====
/-
  The dense-layer and activation tiles, read at an entry.

  A tile of the dense layer holds, at (p, c), the matrix-unit product of the tile's rows with the weights into
  the zero accumulator — over the extended reals the plain sum ∑ q, x (p, q) · w (q, c), the narrowing of the
  operands to a shorter format being the identity there — plus the bias row's entry c.  A tile of the activation
  stage holds max (x (p, c) + b (0, c)) 0, the 0 being the zero word.  Both are the row-wise functions of the
  specification at the tile's number of rows; the same association on both sides, nothing is rearranged.
-/
import proofs.«173320_j31851477467888_1_alg».proof.Proof.Gen.KernelIdeal.Skeleton
import proofs.«173320_j31851477467888_1_alg».proof.Proof.Spec
import proofs.«173320_j31851477467888_1_alg».proof.Proof.LibPlainDot
import Idealize.ShloMosaic.Lib.Pipeline.Value
import Idealize.ShloMosaic.Lib.ValueIdx
import Idealize.ShloMosaic.Lib.ValueLayout

noncomputable section

open scoped BigOperators

namespace Cert.KernelIdeal.Tile

open Idealize.ShloMosaic Idealize.ShloMosaic.ValueIdx Cert.KernelIdeal Cert.KernelIdeal.Gen

variable {n k d : ℕ}

/-- A matrix-unit product of narrowed operands into the zero accumulator, plus a row broadcast over the
    rows, is the dense layer of the specification: at (p, c) both are (∑ q, x (p, q) · w (q, c)) + b (0, c). -/
theorem dense_eq {ψ : FTy} (D : DotDims ⟨2, ![n, k]⟩ ⟨2, ![k, d]⟩ ⟨2, ![n, d]⟩) (hD : D = DotDims.plain n k d)
    (hψ : ψ.bits < FTy.f32.bits)
    (x : FVec Ideal ⟨2, ![n, k]⟩ .f32) (w : FVec Ideal ⟨2, ![k, d]⟩ .f32) (b : FVec Ideal ⟨2, ![1, d]⟩ .f32)
    (hb : (⟨2, ![1, d]⟩ : Shape).Broadcasts ⟨2, ![n, d]⟩) :
    addf (matmul D none (truncf ψ x hψ) (truncf ψ w hψ) (constant (F := Ideal) ⟨2, ![n, d]⟩ .f32 0x00000000#32))
        (broadcastTo ⟨2, ![n, d]⟩ b hb)
      = Cert.Spec.lin x w b := by
  funext i
  obtain ⟨p, c, rfl⟩ : ∃ (p : Fin n) (c : Fin d), i = ix2 p c := ⟨i 0, i 1, eq_ix2 i⟩
  rw [Cert.Spec.lin_apply, addf_apply, broadcastTo_1b_ab_apply]
  refine congrArg (· + b (ix2 (0 : Fin 1) c)) ?_
  exact Cert.LibPlainDot.matmul_zero_apply D hD none (truncf ψ x hψ) (truncf ψ w hψ) p c

/-- A row broadcast over the rows added to a matrix, then the maximum with the broadcast zero word, is the
    activation stage of the specification: at (p, c) both are max (x (p, c) + b (0, c)) 0. -/
theorem relu_eq (x : FVec Ideal ⟨2, ![n, d]⟩ .f32) (b : FVec Ideal ⟨2, ![1, d]⟩ .f32)
    (hb : (⟨2, ![1, d]⟩ : Shape).Broadcasts ⟨2, ![n, d]⟩) :
    maximumf (addf x (broadcastTo ⟨2, ![n, d]⟩ b hb))
        (broadcast ⟨2, ![n, d]⟩ (Scalar.ofBits (F := Ideal) .f32 0x00000000#32))
      = Cert.Spec.biasRelu x b := by
  funext i
  obtain ⟨p, c, rfl⟩ : ∃ (p : Fin n) (c : Fin d), i = ix2 p c := ⟨i 0, i 1, eq_ix2 i⟩
  rw [Cert.Spec.biasRelu_apply, maximumf_apply, addf_apply, broadcastTo_1b_ab_apply, broadcast_apply]
  rfl

/-- The first dense layer's tile (128 inner columns). -/
theorem pay0 (x0 : Vec Ideal S2000x128 .f32) (x1 : Vec Ideal S128x256 .f32) (x2 : Vec Ideal S1x256 .f32) :
    Gen.k0_pay1 (F := Ideal) x0 x1 x2 = Cert.Spec.lin x0 x1 x2 := by
  unfold Gen.k0_pay1
  rw [shapeCast_self]
  exact dense_eq dot_S2000x128_S128x256_S2000x256_1_0_0_1_n_n rfl bitsLt_bf16_f32 x0 x1 x2 broadcasts_S1x256_S2000x256

/-- A later dense layer's tile (256 inner columns). -/
theorem pay1 (x0 : Vec Ideal S2000x256 .f32) (x1 : Vec Ideal S256x256 .f32) (x2 : Vec Ideal S1x256 .f32) :
    Gen.k1_pay1 (F := Ideal) x0 x1 x2 = Cert.Spec.lin x0 x1 x2 := by
  unfold Gen.k1_pay1
  rw [shapeCast_self, shapeCast_self, shapeCast_self]
  exact dense_eq dot_S2000x256_S256x256_S2000x256_1_0_0_1_n_n rfl bitsLt_bf16_f32 x0 x1 x2 broadcasts_S1x256_S2000x256

theorem pay3 (x0 : Vec Ideal S2000x256 .f32) (x1 : Vec Ideal S256x256 .f32) (x2 : Vec Ideal S1x256 .f32) :
    Gen.k3_pay1 (F := Ideal) x0 x1 x2 = Cert.Spec.lin x0 x1 x2 := by
  unfold Gen.k3_pay1
  rw [shapeCast_self, shapeCast_self, shapeCast_self]
  exact dense_eq dot_S2000x256_S256x256_S2000x256_1_0_0_1_n_n rfl bitsLt_bf16_f32 x0 x1 x2 broadcasts_S1x256_S2000x256

theorem pay5 (x0 : Vec Ideal S2000x256 .f32) (x1 : Vec Ideal S256x256 .f32) (x2 : Vec Ideal S1x256 .f32) :
    Gen.k5_pay1 (F := Ideal) x0 x1 x2 = Cert.Spec.lin x0 x1 x2 := by
  unfold Gen.k5_pay1
  rw [shapeCast_self, shapeCast_self, shapeCast_self]
  exact dense_eq dot_S2000x256_S256x256_S2000x256_1_0_0_1_n_n rfl bitsLt_bf16_f32 x0 x1 x2 broadcasts_S1x256_S2000x256

/-- An activation tile. -/
theorem pay2 (x0 : Vec Ideal S2000x256 .f32) (x1 : Vec Ideal S1x256 .f32) :
    Gen.k2_pay1 (F := Ideal) x0 x1 = Cert.Spec.biasRelu x0 x1 := by
  unfold Gen.k2_pay1
  rw [shapeCast_self, shapeCast_self]
  exact relu_eq x0 x1 broadcasts_S1x256_S2000x256

theorem pay4 (x0 : Vec Ideal S2000x256 .f32) (x1 : Vec Ideal S1x256 .f32) :
    Gen.k4_pay1 (F := Ideal) x0 x1 = Cert.Spec.biasRelu x0 x1 := by
  unfold Gen.k4_pay1
  rw [shapeCast_self, shapeCast_self]
  exact relu_eq x0 x1 broadcasts_S1x256_S2000x256

theorem pay6 (x0 : Vec Ideal S2000x256 .f32) (x1 : Vec Ideal S1x256 .f32) :
    Gen.k6_pay1 (F := Ideal) x0 x1 = Cert.Spec.biasRelu x0 x1 := by
  unfold Gen.k6_pay1
  rw [shapeCast_self, shapeCast_self]
  exact relu_eq x0 x1 broadcasts_S1x256_S2000x256

end Cert.KernelIdeal.Tile

end
-- ==== Proof.Final0.lean ====
/-
  Region 0: a dense layer computed tile by tile is the dense layer of the whole matrix.

  The region's grid has 25 points; point t holds rows 2000·t … 2000·t + 1999 of the input matrix, the whole weight matrix and
  the whole bias row, and writes back rows 2000·t … 2000·t + 1999 of the output. Its body leaves in the output block the dense layer
  of the tile's rows; a dense layer reads, at row p, only row p of its input; so what point t writes back is block t of
  the dense layer of the whole input matrix, and, the 25 blocks covering all 50000 rows, the output array ends as that.
-/
import proofs.«173320_j31851477467888_1_alg».proof.Proof.Gen.KernelIdeal.Frame
import proofs.«173320_j31851477467888_1_alg».proof.Proof.SpecRows
import proofs.«173320_j31851477467888_1_alg».proof.Proof.DenseTile
import Idealize.ShloMosaic.Lib.Pipeline.Value
import Idealize.ShloMosaic.Lib.ValueIdx

set_option maxRecDepth 16384

noncomputable section

namespace Cert.KernelIdeal.Final

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz0 : (![0, 0] : Fin 2 → Nat) = fun _ => 0 := funext fun a => by fin_cases a <;> rfl

/-- The index maps over the grid: the input and output tiles move with the point along the rows; the weights and the bias
    row stay. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the dense layer of the arrays as the region finds them. -/
theorem flushed0 (c : Dev nD) (t : Fin cfg0.N) :
    (dat0 V c).flushed 3 t = ((cfg0.win 3).blk t).view.read (Elt Ideal)
      (Cert.Spec.lin (n := 50000) (k := 128) (d := 256) (V c main_arg0) (V c main_arg3) (V c main_v30)) := by
  show (cfg0.win 3).cut (grid0.coords t) ((dat0 V c).after 3 t) = _
  rw [after0_3]
  unfold out0_3
  rw [View.canon_unit_zero hz0]
  simp only [View.ld_unit_zero (S := S2000x128) hz0, View.ld_unit_zero (S := S128x256) hz0, View.ld_unit_zero (S := S1x256) hz0]
  rw [Tile.pay0]
  obtain ⟨e0, e1, e2, e3, e4, e5, e6, e7⟩ := idx0 t
  have ht : t.val < 25 := t.isLt
  funext y
  obtain ⟨p, q, rfl⟩ : ∃ (p : Fin 2000) (q : Fin 256), y = ix2 p q := ⟨y 0, y 1, eq_ix2 y⟩
  have hp : p.val < 2000 := p.isLt
  have hrow : t.val * 2000 + p.val < 50000 := by omega
  have he : ((cfg0.win 3).blk t).view.emb (ix2 p q) = ix2 (⟨t.val * 2000 + p.val, hrow⟩ : Fin 50000) q := by
    funext a; apply Fin.ext
    match a with
    | ⟨0, _⟩ => show win0_3.index t (0 : Fin 2) * 2000 + 1 * p.val = t.val * 2000 + p.val; omega
    | ⟨1, _⟩ => show win0_3.index t (1 : Fin 2) * 256 + 1 * q.val = q.val; omega
  show Cert.Spec.lin (iblk0 V c 0 t) (iblk0 V c 1 t) (iblk0 V c 2 t) (ix2 p q)
    = Cert.Spec.lin (n := 50000) (k := 128) (d := 256) (V c main_arg0) (V c main_arg3) (V c main_v30) (((cfg0.win 3).blk t).view.emb (ix2 p q))
  rw [he]
  refine Cert.Spec.lin_rows _ _ _ _ _ _ p ⟨t.val * 2000 + p.val, hrow⟩ (fun q' => ?_) ?_ ?_ q
  · show V c main_arg0 (((cfg0.win 0).blk t).view.emb (ix2 p q')) = V c main_arg0 (ix2 (⟨t.val * 2000 + p.val, hrow⟩ : Fin 50000) q')
    refine congrArg (V c main_arg0) (funext fun a => Fin.ext ?_)
    match a with
    | ⟨0, _⟩ => show win0_0.index t (0 : Fin 2) * 2000 + 1 * p.val = t.val * 2000 + p.val; omega
    | ⟨1, _⟩ => show win0_0.index t (1 : Fin 2) * 128 + 1 * q'.val = q'.val; omega
  · funext z
    show V c main_arg3 (((cfg0.win 1).blk t).view.emb z) = V c main_arg3 z
    refine congrArg (V c main_arg3) (funext fun a => Fin.ext ?_)
    match a with
    | ⟨0, _⟩ => show win0_1.index t (0 : Fin 2) * 128 + 1 * (z 0).val = (z 0).val; omega
    | ⟨1, _⟩ => show win0_1.index t (1 : Fin 2) * 256 + 1 * (z 1).val = (z 1).val; omega
  · funext z
    show V c main_v30 (((cfg0.win 2).blk t).view.emb z) = V c main_v30 z
    refine congrArg (V c main_v30) (funext fun a => Fin.ext ?_)
    match a with
    | ⟨0, _⟩ => show win0_2.index t (0 : Fin 2) * 1 + 1 * (z 0).val = (z 0).val; omega
    | ⟨1, _⟩ => show win0_2.index t (1 : Fin 2) * 256 + 1 * (z 1).val = (z 1).val; omega

/-- An index of the output array is in point t's block iff each coordinate is in the block's range on its axis. -/
theorem mem_blk0 (t : Fin cfg0.N) (i : S50000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v31).slice (win0_3.rect t)).set ↔ _
  rw [View.set_slice_whole, Rect.mem_set_unit]
  exact Iff.rfl

/-- Every row is in the block of the point its number divided by 2000 names. -/
theorem cover0 (i : S50000x256.Idx) : ∃ t : Fin cfg0.N, (cfg0.win 3).flush t = true ∧ i ∈ ((cfg0.win 3).blk t).view.set := by
  have hi0 : (i 0).val < 50000 := (i 0).isLt
  have hi1 : (i 1).val < 256 := (i 1).isLt
  refine ⟨⟨(i 0).val / 2000, by show (i 0).val / 2000 < 25; omega⟩, flush0_3 _, ?_⟩
  rw [mem_blk0]
  obtain ⟨e0, e1, e2, e3, e4, e5, e6, e7⟩ := idx0 ⟨(i 0).val / 2000, by show (i 0).val / 2000 < 25; omega⟩
  have e6' : win0_3.index ⟨(i 0).val / 2000, by show (i 0).val / 2000 < 25; omega⟩ (0 : Fin 2) = (i 0).val / 2000 := e6
  intro a
  match a with
  | ⟨0, _⟩ =>
    show win0_3.index _ (0 : Fin 2) * 2000 ≤ (i 0).val ∧ (i 0).val < win0_3.index _ (0 : Fin 2) * 2000 + 2000
    rw [e6']; omega
  | ⟨1, _⟩ =>
    show win0_3.index _ (1 : Fin 2) * 256 ≤ (i 1).val ∧ (i 1).val < win0_3.index _ (1 : Fin 2) * 256 + 256
    rw [e7]; omega

/-- The region's output array after the run: the dense layer of the arrays as the region finds them. -/
theorem final0 (c : Dev nD) : (dat0 V c).arrAt 3 cfg0.N
    = Cert.Spec.lin (n := 50000) (k := 128) (d := 256) (V c main_arg0) (V c main_arg3) (V c main_v30) :=
  (dat0 V c).arrAt_eq_of_cover 3 _ (fun t _ => flushed0 V c t) (cover0)

end Cert.KernelIdeal.Final

end
-- ==== Proof.Final1.lean ====
/-
  Region 1: a dense layer computed tile by tile is the dense layer of the whole matrix.

  The region's grid has 25 points; point t holds rows 2000·t … 2000·t + 1999 of the input matrix, the whole weight matrix and
  the whole bias row, and writes back rows 2000·t … 2000·t + 1999 of the output. Its body leaves in the output block the dense layer
  of the tile's rows; a dense layer reads, at row p, only row p of its input; so what point t writes back is block t of
  the dense layer of the whole input matrix, and, the 25 blocks covering all 50000 rows, the output array ends as that.
-/
import proofs.«173320_j31851477467888_1_alg».proof.Proof.Gen.KernelIdeal.Frame
import proofs.«173320_j31851477467888_1_alg».proof.Proof.SpecRows
import proofs.«173320_j31851477467888_1_alg».proof.Proof.DenseTile
import Idealize.ShloMosaic.Lib.Pipeline.Value
import Idealize.ShloMosaic.Lib.ValueIdx

set_option maxRecDepth 16384

noncomputable section

namespace Cert.KernelIdeal.Final

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz1 : (![0, 0] : Fin 2 → Nat) = fun _ => 0 := funext fun a => by fin_cases a <;> rfl

/-- The index maps over the grid: the input and output tiles move with the point along the rows; the weights and the bias
    row stay. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the dense layer of the arrays as the region finds them. -/
theorem flushed1 (c : Dev nD) (t : Fin cfg1.N) :
    (dat1 V c).flushed 3 t = ((cfg1.win 3).blk t).view.read (Elt Ideal)
      (Cert.Spec.lin (n := 50000) (k := 256) (d := 256) (V c main_v31) (V c main_v34) (V c main_v35)) := by
  show (cfg1.win 3).cut (grid1.coords t) ((dat1 V c).after 3 t) = _
  rw [after1_3]
  unfold out1_3
  rw [View.canon_unit_zero hz1]
  simp only [View.ld_unit_zero (S := S2000x256) hz1, View.ld_unit_zero (S := S256x256) hz1, View.ld_unit_zero (S := S1x256) hz1]
  rw [Tile.pay1]
  obtain ⟨e0, e1, e2, e3, e4, e5, e6, e7⟩ := idx1 t
  have ht : t.val < 25 := t.isLt
  funext y
  obtain ⟨p, q, rfl⟩ : ∃ (p : Fin 2000) (q : Fin 256), y = ix2 p q := ⟨y 0, y 1, eq_ix2 y⟩
  have hp : p.val < 2000 := p.isLt
  have hrow : t.val * 2000 + p.val < 50000 := by omega
  have he : ((cfg1.win 3).blk t).view.emb (ix2 p q) = ix2 (⟨t.val * 2000 + p.val, hrow⟩ : Fin 50000) q := by
    funext a; apply Fin.ext
    match a with
    | ⟨0, _⟩ => show win1_3.index t (0 : Fin 2) * 2000 + 1 * p.val = t.val * 2000 + p.val; omega
    | ⟨1, _⟩ => show win1_3.index t (1 : Fin 2) * 256 + 1 * q.val = q.val; omega
  show Cert.Spec.lin (iblk1 V c 0 t) (iblk1 V c 1 t) (iblk1 V c 2 t) (ix2 p q)
    = Cert.Spec.lin (n := 50000) (k := 256) (d := 256) (V c main_v31) (V c main_v34) (V c main_v35) (((cfg1.win 3).blk t).view.emb (ix2 p q))
  rw [he]
  refine Cert.Spec.lin_rows _ _ _ _ _ _ p ⟨t.val * 2000 + p.val, hrow⟩ (fun q' => ?_) ?_ ?_ q
  · show V c main_v31 (((cfg1.win 0).blk t).view.emb (ix2 p q')) = V c main_v31 (ix2 (⟨t.val * 2000 + p.val, hrow⟩ : Fin 50000) q')
    refine congrArg (V c main_v31) (funext fun a => Fin.ext ?_)
    match a with
    | ⟨0, _⟩ => show win1_0.index t (0 : Fin 2) * 2000 + 1 * p.val = t.val * 2000 + p.val; omega
    | ⟨1, _⟩ => show win1_0.index t (1 : Fin 2) * 256 + 1 * q'.val = q'.val; omega
  · funext z
    show V c main_v34 (((cfg1.win 1).blk t).view.emb z) = V c main_v34 z
    refine congrArg (V c main_v34) (funext fun a => Fin.ext ?_)
    match a with
    | ⟨0, _⟩ => show win1_1.index t (0 : Fin 2) * 256 + 1 * (z 0).val = (z 0).val; omega
    | ⟨1, _⟩ => show win1_1.index t (1 : Fin 2) * 256 + 1 * (z 1).val = (z 1).val; omega
  · funext z
    show V c main_v35 (((cfg1.win 2).blk t).view.emb z) = V c main_v35 z
    refine congrArg (V c main_v35) (funext fun a => Fin.ext ?_)
    match a with
    | ⟨0, _⟩ => show win1_2.index t (0 : Fin 2) * 1 + 1 * (z 0).val = (z 0).val; omega
    | ⟨1, _⟩ => show win1_2.index t (1 : Fin 2) * 256 + 1 * (z 1).val = (z 1).val; omega

/-- An index of the output array is in point t's block iff each coordinate is in the block's range on its axis. -/
theorem mem_blk1 (t : Fin cfg1.N) (i : S50000x256.Idx) :
    i ∈ ((cfg1.win 3).blk t).view.set ↔ ∀ a : Fin 2, win1_3.index t a * S2000x256.size a ≤ (i a).val ∧ (i a).val < win1_3.index t a * S2000x256.size a + S2000x256.size a := by
  show i ∈ ((View.whole main_v36).slice (win1_3.rect t)).set ↔ _
  rw [View.set_slice_whole, Rect.mem_set_unit]
  exact Iff.rfl

/-- Every row is in the block of the point its number divided by 2000 names. -/
theorem cover1 (i : S50000x256.Idx) : ∃ t : Fin cfg1.N, (cfg1.win 3).flush t = true ∧ i ∈ ((cfg1.win 3).blk t).view.set := by
  have hi0 : (i 0).val < 50000 := (i 0).isLt
  have hi1 : (i 1).val < 256 := (i 1).isLt
  refine ⟨⟨(i 0).val / 2000, by show (i 0).val / 2000 < 25; omega⟩, flush1_3 _, ?_⟩
  rw [mem_blk1]
  obtain ⟨e0, e1, e2, e3, e4, e5, e6, e7⟩ := idx1 ⟨(i 0).val / 2000, by show (i 0).val / 2000 < 25; omega⟩
  have e6' : win1_3.index ⟨(i 0).val / 2000, by show (i 0).val / 2000 < 25; omega⟩ (0 : Fin 2) = (i 0).val / 2000 := e6
  intro a
  match a with
  | ⟨0, _⟩ =>
    show win1_3.index _ (0 : Fin 2) * 2000 ≤ (i 0).val ∧ (i 0).val < win1_3.index _ (0 : Fin 2) * 2000 + 2000
    rw [e6']; omega
  | ⟨1, _⟩ =>
    show win1_3.index _ (1 : Fin 2) * 256 ≤ (i 1).val ∧ (i 1).val < win1_3.index _ (1 : Fin 2) * 256 + 256
    rw [e7]; omega

/-- The region's output array after the run: the dense layer of the arrays as the region finds them. -/
theorem final1 (c : Dev nD) : (dat1 V c).arrAt 3 cfg1.N
    = Cert.Spec.lin (n := 50000) (k := 256) (d := 256) (V c main_v31) (V c main_v34) (V c main_v35) :=
  (dat1 V c).arrAt_eq_of_cover 3 _ (fun t _ => flushed1 V c t) (cover1)

end Cert.KernelIdeal.Final

end
-- ==== Proof.Final2.lean ====
/-
  Region 2: bias and rectifier computed tile by tile are the bias and rectifier of the whole matrix.

  The region's grid has 25 points; point t holds rows 2000·t … 2000·t + 1999 of the input matrix and the whole bias row,
  and writes back the same rows of the output. Its body leaves in the output block max (x + b) 0 of the tile's
  entries; that function reads, at an entry, only that entry and the bias of its column; so what point t writes back is
  block t of the function of the whole matrix, and, the 25 blocks covering all 50000 rows, the output array ends as that.
-/
import proofs.«173320_j31851477467888_1_alg».proof.Proof.Gen.KernelIdeal.Frame
import proofs.«173320_j31851477467888_1_alg».proof.Proof.SpecRows
import proofs.«173320_j31851477467888_1_alg».proof.Proof.DenseTile
import Idealize.ShloMosaic.Lib.Pipeline.Value
import Idealize.ShloMosaic.Lib.ValueIdx

set_option maxRecDepth 16384

noncomputable section

namespace Cert.KernelIdeal.Final

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- The index maps over the grid: the input and output tiles move with the point along the rows; the bias row stays. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the function of the arrays as the region finds them. -/
theorem flushed2 (c : Dev nD) (t : Fin cfg2.N) :
    (dat2 V c).flushed 2 t = ((cfg2.win 2).blk t).view.read (Elt Ideal)
      (Cert.Spec.biasRelu (n := 50000) (d := 256) (V c main_v54) (V c main_v57)) := by
  show (cfg2.win 2).cut (grid2.coords t) ((dat2 V c).after 2 t) = _
  rw [after2_2]
  unfold out2_2
  rw [View.canon_unit_zero hz2]
  simp only [View.ld_unit_zero (S := S2000x256) hz2, View.ld_unit_zero (S := S1x256) hz2]
  rw [Tile.pay2]
  obtain ⟨e0, e1, e2, e3, e4, e5⟩ := idx2 t
  have ht : t.val < 25 := t.isLt
  funext y
  obtain ⟨p, q, rfl⟩ : ∃ (p : Fin 2000) (q : Fin 256), y = ix2 p q := ⟨y 0, y 1, eq_ix2 y⟩
  have hp : p.val < 2000 := p.isLt
  have hrow : t.val * 2000 + p.val < 50000 := by omega
  have he : ((cfg2.win 2).blk t).view.emb (ix2 p q) = ix2 (⟨t.val * 2000 + p.val, hrow⟩ : Fin 50000) q := by
    funext a; apply Fin.ext
    match a with
    | ⟨0, _⟩ => show win2_2.index t (0 : Fin 2) * 2000 + 1 * p.val = t.val * 2000 + p.val; omega
    | ⟨1, _⟩ => show win2_2.index t (1 : Fin 2) * 256 + 1 * q.val = q.val; omega
  show Cert.Spec.biasRelu (iblk2 V c 0 t) (iblk2 V c 1 t) (ix2 p q)
    = Cert.Spec.biasRelu (n := 50000) (d := 256) (V c main_v54) (V c main_v57) (((cfg2.win 2).blk t).view.emb (ix2 p q))
  rw [he]
  refine Cert.Spec.biasRelu_rows _ _ _ _ p ⟨t.val * 2000 + p.val, hrow⟩ (fun q' => ?_) ?_ q
  · show V c main_v54 (((cfg2.win 0).blk t).view.emb (ix2 p q')) = V c main_v54 (ix2 (⟨t.val * 2000 + p.val, hrow⟩ : Fin 50000) q')
    refine congrArg (V c main_v54) (funext fun a => Fin.ext ?_)
    match a with
    | ⟨0, _⟩ => show win2_0.index t (0 : Fin 2) * 2000 + 1 * p.val = t.val * 2000 + p.val; omega
    | ⟨1, _⟩ => show win2_0.index t (1 : Fin 2) * 256 + 1 * q'.val = q'.val; omega
  · funext z
    show V c main_v57 (((cfg2.win 1).blk t).view.emb z) = V c main_v57 z
    refine congrArg (V c main_v57) (funext fun a => Fin.ext ?_)
    match a with
    | ⟨0, _⟩ => show win2_1.index t (0 : Fin 2) * 1 + 1 * (z 0).val = (z 0).val; omega
    | ⟨1, _⟩ => show win2_1.index t (1 : Fin 2) * 256 + 1 * (z 1).val = (z 1).val; omega

/-- An index of the output array is in point t's block iff each coordinate is in the block's range on its axis. -/
theorem mem_blk2 (t : Fin cfg2.N) (i : S50000x256.Idx) :
    i ∈ ((cfg2.win 2).blk t).view.set ↔ ∀ a : Fin 2, win2_2.index t a * S2000x256.size a ≤ (i a).val ∧ (i a).val < win2_2.index t a * S2000x256.size a + S2000x256.size a := by
  show i ∈ ((View.whole main_v58).slice (win2_2.rect t)).set ↔ _
  rw [View.set_slice_whole, Rect.mem_set_unit]
  exact Iff.rfl

/-- Every row is in the block of the point its number divided by 2000 names. -/
theorem cover2 (i : S50000x256.Idx) : ∃ t : Fin cfg2.N, (cfg2.win 2).flush t = true ∧ i ∈ ((cfg2.win 2).blk t).view.set := by
  have hi0 : (i 0).val < 50000 := (i 0).isLt
  have hi1 : (i 1).val < 256 := (i 1).isLt
  refine ⟨⟨(i 0).val / 2000, by show (i 0).val / 2000 < 25; omega⟩, flush2_2 _, ?_⟩
  rw [mem_blk2]
  obtain ⟨e0, e1, e2, e3, e4, e5⟩ := idx2 ⟨(i 0).val / 2000, by show (i 0).val / 2000 < 25; omega⟩
  have e4' : win2_2.index ⟨(i 0).val / 2000, by show (i 0).val / 2000 < 25; omega⟩ (0 : Fin 2) = (i 0).val / 2000 := e4
  intro a
  match a with
  | ⟨0, _⟩ =>
    show win2_2.index _ (0 : Fin 2) * 2000 ≤ (i 0).val ∧ (i 0).val < win2_2.index _ (0 : Fin 2) * 2000 + 2000
    rw [e4']; omega
  | ⟨1, _⟩ =>
    show win2_2.index _ (1 : Fin 2) * 256 ≤ (i 1).val ∧ (i 1).val < win2_2.index _ (1 : Fin 2) * 256 + 256
    rw [e5]; omega

/-- The region's output array after the run: bias and rectifier of the arrays as the region finds them. -/
theorem final2 (c : Dev nD) : (dat2 V c).arrAt 2 cfg2.N
    = Cert.Spec.biasRelu (n := 50000) (d := 256) (V c main_v54) (V c main_v57) :=
  (dat2 V c).arrAt_eq_of_cover 2 _ (fun t _ => flushed2 V c t) (cover2)

end Cert.KernelIdeal.Final

end
-- ==== Proof.Final3.lean ====
/-
  Region 3: a dense layer computed tile by tile is the dense layer of the whole matrix.

  The region's grid has 25 points; point t holds rows 2000·t … 2000·t + 1999 of the input matrix, the whole weight matrix and
  the whole bias row, and writes back rows 2000·t … 2000·t + 1999 of the output. Its body leaves in the output block the dense layer
  of the tile's rows; a dense layer reads, at row p, only row p of its input; so what point t writes back is block t of
  the dense layer of the whole input matrix, and, the 25 blocks covering all 50000 rows, the output array ends as that.
-/
import proofs.«173320_j31851477467888_1_alg».proof.Proof.Gen.KernelIdeal.Frame
import proofs.«173320_j31851477467888_1_alg».proof.Proof.SpecRows
import proofs.«173320_j31851477467888_1_alg».proof.Proof.DenseTile
import Idealize.ShloMosaic.Lib.Pipeline.Value
import Idealize.ShloMosaic.Lib.ValueIdx

set_option maxRecDepth 16384

noncomputable section

namespace Cert.KernelIdeal.Final

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz3 : (![0, 0] : Fin 2 → Nat) = fun _ => 0 := funext fun a => by fin_cases a <;> rfl

/-- The index maps over the grid: the input and output tiles move with the point along the rows; the weights and the bias
    row stay. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point t writes back is block t of the dense layer of the arrays as the region finds them. -/
theorem flushed3 (c : Dev nD) (t : Fin cfg3.N) :
    (dat3 V c).flushed 3 t = ((cfg3.win 3).blk t).view.read (Elt Ideal)
      (Cert.Spec.lin (n := 50000) (k := 256) (d := 256) (V c main_v58) (V c main_v60) (V c main_v61)) := by
  show (cfg3.win 3).cut (grid3.coords t) ((dat3 V c).after 3 t) = _
  rw [after3_3]
  unfold out3_3
  rw [View.canon_unit_zero hz3]
  simp only [View.ld_unit_zero (S := S2000x256) hz3, View.ld_unit_zero (S := S256x256) hz3, View.ld_unit_zero (S := S1x256) hz3]
  rw [Tile.pay3]
  obtain ⟨e0, e1, e2, e3, e4, e5, e6, e7⟩ := idx3 t
  have ht : t.val < 25 := t.isLt
  funext y
  obtain ⟨p, q, rfl⟩ : ∃ (p : Fin 2000) (q : Fin 256), y = ix2 p q := ⟨y 0, y 1, eq_ix2 y⟩
  have hp : p.val < 2000 := p.isLt
  have hrow : t.val * 2000 + p.val < 50000 := by omega
  have he : ((cfg3.win 3).blk t).view.emb (ix2 p q) = ix2 (⟨t.val * 2000 + p.val, hrow⟩ : Fin 50000) q := by
    funext a; apply Fin.ext
    match a with
    | ⟨0, _⟩ => show win3_3.index t (0 : Fin 2) * 2000 + 1 * p.val = t.val * 2000 + p.val; omega
    | ⟨1, _⟩ => show win3_3.index t (1 : Fin 2) * 256 + 1 * q.val = q.val; omega
  show Cert.Spec.lin (iblk3 V c 0 t) (iblk3 V c 1 t) (iblk3 V c 2 t) (ix2 p q)
    = Cert.Spec.lin (n := 50000) (k := 256) (d := 256) (V c main_v58) (V c main_v60) (V c main_v61) (((cfg3.win 3).blk t).view.emb (ix2 p q))
  rw [he]
  refine Cert.Spec.lin_rows _ _ _ _ _ _ p ⟨t.val * 2000 + p.val, hrow⟩ (fun q' => ?_) ?_ ?_ q
  · show V c main_v58 (((cfg3.win 0).blk t).view.emb (ix2 p q')) = V c main_v58 (ix2 (⟨t.val * 2000 + p.val, hrow⟩ : Fin 50000) q')
    refine congrArg (V c main_v58) (funext fun a => Fin.ext ?_)
    match a with
    | ⟨0, _⟩ => show win3_0.index t (0 : Fin 2) * 2000 + 1 * p.val = t.val * 2000 + p.val; omega
    | ⟨1, _⟩ => show win3_0.index t (1 : Fin 2) * 256 + 1 * q'.val = q'.val; omega
  · funext z
    show V c main_v60 (((cfg3.win 1).blk t).view.emb z) = V c main_v60 z
    refine congrArg (V c main_v60) (funext fun a => Fin.ext ?_)
    match a with
    | ⟨0, _⟩ => show win3_1.index t (0 : Fin 2) * 256 + 1 * (z 0).val = (z 0).val; omega
    | ⟨1, _⟩ => show win3_1.index t (1 : Fin 2) * 256 + 1 * (z 1).val = (z 1).val; omega
  · funext z
    show V c main_v61 (((cfg3.win 2).blk t).view.emb z) = V c main_v61 z
    refine congrArg (V c main_v61) (funext fun a => Fin.ext ?_)
    match a with
    | ⟨0, _⟩ => show win3_2.index t (0 : Fin 2) * 1 + 1 * (z 0).val = (z 0).val; omega
    | ⟨1, _⟩ => show win3_2.index t (1 : Fin 2) * 256 + 1 * (z 1).val = (z 1).val; omega

/-- An index of the output array is in point t's block iff each coordinate is in the block's range on its axis. -/
theorem mem_blk3 (t : Fin cfg3.N) (i : S50000x256.Idx) :
    i ∈ ((cfg3.win 3).blk t).view.set ↔ ∀ a : Fin 2, win3_3.index t a * S2000x256.size a ≤ (i a).val ∧ (i a).val < win3_3.index t a * S2000x256.size a + S2000x256.size a := by
  show i ∈ ((View.whole main_v62).slice (win3_3.rect t)).set ↔ _
  rw [View.set_slice_whole, Rect.mem_set_unit]
  exact Iff.rfl

/-- Every row is in the block of the point its number divided by 2000 names. -/
theorem cover3 (i : S50000x256.Idx) : ∃ t : Fin cfg3.N, (cfg3.win 3).flush t = true ∧ i ∈ ((cfg3.win 3).blk t).view.set := by
  have hi0 : (i 0).val < 50000 := (i 0).isLt
  have hi1 : (i 1).val < 256 := (i 1).isLt
  refine ⟨⟨(i 0).val / 2000, by show (i 0).val / 2000 < 25; omega⟩, flush3_3 _, ?_⟩
  rw [mem_blk3]
  obtain ⟨e0, e1, e2, e3, e4, e5, e6, e7⟩ := idx3 ⟨(i 0).val / 2000, by show (i 0).val / 2000 < 25; omega⟩
  have e6' : win3_3.index ⟨(i 0).val / 2000, by show (i 0).val / 2000 < 25; omega⟩ (0 : Fin 2) = (i 0).val / 2000 := e6
  intro a
  match a with
  | ⟨0, _⟩ =>
    show win3_3.index _ (0 : Fin 2) * 2000 ≤ (i 0).val ∧ (i 0).val < win3_3.index _ (0 : Fin 2) * 2000 + 2000
    rw [e6']; omega
  | ⟨1, _⟩ =>
    show win3_3.index _ (1 : Fin 2) * 256 ≤ (i 1).val ∧ (i 1).val < win3_3.index _ (1 : Fin 2) * 256 + 256
    rw [e7]; omega

/-- The region's output array after the run: the dense layer of the arrays as the region finds them. -/
theorem final3 (c : Dev nD) : (dat3 V c).arrAt 3 cfg3.N
    = Cert.Spec.lin (n := 50000) (k := 256) (d := 256) (V c main_v58) (V c main_v60) (V c main_v61) :=
  (dat3 V c).arrAt_eq_of_cover 3 _ (fun t _ => flushed3 V c t) (cover3)

end Cert.KernelIdeal.Final

end
-- ==== Proof.Final4.lean ====
/-
  Region 4: bias and rectifier computed tile by tile are the bias and rectifier of the whole matrix.

  The region's grid has 25 points; point t holds rows 2000·t … 2000·t + 1999 of the input matrix and the whole bias row,
  and writes back the same rows of the output. Its body leaves in the output block max (x + b) 0 of the tile's
  entries; that function reads, at an entry, only that entry and the bias of its column; so what point t writes back is
  block t of the function of the whole matrix, and, the 25 blocks covering all 50000 rows, the output array ends as that.
-/
import proofs.«173320_j31851477467888_1_alg».proof.Proof.Gen.KernelIdeal.Frame
import proofs.«173320_j31851477467888_1_alg».proof.Proof.SpecRows
import proofs.«173320_j31851477467888_1_alg».proof.Proof.DenseTile
import Idealize.ShloMosaic.Lib.Pipeline.Value
import Idealize.ShloMosaic.Lib.ValueIdx

set_option maxRecDepth 16384

noncomputable section

namespace Cert.KernelIdeal.Final

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz4 : (![0, 0] : Fin 2 → Nat) = fun _ => 0 := funext fun a => by fin_cases a <;> rfl

/-- The index maps over the grid: the input and output tiles move with the point along the rows; the bias row stays. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is block t of the function of the arrays as the region finds them. -/
theorem flushed4 (c : Dev nD) (t : Fin cfg4.N) :
    (dat4 V c).flushed 2 t = ((cfg4.win 2).blk t).view.read (Elt Ideal)
      (Cert.Spec.biasRelu (n := 50000) (d := 256) (V c main_v80) (V c main_v83)) := by
  show (cfg4.win 2).cut (grid4.coords t) ((dat4 V c).after 2 t) = _
  rw [after4_2]
  unfold out4_2
  rw [View.canon_unit_zero hz4]
  simp only [View.ld_unit_zero (S := S2000x256) hz4, View.ld_unit_zero (S := S1x256) hz4]
  rw [Tile.pay4]
  obtain ⟨e0, e1, e2, e3, e4, e5⟩ := idx4 t
  have ht : t.val < 25 := t.isLt
  funext y
  obtain ⟨p, q, rfl⟩ : ∃ (p : Fin 2000) (q : Fin 256), y = ix2 p q := ⟨y 0, y 1, eq_ix2 y⟩
  have hp : p.val < 2000 := p.isLt
  have hrow : t.val * 2000 + p.val < 50000 := by omega
  have he : ((cfg4.win 2).blk t).view.emb (ix2 p q) = ix2 (⟨t.val * 2000 + p.val, hrow⟩ : Fin 50000) q := by
    funext a; apply Fin.ext
    match a with
    | ⟨0, _⟩ => show win4_2.index t (0 : Fin 2) * 2000 + 1 * p.val = t.val * 2000 + p.val; omega
    | ⟨1, _⟩ => show win4_2.index t (1 : Fin 2) * 256 + 1 * q.val = q.val; omega
  show Cert.Spec.biasRelu (iblk4 V c 0 t) (iblk4 V c 1 t) (ix2 p q)
    = Cert.Spec.biasRelu (n := 50000) (d := 256) (V c main_v80) (V c main_v83) (((cfg4.win 2).blk t).view.emb (ix2 p q))
  rw [he]
  refine Cert.Spec.biasRelu_rows _ _ _ _ p ⟨t.val * 2000 + p.val, hrow⟩ (fun q' => ?_) ?_ q
  · show V c main_v80 (((cfg4.win 0).blk t).view.emb (ix2 p q')) = V c main_v80 (ix2 (⟨t.val * 2000 + p.val, hrow⟩ : Fin 50000) q')
    refine congrArg (V c main_v80) (funext fun a => Fin.ext ?_)
    match a with
    | ⟨0, _⟩ => show win4_0.index t (0 : Fin 2) * 2000 + 1 * p.val = t.val * 2000 + p.val; omega
    | ⟨1, _⟩ => show win4_0.index t (1 : Fin 2) * 256 + 1 * q'.val = q'.val; omega
  · funext z
    show V c main_v83 (((cfg4.win 1).blk t).view.emb z) = V c main_v83 z
    refine congrArg (V c main_v83) (funext fun a => Fin.ext ?_)
    match a with
    | ⟨0, _⟩ => show win4_1.index t (0 : Fin 2) * 1 + 1 * (z 0).val = (z 0).val; omega
    | ⟨1, _⟩ => show win4_1.index t (1 : Fin 2) * 256 + 1 * (z 1).val = (z 1).val; omega

/-- An index of the output array is in point t's block iff each coordinate is in the block's range on its axis. -/
theorem mem_blk4 (t : Fin cfg4.N) (i : S50000x256.Idx) :
    i ∈ ((cfg4.win 2).blk t).view.set ↔ ∀ a : Fin 2, win4_2.index t a * S2000x256.size a ≤ (i a).val ∧ (i a).val < win4_2.index t a * S2000x256.size a + S2000x256.size a := by
  show i ∈ ((View.whole main_v84).slice (win4_2.rect t)).set ↔ _
  rw [View.set_slice_whole, Rect.mem_set_unit]
  exact Iff.rfl

/-- Every row is in the block of the point its number divided by 2000 names. -/
theorem cover4 (i : S50000x256.Idx) : ∃ t : Fin cfg4.N, (cfg4.win 2).flush t = true ∧ i ∈ ((cfg4.win 2).blk t).view.set := by
  have hi0 : (i 0).val < 50000 := (i 0).isLt
  have hi1 : (i 1).val < 256 := (i 1).isLt
  refine ⟨⟨(i 0).val / 2000, by show (i 0).val / 2000 < 25; omega⟩, flush4_2 _, ?_⟩
  rw [mem_blk4]
  obtain ⟨e0, e1, e2, e3, e4, e5⟩ := idx4 ⟨(i 0).val / 2000, by show (i 0).val / 2000 < 25; omega⟩
  have e4' : win4_2.index ⟨(i 0).val / 2000, by show (i 0).val / 2000 < 25; omega⟩ (0 : Fin 2) = (i 0).val / 2000 := e4
  intro a
  match a with
  | ⟨0, _⟩ =>
    show win4_2.index _ (0 : Fin 2) * 2000 ≤ (i 0).val ∧ (i 0).val < win4_2.index _ (0 : Fin 2) * 2000 + 2000
    rw [e4']; omega
  | ⟨1, _⟩ =>
    show win4_2.index _ (1 : Fin 2) * 256 ≤ (i 1).val ∧ (i 1).val < win4_2.index _ (1 : Fin 2) * 256 + 256
    rw [e5]; omega

/-- The region's output array after the run: bias and rectifier of the arrays as the region finds them. -/
theorem final4 (c : Dev nD) : (dat4 V c).arrAt 2 cfg4.N
    = Cert.Spec.biasRelu (n := 50000) (d := 256) (V c main_v80) (V c main_v83) :=
  (dat4 V c).arrAt_eq_of_cover 2 _ (fun t _ => flushed4 V c t) (cover4)

end Cert.KernelIdeal.Final

end
-- ==== Proof.Final5.lean ====
/-
  Region 5: a dense layer computed tile by tile is the dense layer of the whole matrix.

  The region's grid has 25 points; point t holds rows 2000·t … 2000·t + 1999 of the input matrix, the whole weight matrix and
  the whole bias row, and writes back rows 2000·t … 2000·t + 1999 of the output. Its body leaves in the output block the dense layer
  of the tile's rows; a dense layer reads, at row p, only row p of its input; so what point t writes back is block t of
  the dense layer of the whole input matrix, and, the 25 blocks covering all 50000 rows, the output array ends as that.
-/
import proofs.«173320_j31851477467888_1_alg».proof.Proof.Gen.KernelIdeal.Frame
import proofs.«173320_j31851477467888_1_alg».proof.Proof.SpecRows
import proofs.«173320_j31851477467888_1_alg».proof.Proof.DenseTile
import Idealize.ShloMosaic.Lib.Pipeline.Value
import Idealize.ShloMosaic.Lib.ValueIdx

set_option maxRecDepth 16384

noncomputable section

namespace Cert.KernelIdeal.Final

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz5 : (![0, 0] : Fin 2 → Nat) = fun _ => 0 := funext fun a => by fin_cases a <;> rfl

/-- The index maps over the grid: the input and output tiles move with the point along the rows; the weights and the bias
    row stay. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- What point t writes back is block t of the dense layer of the arrays as the region finds them. -/
theorem flushed5 (c : Dev nD) (t : Fin cfg5.N) :
    (dat5 V c).flushed 3 t = ((cfg5.win 3).blk t).view.read (Elt Ideal)
      (Cert.Spec.lin (n := 50000) (k := 256) (d := 256) (V c main_v84) (V c main_v86) (V c main_v87)) := by
  show (cfg5.win 3).cut (grid5.coords t) ((dat5 V c).after 3 t) = _
  rw [after5_3]
  unfold out5_3
  rw [View.canon_unit_zero hz5]
  simp only [View.ld_unit_zero (S := S2000x256) hz5, View.ld_unit_zero (S := S256x256) hz5, View.ld_unit_zero (S := S1x256) hz5]
  rw [Tile.pay5]
  obtain ⟨e0, e1, e2, e3, e4, e5, e6, e7⟩ := idx5 t
  have ht : t.val < 25 := t.isLt
  funext y
  obtain ⟨p, q, rfl⟩ : ∃ (p : Fin 2000) (q : Fin 256), y = ix2 p q := ⟨y 0, y 1, eq_ix2 y⟩
  have hp : p.val < 2000 := p.isLt
  have hrow : t.val * 2000 + p.val < 50000 := by omega
  have he : ((cfg5.win 3).blk t).view.emb (ix2 p q) = ix2 (⟨t.val * 2000 + p.val, hrow⟩ : Fin 50000) q := by
    funext a; apply Fin.ext
    match a with
    | ⟨0, _⟩ => show win5_3.index t (0 : Fin 2) * 2000 + 1 * p.val = t.val * 2000 + p.val; omega
    | ⟨1, _⟩ => show win5_3.index t (1 : Fin 2) * 256 + 1 * q.val = q.val; omega
  show Cert.Spec.lin (iblk5 V c 0 t) (iblk5 V c 1 t) (iblk5 V c 2 t) (ix2 p q)
    = Cert.Spec.lin (n := 50000) (k := 256) (d := 256) (V c main_v84) (V c main_v86) (V c main_v87) (((cfg5.win 3).blk t).view.emb (ix2 p q))
  rw [he]
  refine Cert.Spec.lin_rows _ _ _ _ _ _ p ⟨t.val * 2000 + p.val, hrow⟩ (fun q' => ?_) ?_ ?_ q
  · show V c main_v84 (((cfg5.win 0).blk t).view.emb (ix2 p q')) = V c main_v84 (ix2 (⟨t.val * 2000 + p.val, hrow⟩ : Fin 50000) q')
    refine congrArg (V c main_v84) (funext fun a => Fin.ext ?_)
    match a with
    | ⟨0, _⟩ => show win5_0.index t (0 : Fin 2) * 2000 + 1 * p.val = t.val * 2000 + p.val; omega
    | ⟨1, _⟩ => show win5_0.index t (1 : Fin 2) * 256 + 1 * q'.val = q'.val; omega
  · funext z
    show V c main_v86 (((cfg5.win 1).blk t).view.emb z) = V c main_v86 z
    refine congrArg (V c main_v86) (funext fun a => Fin.ext ?_)
    match a with
    | ⟨0, _⟩ => show win5_1.index t (0 : Fin 2) * 256 + 1 * (z 0).val = (z 0).val; omega
    | ⟨1, _⟩ => show win5_1.index t (1 : Fin 2) * 256 + 1 * (z 1).val = (z 1).val; omega
  · funext z
    show V c main_v87 (((cfg5.win 2).blk t).view.emb z) = V c main_v87 z
    refine congrArg (V c main_v87) (funext fun a => Fin.ext ?_)
    match a with
    | ⟨0, _⟩ => show win5_2.index t (0 : Fin 2) * 1 + 1 * (z 0).val = (z 0).val; omega
    | ⟨1, _⟩ => show win5_2.index t (1 : Fin 2) * 256 + 1 * (z 1).val = (z 1).val; omega

/-- An index of the output array is in point t's block iff each coordinate is in the block's range on its axis. -/
theorem mem_blk5 (t : Fin cfg5.N) (i : S50000x256.Idx) :
    i ∈ ((cfg5.win 3).blk t).view.set ↔ ∀ a : Fin 2, win5_3.index t a * S2000x256.size a ≤ (i a).val ∧ (i a).val < win5_3.index t a * S2000x256.size a + S2000x256.size a := by
  show i ∈ ((View.whole main_v88).slice (win5_3.rect t)).set ↔ _
  rw [View.set_slice_whole, Rect.mem_set_unit]
  exact Iff.rfl

/-- Every row is in the block of the point its number divided by 2000 names. -/
theorem cover5 (i : S50000x256.Idx) : ∃ t : Fin cfg5.N, (cfg5.win 3).flush t = true ∧ i ∈ ((cfg5.win 3).blk t).view.set := by
  have hi0 : (i 0).val < 50000 := (i 0).isLt
  have hi1 : (i 1).val < 256 := (i 1).isLt
  refine ⟨⟨(i 0).val / 2000, by show (i 0).val / 2000 < 25; omega⟩, flush5_3 _, ?_⟩
  rw [mem_blk5]
  obtain ⟨e0, e1, e2, e3, e4, e5, e6, e7⟩ := idx5 ⟨(i 0).val / 2000, by show (i 0).val / 2000 < 25; omega⟩
  have e6' : win5_3.index ⟨(i 0).val / 2000, by show (i 0).val / 2000 < 25; omega⟩ (0 : Fin 2) = (i 0).val / 2000 := e6
  intro a
  match a with
  | ⟨0, _⟩ =>
    show win5_3.index _ (0 : Fin 2) * 2000 ≤ (i 0).val ∧ (i 0).val < win5_3.index _ (0 : Fin 2) * 2000 + 2000
    rw [e6']; omega
  | ⟨1, _⟩ =>
    show win5_3.index _ (1 : Fin 2) * 256 ≤ (i 1).val ∧ (i 1).val < win5_3.index _ (1 : Fin 2) * 256 + 256
    rw [e7]; omega

/-- The region's output array after the run: the dense layer of the arrays as the region finds them. -/
theorem final5 (c : Dev nD) : (dat5 V c).arrAt 3 cfg5.N
    = Cert.Spec.lin (n := 50000) (k := 256) (d := 256) (V c main_v84) (V c main_v86) (V c main_v87) :=
  (dat5 V c).arrAt_eq_of_cover 3 _ (fun t _ => flushed5 V c t) (cover5)

end Cert.KernelIdeal.Final

end
-- ==== Proof.Final6.lean ====
/-
  Region 6: bias and rectifier computed tile by tile are the bias and rectifier of the whole matrix.

  The region's grid has 25 points; point t holds rows 2000·t … 2000·t + 1999 of the input matrix and the whole bias row,
  and writes back the same rows of the output. Its body leaves in the output block max (x + b) 0 of the tile's
  entries; that function reads, at an entry, only that entry and the bias of its column; so what point t writes back is
  block t of the function of the whole matrix, and, the 25 blocks covering all 50000 rows, the output array ends as that.
-/
import proofs.«173320_j31851477467888_1_alg».proof.Proof.Gen.KernelIdeal.Frame
import proofs.«173320_j31851477467888_1_alg».proof.Proof.SpecRows
import proofs.«173320_j31851477467888_1_alg».proof.Proof.DenseTile
import Idealize.ShloMosaic.Lib.Pipeline.Value
import Idealize.ShloMosaic.Lib.ValueIdx

set_option maxRecDepth 16384

noncomputable section

namespace Cert.KernelIdeal.Final

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz6 : (![0, 0] : Fin 2 → Nat) = fun _ => 0 := funext fun a => by fin_cases a <;> rfl

/-- The index maps over the grid: the input and output tiles move with the point along the rows; the bias row stays. -/
theorem idx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What point t writes back is block t of the function of the arrays as the region finds them. -/
theorem flushed6 (c : Dev nD) (t : Fin cfg6.N) :
    (dat6 V c).flushed 2 t = ((cfg6.win 2).blk t).view.read (Elt Ideal)
      (Cert.Spec.biasRelu (n := 50000) (d := 256) (V c main_v106) (V c main_v109)) := by
  show (cfg6.win 2).cut (grid6.coords t) ((dat6 V c).after 2 t) = _
  rw [after6_2]
  unfold out6_2
  rw [View.canon_unit_zero hz6]
  simp only [View.ld_unit_zero (S := S2000x256) hz6, View.ld_unit_zero (S := S1x256) hz6]
  rw [Tile.pay6]
  obtain ⟨e0, e1, e2, e3, e4, e5⟩ := idx6 t
  have ht : t.val < 25 := t.isLt
  funext y
  obtain ⟨p, q, rfl⟩ : ∃ (p : Fin 2000) (q : Fin 256), y = ix2 p q := ⟨y 0, y 1, eq_ix2 y⟩
  have hp : p.val < 2000 := p.isLt
  have hrow : t.val * 2000 + p.val < 50000 := by omega
  have he : ((cfg6.win 2).blk t).view.emb (ix2 p q) = ix2 (⟨t.val * 2000 + p.val, hrow⟩ : Fin 50000) q := by
    funext a; apply Fin.ext
    match a with
    | ⟨0, _⟩ => show win6_2.index t (0 : Fin 2) * 2000 + 1 * p.val = t.val * 2000 + p.val; omega
    | ⟨1, _⟩ => show win6_2.index t (1 : Fin 2) * 256 + 1 * q.val = q.val; omega
  show Cert.Spec.biasRelu (iblk6 V c 0 t) (iblk6 V c 1 t) (ix2 p q)
    = Cert.Spec.biasRelu (n := 50000) (d := 256) (V c main_v106) (V c main_v109) (((cfg6.win 2).blk t).view.emb (ix2 p q))
  rw [he]
  refine Cert.Spec.biasRelu_rows _ _ _ _ p ⟨t.val * 2000 + p.val, hrow⟩ (fun q' => ?_) ?_ q
  · show V c main_v106 (((cfg6.win 0).blk t).view.emb (ix2 p q')) = V c main_v106 (ix2 (⟨t.val * 2000 + p.val, hrow⟩ : Fin 50000) q')
    refine congrArg (V c main_v106) (funext fun a => Fin.ext ?_)
    match a with
    | ⟨0, _⟩ => show win6_0.index t (0 : Fin 2) * 2000 + 1 * p.val = t.val * 2000 + p.val; omega
    | ⟨1, _⟩ => show win6_0.index t (1 : Fin 2) * 256 + 1 * q'.val = q'.val; omega
  · funext z
    show V c main_v109 (((cfg6.win 1).blk t).view.emb z) = V c main_v109 z
    refine congrArg (V c main_v109) (funext fun a => Fin.ext ?_)
    match a with
    | ⟨0, _⟩ => show win6_1.index t (0 : Fin 2) * 1 + 1 * (z 0).val = (z 0).val; omega
    | ⟨1, _⟩ => show win6_1.index t (1 : Fin 2) * 256 + 1 * (z 1).val = (z 1).val; omega

/-- An index of the output array is in point t's block iff each coordinate is in the block's range on its axis. -/
theorem mem_blk6 (t : Fin cfg6.N) (i : S50000x256.Idx) :
    i ∈ ((cfg6.win 2).blk t).view.set ↔ ∀ a : Fin 2, win6_2.index t a * S2000x256.size a ≤ (i a).val ∧ (i a).val < win6_2.index t a * S2000x256.size a + S2000x256.size a := by
  show i ∈ ((View.whole main_v110).slice (win6_2.rect t)).set ↔ _
  rw [View.set_slice_whole, Rect.mem_set_unit]
  exact Iff.rfl

/-- Every row is in the block of the point its number divided by 2000 names. -/
theorem cover6 (i : S50000x256.Idx) : ∃ t : Fin cfg6.N, (cfg6.win 2).flush t = true ∧ i ∈ ((cfg6.win 2).blk t).view.set := by
  have hi0 : (i 0).val < 50000 := (i 0).isLt
  have hi1 : (i 1).val < 256 := (i 1).isLt
  refine ⟨⟨(i 0).val / 2000, by show (i 0).val / 2000 < 25; omega⟩, flush6_2 _, ?_⟩
  rw [mem_blk6]
  obtain ⟨e0, e1, e2, e3, e4, e5⟩ := idx6 ⟨(i 0).val / 2000, by show (i 0).val / 2000 < 25; omega⟩
  have e4' : win6_2.index ⟨(i 0).val / 2000, by show (i 0).val / 2000 < 25; omega⟩ (0 : Fin 2) = (i 0).val / 2000 := e4
  intro a
  match a with
  | ⟨0, _⟩ =>
    show win6_2.index _ (0 : Fin 2) * 2000 ≤ (i 0).val ∧ (i 0).val < win6_2.index _ (0 : Fin 2) * 2000 + 2000
    rw [e4']; omega
  | ⟨1, _⟩ =>
    show win6_2.index _ (1 : Fin 2) * 256 ≤ (i 1).val ∧ (i 1).val < win6_2.index _ (1 : Fin 2) * 256 + 256
    rw [e5]; omega

/-- The region's output array after the run: bias and rectifier of the arrays as the region finds them. -/
theorem final6 (c : Dev nD) : (dat6 V c).arrAt 2 cfg6.N
    = Cert.Spec.biasRelu (n := 50000) (d := 256) (V c main_v106) (V c main_v109) :=
  (dat6 V c).arrAt_eq_of_cover 2 _ (fun t _ => flushed6 V c t) (cover6)

end Cert.KernelIdeal.Final

end
-- ==== Proof.LibKeepdims.lean ====
/-
  A vector turned into a column, and a column repeated along its rows.

  A length-a vector cast to an [a, 1] array holds at (i, u) the vector's entry i, whatever the unit coordinate u.  An
  [a, 1] column broadcast to an [a, b] array holds at (p, c) the column's entry (p, 0): the same number along each
  row.  Together they are how a reduction along a row (a maximum, a sum) is put back beside every entry of that row.
-/
import Idealize.ShloMosaic.Lib.Pipeline.Value
import Idealize.ShloMosaic.Lib.ValueIdx

namespace Cert.LibKeepdims

open Idealize.ShloMosaic Idealize.ShloMosaic.ValueIdx

variable {α : Type}

/-- An [a] array cast to [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array cast to [a] reads, at i, the operand at (i, 0). -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An [a, 1] array broadcast to [a, b] reads, at (p, c), the operand's entry (p, 0). -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibKeepdims
-- ==== Proof.LibRowReduce.lean ====
/-
  Rows of a matrix reduced along their entries, and a matrix read through its transpose.

  Over the extended reals a host sum of an [a, b] array along its second axis is, at row r, the initial value plus
  the plain sum over k of the entries (r, k).  A maximum along the second axis, whether taken by a lane reduction or
  by the host, is at row r the fold of max from the initial value over the entries (r, k), in any order.  The word
  of minus infinity is the least extended real, so taking a maximum with it changes nothing.  The transpose of a
  [b, a] matrix holds at (k, j) the matrix's entry (j, k).
-/
import Idealize.ShloMosaic.Lib.Pipeline.Value
import Idealize.ShloMosaic.Lib.ValueIdx
import Idealize.ShloMosaic.PureOps.Ideal.Laws

noncomputable section

open scoped BigOperators

namespace Cert.LibRowReduce

open Idealize.ShloMosaic Idealize.ShloMosaic.ValueIdx

variable {a b : ℕ}

/-- The index of row r with the second coordinate k put back is (r, k). -/
theorem lift_row (h : (⟨2, ![a, b]⟩ : Shape).Reduces [1] ⟨1, ![a]⟩) (r : Fin a)
    (k : Fin ((⟨2, ![a, b]⟩ : Shape).size 1)) : h.lift (ix1 r) k = ix2 r (⟨k.val, k.isLt⟩ : Fin b) := by
  funext ax
  refine Fin.ext ?_
  match ax with
  | ⟨0, _⟩ => rfl
  | ⟨1, _⟩ => rfl

/-- The host's sum of an [a, b] array along axis 1, at row r: the initial value plus the sum over k of the
    entries (r, k). -/
theorem hostRowSum_apply {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd (F := Ideal) x init h' hu (ix1 r) = init (Shape.Idx.first hu) + ∑ k : Fin b, x (ix2 r k) := by
  unfold Host.reduceAdd
  rw [Ideal.hostReduceAdd_def, Ideal.hostReduceAdd_single h' h]
  refine congrArg (_ + ·) (Finset.sum_congr rfl fun k _ => congrArg x ?_)
  exact lift_row h r k

/-- A lane maximum of an [a, b] f32 vector along axis 1, at row r: the fold of max from the accumulator's value over the
    entries (r, k). -/
theorem rowMax_apply (v : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (r : Fin a) :
    multiReduction .maximumf [1] ⟨1, ![a]⟩ v acc h hφ hacc (ix1 r)
      = (Finset.univ : Finset (Fin b)).fold max (Ideal.ofBits .f32 acc) (fun k => v (ix2 r k)) := by
  refine (Ideal.multiReduction_maximumf_single v acc h hφ hacc (ix1 r)).trans ?_
  refine congrArg (fun f => Finset.fold max (Ideal.ofBits .f32 acc) f (Finset.univ : Finset (Fin b))) ?_
  funext k
  exact congrArg v (lift_row h r k)

/-- The host's maximum of an [a, b] array along axis 1, at row r: the fold of max from the initial value over the
    entries (r, k). -/
theorem hostRowMax_apply {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := .f32)) x init h' hu (ix1 r)
      = (Finset.univ : Finset (Fin b)).fold max (init (Shape.Idx.first hu)) (fun k => x (ix2 r k)) := by
  rw [Host.reduce_eq_fold_single (FloatOps.maximumf (F := Ideal) (φ := .f32)) x init h' h hu]
  refine congrArg (fun f => Finset.fold max (init (Shape.Idx.first hu)) f (Finset.univ : Finset (Fin b))) ?_
  funext k
  exact congrArg x (lift_row h r k)

/-- The f32 word of minus infinity is the least extended real: a maximum with it is the other operand. -/
theorem max_negInf_left (y : EReal) : max (Ideal.ofBits .f32 0xFF800000#32) y = y := by
  simp [Ideal.ofBits, Ideal.ieee]

/-- The transpose of a [b, a] matrix reads, at (k, j), the matrix's entry (j, k). -/
theorem transpose_swap_apply {α : Type} (x : (⟨2, ![b, a]⟩ : Shape).Idx → α)
    (h : (⟨2, ![b, a]⟩ : Shape).Transposes [1, 0] ⟨2, ![a, b]⟩) (k : Fin a) (j : Fin b) :
    transpose ⟨2, ![a, b]⟩ [1, 0] x h (ix2 k j) = x (ix2 j k) := by
  refine transpose_apply [1, 0] x h (ix2 k j) (ix2 j k) fun ax => ?_
  match ax with
  | ⟨0, _⟩ => rfl
  | ⟨1, _⟩ => rfl

end Cert.LibRowReduce

end
-- ==== Proof.LibLaneSum.lean ====
/-
  A lane sum of a matrix along its rows, read at one row.

  Over the extended reals a vector reduction that adds along axis 1 of an [a, b] array from the zero accumulator
  is, at row r, the plain sum over k of the entries (r, k): no order of summation is left in it.

  The statement takes the accumulator's word, the format condition and the accumulator condition as variables of
  the types the reduction's signature gives them.  In a printed program those two conditions are proofs whose own
  types are spelt differently (a disjunction of format equations; an equation between two copies of the zero word),
  so rewriting with this lemma finds its pattern only through a local fact restated at the printed spelling, with
  the two conditions quantified at exactly those types, whose proof is this lemma.
-/
import Idealize.ShloMosaic.Lib.Pipeline.Value
import Idealize.ShloMosaic.Lib.ValueIdx
import Idealize.ShloMosaic.PureOps.Ideal.Laws
import proofs.«173320_j31851477467888_1_alg».proof.Proof.LibRowReduce

noncomputable section

open scoped BigOperators

namespace Cert.LibLaneSum

open Idealize.ShloMosaic Idealize.ShloMosaic.ValueIdx

/-- A lane sum of an [a, b] array along axis 1, at row r: the sum over k of the entries (r, k). -/
theorem rowSum_apply {a b : ℕ} (v : FVec Ideal ⟨2, ![a, b]⟩ .f32) (acc : BitVec (FTy.bits .f32))
    (h : (⟨2, ![a, b]⟩ : Shape).Reduces [1] ⟨1, ![a]⟩) (hφ : FKind.Formats .f32) (hacc : acc = FKind.add.neutral .f32 hφ) (r : Fin a) :
    multiReduction .add [1] ⟨1, ![a]⟩ v acc h hφ hacc (ix1 r) = ∑ k : Fin b, v (ix2 r k) := by
  refine (Ideal.multiReduction_add_single v acc h hφ hacc (ix1 r)).trans ?_
  exact Finset.sum_congr rfl fun k _ => congrArg v (Cert.LibRowReduce.lift_row h r k)

/-- A reciprocal square root taken entry by entry. -/
theorem rsqrt_apply {s : Shape} (a : FVec Ideal s .f32) (i : s.Idx) : rsqrt a i = Ideal.rsqrt (a i) := rfl

end Cert.LibLaneSum

end
-- ==== Proof.ProjTile.lean ====
/-
  The projection and normalisation stage on one tile of rows.

  The stage's body, read entry by entry over the extended reals, is the row-wise function of the specification:
  each row is projected by the dense layer, its mean and its mean squared deviation are taken over the row's 64
  entries, and the row is centred, scaled by the reciprocal square root of the deviation plus the offset, then
  multiplied by the scale row and shifted by the shift row.  Both sides are the same expression with the same
  association, so nothing is rearranged: every step is the reading of one operation at an index.
-/
import proofs.«173320_j31851477467888_1_alg».proof.Proof.Gen.KernelIdeal.Skeleton
import proofs.«173320_j31851477467888_1_alg».proof.Proof.Spec
import proofs.«173320_j31851477467888_1_alg».proof.Proof.LibPlainDot
import proofs.«173320_j31851477467888_1_alg».proof.Proof.LibKeepdims
import proofs.«173320_j31851477467888_1_alg».proof.Proof.LibLaneSum
import Idealize.ShloMosaic.Lib.ValueLayout
import Idealize.ShloMosaic.Lib.Pipeline.Value
import Idealize.ShloMosaic.Lib.ValueIdx

noncomputable section

open scoped BigOperators

namespace Cert.KernelIdeal.Tile

open Idealize.ShloMosaic Idealize.ShloMosaic.ValueIdx Cert.KernelIdeal Cert.KernelIdeal.Gen

/-- The projected tile: the dense layer of every row, as the stage's body writes it. -/
def proj (x0 : Vec Ideal S400x256 .f32) (x1 : Vec Ideal S256x64 .f32) (x2 : Vec Ideal S1x64 .f32) : FVec Ideal S400x64 .f32 :=
  addf
    (matmul dot_S400x256_S256x64_S400x64_1_0_0_1_n_n none
      (truncf .bf16 (shapeCast S400x256 x0 shapeCasts_S400x256_S400x256) bitsLt_bf16_f32)
      (truncf .bf16 x1 bitsLt_bf16_f32) (constant S400x64 .f32 0x00000000#32))
    (broadcastTo S400x64 (shapeCast S1x64 x2 shapeCasts_S1x64_S1x64) broadcasts_S1x64_S400x64)

/-- The projected tile at (p, c) is the dense layer of row p at c. -/
theorem proj_apply (x0 : Vec Ideal S400x256 .f32) (x1 : Vec Ideal S256x64 .f32) (x2 : Vec Ideal S1x64 .f32)
    (p : Fin 400) (c : Fin 64) : proj x0 x1 x2 (ix2 p c) = Cert.Spec.lin x0 x1 x2 (ix2 p c) := by
  rw [Cert.Spec.lin_apply]
  unfold proj
  rw [addf_apply, shapeCast_self, shapeCast_self, broadcastTo_1b_ab_apply]
  refine congrArg (· + x2 (ix2 (0 : Fin 1) c)) ?_
  exact Cert.LibPlainDot.matmul_zero_apply dot_S400x256_S256x64_S400x64_1_0_0_1_n_n rfl none _ _ p c

/-- The column of row means of a tile, as the stage's body writes it: the lane sum of each row, as a column, over the
    word of 64. -/
def meanCol (P : FVec Ideal S400x64 .f32) : FVec Ideal S400x1 .f32 :=
  divf (shapeCast S400x1 (multiReduction .add [1] S400 P 0x00000000#32 reduces_S400x64_S400 (.inl rfl) rfl) shapeCasts_S400_S400x1)
    (broadcast S400x1 (Scalar.ofBits .f32 0x42800000#32))

/-- The column of row means at row p is the mean of row p. -/
theorem meanCol_apply (P : FVec Ideal S400x64 .f32) (p : Fin 400) :
    meanCol P (ix2 p (0 : Fin 1)) = Cert.Spec.mean (fun j : Fin 64 => P (ix2 p j)) := by
  unfold meanCol
  rw [divf_apply, broadcast_apply, Cert.LibKeepdims.shapeCast_a_a1_apply]
  show Ideal.div _ Cert.Spec.cnt = Ideal.div _ Cert.Spec.cnt
  refine congrArg (fun t => Ideal.div t Cert.Spec.cnt) ?_
  exact Cert.LibLaneSum.rowSum_apply P _ _ _ _ p

/-- A tile with its column of row means subtracted from every entry. -/
def centred (P : FVec Ideal S400x64 .f32) : FVec Ideal S400x64 .f32 :=
  subf P (broadcastTo S400x64 (meanCol P) broadcasts_S400x1_S400x64)

/-- The centred tile at (p, c) is the entry less the mean of its row. -/
theorem centred_apply (P : FVec Ideal S400x64 .f32) (p : Fin 400) (c : Fin 64) :
    centred P (ix2 p c) = P (ix2 p c) - Cert.Spec.mean (fun j : Fin 64 => P (ix2 p j)) := by
  unfold centred
  rw [subf_apply, Cert.LibKeepdims.broadcastTo_a1_ab_apply, meanCol_apply]

/-- The column of reciprocal square roots, as the stage's body writes it: the lane sum of the squared centred entries
    of each row, as a column, over the word of 64, plus the offset word, under the reciprocal square root. -/
def scaleCol (P : FVec Ideal S400x64 .f32) : FVec Ideal S400x1 .f32 :=
  rsqrt (addf
    (divf (shapeCast S400x1
        (multiReduction .add [1] S400 (mulf (centred P) (centred P)) 0x00000000#32 reduces_S400x64_S400 (.inl rfl) rfl)
        shapeCasts_S400_S400x1)
      (broadcast S400x1 (Scalar.ofBits .f32 0x42800000#32)))
    (broadcast S400x1 (Scalar.ofBits .f32 0x3727C5AC#32)))

/-- The column of reciprocal square roots at row p: that of the row's mean squared deviation plus the offset. -/
theorem scaleCol_apply (P : FVec Ideal S400x64 .f32) (p : Fin 400) :
    scaleCol P (ix2 p (0 : Fin 1))
      = Ideal.rsqrt (Cert.Spec.var (fun j : Fin 64 => P (ix2 p j)) + Cert.Spec.eps) := by
  unfold scaleCol
  rw [Cert.LibLaneSum.rsqrt_apply, addf_apply, divf_apply, broadcast_apply, broadcast_apply,
    Cert.LibKeepdims.shapeCast_a_a1_apply]
  show Ideal.rsqrt (Ideal.div _ Cert.Spec.cnt + Cert.Spec.eps) = _
  unfold Cert.Spec.var
  refine congrArg (fun t => Ideal.rsqrt (Ideal.div t Cert.Spec.cnt + Cert.Spec.eps)) ?_
  refine (Cert.LibLaneSum.rowSum_apply (mulf (centred P) (centred P)) _ _ _ _ p).trans ?_
  refine Finset.sum_congr rfl fun k _ => ?_
  rw [mulf_apply, centred_apply]

/-- The stage's body is the normalisation of the projected tile: the printed sequence of operations, regrouped under
    the names above. -/
theorem pay7_unfold (x0 : Vec Ideal S400x256 .f32) (x1 : Vec Ideal S256x64 .f32) (x2 x3 x4 : Vec Ideal S1x64 .f32) :
    Gen.k7_pay1 (F := Ideal) x0 x1 x2 x3 x4
      = addf
          (mulf
            (mulf (centred (proj x0 x1 x2)) (broadcastTo S400x64 (scaleCol (proj x0 x1 x2)) broadcasts_S400x1_S400x64))
            (broadcastTo S400x64 (shapeCast S1x64 x3 shapeCasts_S1x64_S1x64) broadcasts_S1x64_S400x64))
          (broadcastTo S400x64 (shapeCast S1x64 x4 shapeCasts_S1x64_S1x64) broadcasts_S1x64_S400x64) := rfl

/-- The stage's body on a tile of 400 rows is the projection and normalisation of every row. -/
theorem pay7 (x0 : Vec Ideal S400x256 .f32) (x1 : Vec Ideal S256x64 .f32) (x2 x3 x4 : Vec Ideal S1x64 .f32) :
    Gen.k7_pay1 (F := Ideal) x0 x1 x2 x3 x4 = Cert.Spec.projLN x0 x1 x2 x3 x4 := by
  funext i
  obtain ⟨p, c, rfl⟩ : ∃ (p : Fin 400) (c : Fin 64), i = ix2 p c := ⟨i 0, i 1, eq_ix2 i⟩
  rw [Cert.Spec.projLN_apply, pay7_unfold]
  unfold Cert.Spec.norm
  rw [addf_apply, mulf_apply, mulf_apply, centred_apply, Cert.LibKeepdims.broadcastTo_a1_ab_apply, scaleCol_apply,
    shapeCast_self, shapeCast_self, broadcastTo_1b_ab_apply, broadcastTo_1b_ab_apply]
  simp only [proj_apply]

end Cert.KernelIdeal.Tile

end
-- ==== Proof.Final7.lean ====
/-
  Region 7: the projection and normalisation computed tile by tile are those of the whole matrix.

  The region's grid has 5 points; point t holds rows 400·t … 400·t + 399 of the pooled matrix, the whole projection
  matrix and the whole bias, scale and shift rows, and writes back the same rows of the output. Its body leaves in the
  output block, row by row, the normalised projection of the tile's row; that reads, at row p, only row p of its input;
  so what point t writes back is block t of the function of the whole matrix, and, the 5 blocks covering all 2000 rows,
  the output array ends as that.
-/
import proofs.«173320_j31851477467888_1_alg».proof.Proof.Gen.KernelIdeal.Frame
import proofs.«173320_j31851477467888_1_alg».proof.Proof.SpecRows
import proofs.«173320_j31851477467888_1_alg».proof.Proof.ProjTile
import Idealize.ShloMosaic.Lib.Pipeline.Value
import Idealize.ShloMosaic.Lib.ValueIdx

set_option maxRecDepth 16384

noncomputable section

namespace Cert.KernelIdeal.Final

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz7 : (![0, 0] : Fin 2 → Nat) = fun _ => 0 := funext fun a => by fin_cases a <;> rfl

/-- The index maps over the grid: the input and output tiles move with the point along the rows; the projection matrix
    and the three rows stay. -/
theorem idx7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

/-- What point t writes back is block t of the function of the arrays as the region finds them. -/
theorem flushed7 (c : Dev nD) (t : Fin cfg7.N) :
    (dat7 V c).flushed 5 t = ((cfg7.win 5).blk t).view.read (Elt Ideal)
      (Cert.Spec.projLN (n := 2000) (k := 256) (d := 64) (V c main_v122) (V c main_arg7) (V c main_v123) (V c main_v124) (V c main_v125)) := by
  show (cfg7.win 5).cut (grid7.coords t) ((dat7 V c).after 5 t) = _
  rw [after7_5]
  unfold out7_5
  rw [View.canon_unit_zero hz7]
  simp only [View.ld_unit_zero (S := S400x256) hz7, View.ld_unit_zero (S := S256x64) hz7, View.ld_unit_zero (S := S1x64) hz7]
  rw [Tile.pay7]
  obtain ⟨e0, e1, e2, e3, e4, e5, e6, e7, e8, e9, e10, e11⟩ := idx7 t
  have ht : t.val < 5 := t.isLt
  funext y
  obtain ⟨p, q, rfl⟩ : ∃ (p : Fin 400) (q : Fin 64), y = ix2 p q := ⟨y 0, y 1, eq_ix2 y⟩
  have hp : p.val < 400 := p.isLt
  have hrow : t.val * 400 + p.val < 2000 := by omega
  have he : ((cfg7.win 5).blk t).view.emb (ix2 p q) = ix2 (⟨t.val * 400 + p.val, hrow⟩ : Fin 2000) q := by
    funext a; apply Fin.ext
    match a with
    | ⟨0, _⟩ => show win7_5.index t (0 : Fin 2) * 400 + 1 * p.val = t.val * 400 + p.val; omega
    | ⟨1, _⟩ => show win7_5.index t (1 : Fin 2) * 64 + 1 * q.val = q.val; omega
  show Cert.Spec.projLN (iblk7 V c 0 t) (iblk7 V c 1 t) (iblk7 V c 2 t) (iblk7 V c 3 t) (iblk7 V c 4 t) (ix2 p q)
    = Cert.Spec.projLN (n := 2000) (k := 256) (d := 64) (V c main_v122) (V c main_arg7) (V c main_v123) (V c main_v124) (V c main_v125)
        (((cfg7.win 5).blk t).view.emb (ix2 p q))
  rw [he]
  refine Cert.Spec.projLN_rows _ _ _ _ _ _ _ _ _ _ p ⟨t.val * 400 + p.val, hrow⟩ (fun q' => ?_) ?_ ?_ ?_ ?_ q
  · show V c main_v122 (((cfg7.win 0).blk t).view.emb (ix2 p q')) = V c main_v122 (ix2 (⟨t.val * 400 + p.val, hrow⟩ : Fin 2000) q')
    refine congrArg (V c main_v122) (funext fun a => Fin.ext ?_)
    match a with
    | ⟨0, _⟩ => show win7_0.index t (0 : Fin 2) * 400 + 1 * p.val = t.val * 400 + p.val; omega
    | ⟨1, _⟩ => show win7_0.index t (1 : Fin 2) * 256 + 1 * q'.val = q'.val; omega
  · funext z
    show V c main_arg7 (((cfg7.win 1).blk t).view.emb z) = V c main_arg7 z
    refine congrArg (V c main_arg7) (funext fun a => Fin.ext ?_)
    match a with
    | ⟨0, _⟩ => show win7_1.index t (0 : Fin 2) * 256 + 1 * (z 0).val = (z 0).val; omega
    | ⟨1, _⟩ => show win7_1.index t (1 : Fin 2) * 64 + 1 * (z 1).val = (z 1).val; omega
  · funext z
    show V c main_v123 (((cfg7.win 2).blk t).view.emb z) = V c main_v123 z
    refine congrArg (V c main_v123) (funext fun a => Fin.ext ?_)
    match a with
    | ⟨0, _⟩ => show win7_2.index t (0 : Fin 2) * 1 + 1 * (z 0).val = (z 0).val; omega
    | ⟨1, _⟩ => show win7_2.index t (1 : Fin 2) * 64 + 1 * (z 1).val = (z 1).val; omega
  · funext z
    show V c main_v124 (((cfg7.win 3).blk t).view.emb z) = V c main_v124 z
    refine congrArg (V c main_v124) (funext fun a => Fin.ext ?_)
    match a with
    | ⟨0, _⟩ => show win7_3.index t (0 : Fin 2) * 1 + 1 * (z 0).val = (z 0).val; omega
    | ⟨1, _⟩ => show win7_3.index t (1 : Fin 2) * 64 + 1 * (z 1).val = (z 1).val; omega
  · funext z
    show V c main_v125 (((cfg7.win 4).blk t).view.emb z) = V c main_v125 z
    refine congrArg (V c main_v125) (funext fun a => Fin.ext ?_)
    match a with
    | ⟨0, _⟩ => show win7_4.index t (0 : Fin 2) * 1 + 1 * (z 0).val = (z 0).val; omega
    | ⟨1, _⟩ => show win7_4.index t (1 : Fin 2) * 64 + 1 * (z 1).val = (z 1).val; omega

/-- An index of the output array is in point t's block iff each coordinate is in the block's range on its axis. -/
theorem mem_blk7 (t : Fin cfg7.N) (i : S2000x64.Idx) :
    i ∈ ((cfg7.win 5).blk t).view.set ↔ ∀ a : Fin 2, win7_5.index t a * S400x64.size a ≤ (i a).val ∧ (i a).val < win7_5.index t a * S400x64.size a + S400x64.size a := by
  show i ∈ ((View.whole main_v126).slice (win7_5.rect t)).set ↔ _
  rw [View.set_slice_whole, Rect.mem_set_unit]
  exact Iff.rfl

/-- Every row is in the block of the point its number divided by 400 names. -/
theorem cover7 (i : S2000x64.Idx) : ∃ t : Fin cfg7.N, (cfg7.win 5).flush t = true ∧ i ∈ ((cfg7.win 5).blk t).view.set := by
  have hi0 : (i 0).val < 2000 := (i 0).isLt
  have hi1 : (i 1).val < 64 := (i 1).isLt
  refine ⟨⟨(i 0).val / 400, by show (i 0).val / 400 < 5; omega⟩, flush7_5 _, ?_⟩
  rw [mem_blk7]
  obtain ⟨e0, e1, e2, e3, e4, e5, e6, e7, e8, e9, e10, e11⟩ := idx7 ⟨(i 0).val / 400, by show (i 0).val / 400 < 5; omega⟩
  have e10' : win7_5.index ⟨(i 0).val / 400, by show (i 0).val / 400 < 5; omega⟩ (0 : Fin 2) = (i 0).val / 400 := e10
  intro a
  match a with
  | ⟨0, _⟩ =>
    show win7_5.index _ (0 : Fin 2) * 400 ≤ (i 0).val ∧ (i 0).val < win7_5.index _ (0 : Fin 2) * 400 + 400
    rw [e10']; omega
  | ⟨1, _⟩ =>
    show win7_5.index _ (1 : Fin 2) * 64 ≤ (i 1).val ∧ (i 1).val < win7_5.index _ (1 : Fin 2) * 64 + 64
    rw [e11]; omega

/-- The region's output array after the run: the projection and normalisation of the arrays as the region finds them. -/
theorem final7 (c : Dev nD) : (dat7 V c).arrAt 5 cfg7.N
    = Cert.Spec.projLN (n := 2000) (k := 256) (d := 64) (V c main_v122) (V c main_arg7) (V c main_v123) (V c main_v124) (V c main_v125) :=
  (dat7 V c).arrAt_eq_of_cover 5 _ (fun t _ => flushed7 V c t) (cover7)

end Cert.KernelIdeal.Final

end
-- ==== Proof.LibLayout.lean ====
/-
  Column and row forms of the layout operations, read at an index.

  A length-`a` array viewed as a column `[a, 1]` (by a reshape or by a broadcast along axis 0) holds,
  at `(i, 0)`, the array's entry `i`; viewed as a row `[1, a]` it holds entry `i` at `(0, i)`.  A
  column broadcast over `b` columns holds at `(p, c)` the column's entry `p`; a row broadcast over
  `a` rows holds at `(p, c)` the row's entry `c`.  A scalar broadcast holds the scalar everywhere.
  So the reshape and the broadcast that make a column (or a row) of an array are the same function.
-/
import Idealize.ShloMosaic.Lib.Pipeline.Value
import Idealize.ShloMosaic.Lib.ValueIdx
import Idealize.ShloMosaic.Lib.ValueLayout

noncomputable section

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a]` array broadcast along axis 0 into the column `[a, 1]` reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2))
    (i : Fin a) (u : Fin 1) : broadcastInDim ⟨2, ![a, 1]⟩ (![0] : Fin 1 → Fin 2) h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- The column of an array by a reshape is its column by a broadcast along axis 0. -/
theorem shapeCast_eq_broadcastInDim_col {a : ℕ} (x : (⟨1, ![a]⟩ : Shape).Idx → α)
    (h : (⟨1, ![a]⟩ : Shape).ShapeCasts ⟨2, ![a, 1]⟩)
    (h' : (⟨1, ![a]⟩ : Shape).BroadcastsInDim ⟨2, ![a, 1]⟩ (![0] : Fin 1 → Fin 2)) :
    shapeCast ⟨2, ![a, 1]⟩ x h = broadcastInDim ⟨2, ![a, 1]⟩ (![0] : Fin 1 → Fin 2) h' x := by
  funext j
  obtain ⟨p, q, rfl⟩ : ∃ (p : Fin a) (q : Fin 1), j = ix2 p q := ⟨j 0, j 1, eq_ix2 j⟩
  rw [shapeCast_a_a1_apply, broadcastInDim_a_a1_apply]

/-- An `[a]` array broadcast along axis 1 into the row `[1, a]` reads, at `(u, i)`, the operand at `i`. -/
theorem broadcastInDim_a_1a_apply {a : ℕ} (x : (⟨1, ![a]⟩ : Shape).Idx → α)
    (h : (⟨1, ![a]⟩ : Shape).BroadcastsInDim ⟨2, ![1, a]⟩ (![1] : Fin 1 → Fin 2))
    (u : Fin 1) (i : Fin a) : broadcastInDim ⟨2, ![1, a]⟩ (![1] : Fin 1 → Fin 2) h x (ix2 u i) = x (ix1 i) := by
  refine broadcastInDim_apply _ h x (ix2 u i) (ix1 i) fun ax => ?_
  match ax with
  | ⟨0, _⟩ =>
    show i.val = if a = 1 then 0 else i.val
    split
    · have := i.isLt; omega
    · rfl

/-- The row of an array by a reshape is its row by a broadcast along axis 1. -/
theorem shapeCast_eq_broadcastInDim_row {a : ℕ} (x : (⟨1, ![a]⟩ : Shape).Idx → α)
    (h : (⟨1, ![a]⟩ : Shape).ShapeCasts ⟨2, ![1, a]⟩)
    (h' : (⟨1, ![a]⟩ : Shape).BroadcastsInDim ⟨2, ![1, a]⟩ (![1] : Fin 1 → Fin 2)) :
    shapeCast ⟨2, ![1, a]⟩ x h = broadcastInDim ⟨2, ![1, a]⟩ (![1] : Fin 1 → Fin 2) h' x := by
  funext j
  obtain ⟨p, q, rfl⟩ : ∃ (p : Fin 1) (q : Fin a), j = ix2 p q := ⟨j 0, j 1, eq_ix2 j⟩
  rw [shapeCast_a_1a_apply, broadcastInDim_a_1a_apply]

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (in dimensions 0, 1) to `[a, b]` reads, at `(p, c)`, the column's entry `p`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin 2))
    (p : Fin a) (c : Fin b) : broadcastInDim ⟨2, ![a, b]⟩ (![0, 1] : Fin 2 → Fin 2) h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (in dimensions 0, 1) to `[a, b]` reads, at `(p, c)`, the row's entry `c`. -/
theorem broadcastInDim_1b_ab_apply {a b : ℕ} (v : (⟨2, ![1, b]⟩ : Shape).Idx → α)
    (h : (⟨2, ![1, b]⟩ : Shape).BroadcastsInDim ⟨2, ![a, b]⟩ (![0, 1] : Fin 2 → Fin 2))
    (p : Fin a) (c : Fin b) : broadcastInDim ⟨2, ![a, b]⟩ (![0, 1] : Fin 2 → Fin 2) h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

end Cert.LibLayout

end
-- ==== Proof.DenseRef.lean ====
/-
  The reference's dense layers and activation stages, read at an entry.

  On the host a dense layer is a dot_general — over the extended reals the plain sum ∑ q, x (p, q) · w (q, c) —
  plus the bias array laid out as a row and repeated over the rows; a layer without bias is the same function
  with a row of zero words, x + 0 = x holding on every extended real.  The activation stage adds the bias row and
  takes the maximum with the zero word repeated over the whole array.  Each is the row-wise function of the
  specification at the whole matrix's number of rows, with the same association; nothing is rearranged.
-/
import proofs.«173320_j31851477467888_1_alg».proof.Proof.RefRead
import proofs.«173320_j31851477467888_1_alg».proof.Proof.Spec
import proofs.«173320_j31851477467888_1_alg».proof.Proof.LibPlainDot
import proofs.«173320_j31851477467888_1_alg».proof.Proof.LibLayout
import Idealize.ShloMosaic.Lib.Pipeline.Value
import Idealize.ShloMosaic.Lib.ValueIdx
import Idealize.ShloMosaic.PureOps.Ideal.Laws

noncomputable section

open scoped BigOperators

namespace Cert.ReferenceIdeal.Bridge

open Idealize.ShloMosaic Idealize.ShloMosaic.ValueIdx Cert.ReferenceIdeal Cert.ReferenceIdeal.Gen

variable {n k d : ℕ}

/-- An array laid out as a row and repeated over n rows reads, at (p, c), the array's entry c. -/
theorem rowBcast_apply {α : Type} (b : (⟨1, ![d]⟩ : Shape).Idx → α)
    (h1 : (⟨1, ![d]⟩ : Shape).BroadcastsInDim ⟨2, ![1, d]⟩ (![1] : Fin 1 → Fin 2))
    (h2 : (⟨2, ![1, d]⟩ : Shape).BroadcastsInDim ⟨2, ![n, d]⟩ (![0, 1] : Fin 2 → Fin 2)) (p : Fin n) (c : Fin d) :
    broadcastInDim ⟨2, ![n, d]⟩ (![0, 1] : Fin 2 → Fin 2) h2
        (broadcastInDim ⟨2, ![1, d]⟩ (![1] : Fin 1 → Fin 2) h1 b) (ix2 p c) = b (ix1 c) := by
  rw [Cert.LibLayout.broadcastInDim_1b_ab_apply, Cert.LibLayout.broadcastInDim_a_1a_apply]

/-- A host dot_general plus the bias array repeated over the rows is the dense layer of the specification,
    for any row B that holds the bias array: at (p, c) both are (∑ q, x (p, q) · w (q, c)) + b c. -/
theorem hostDense_eq (D : DotDims ⟨2, ![n, k]⟩ ⟨2, ![k, d]⟩ ⟨2, ![n, d]⟩) (hD : D = DotDims.plain n k d)
    (x : FVec Ideal ⟨2, ![n, k]⟩ .f32) (w : FVec Ideal ⟨2, ![k, d]⟩ .f32) (b : FVec Ideal ⟨1, ![d]⟩ .f32)
    (h1 : (⟨1, ![d]⟩ : Shape).BroadcastsInDim ⟨2, ![1, d]⟩ (![1] : Fin 1 → Fin 2))
    (h2 : (⟨2, ![1, d]⟩ : Shape).BroadcastsInDim ⟨2, ![n, d]⟩ (![0, 1] : Fin 2 → Fin 2))
    (B : Cert.Spec.Arr2 1 d) (hB : ∀ c : Fin d, B (ix2 (0 : Fin 1) c) = b (ix1 c)) :
    addf (Host.dotGeneral (F := Ideal) D none x w)
        (broadcastInDim ⟨2, ![n, d]⟩ (![0, 1] : Fin 2 → Fin 2) h2
          (broadcastInDim ⟨2, ![1, d]⟩ (![1] : Fin 1 → Fin 2) h1 b))
      = Cert.Spec.lin x w B := by
  funext i
  obtain ⟨p, c, rfl⟩ : ∃ (p : Fin n) (c : Fin d), i = ix2 p c := ⟨i 0, i 1, eq_ix2 i⟩
  rw [Cert.Spec.lin_apply, addf_apply, rowBcast_apply, hB]
  exact congrArg (· + b (ix1 c)) (Cert.LibPlainDot.dotGeneral_apply D hD none .single x w p c)

/-- A host dot_general by itself is the dense layer of the specification with a row of zero words: adding
    the zero word changes no extended real. -/
theorem hostDot_eq (D : DotDims ⟨2, ![n, k]⟩ ⟨2, ![k, d]⟩ ⟨2, ![n, d]⟩) (hD : D = DotDims.plain n k d)
    (x : FVec Ideal ⟨2, ![n, k]⟩ .f32) (w : FVec Ideal ⟨2, ![k, d]⟩ .f32)
    (Z : Cert.Spec.Arr2 1 d) (hZ : ∀ c : Fin d, Z (ix2 (0 : Fin 1) c) = Ideal.ofBits .f32 0x00000000#32) :
    Host.dotGeneral (F := Ideal) D none x w = Cert.Spec.lin x w Z := by
  funext i
  obtain ⟨p, c, rfl⟩ : ∃ (p : Fin n) (c : Fin d), i = ix2 p c := ⟨i 0, i 1, eq_ix2 i⟩
  rw [Cert.Spec.lin_apply, hZ, Ideal.ofBits_zero_f32, add_zero]
  exact Cert.LibPlainDot.dotGeneral_apply D hD none .single x w p c

/-- The bias array repeated over the rows added to a matrix, then the maximum with the zero word repeated
    over the whole array, is the activation stage of the specification: at (p, c) both are max (a (p, c) + b c) 0. -/
theorem hostRelu_eq (A : FVec Ideal ⟨2, ![n, d]⟩ .f32) (b : FVec Ideal ⟨1, ![d]⟩ .f32)
    (h1 : (⟨1, ![d]⟩ : Shape).BroadcastsInDim ⟨2, ![1, d]⟩ (![1] : Fin 1 → Fin 2))
    (h2 : (⟨2, ![1, d]⟩ : Shape).BroadcastsInDim ⟨2, ![n, d]⟩ (![0, 1] : Fin 2 → Fin 2))
    (h0 : (⟨0, ![]⟩ : Shape).BroadcastsInDim ⟨2, ![n, d]⟩ (![] : Fin 0 → Fin 2))
    (B : Cert.Spec.Arr2 1 d) (hB : ∀ c : Fin d, B (ix2 (0 : Fin 1) c) = b (ix1 c)) :
    maximumf (addf A (broadcastInDim ⟨2, ![n, d]⟩ (![0, 1] : Fin 2 → Fin 2) h2
          (broadcastInDim ⟨2, ![1, d]⟩ (![1] : Fin 1 → Fin 2) h1 b)))
        (broadcastInDim ⟨2, ![n, d]⟩ (![] : Fin 0 → Fin 2) h0 (constant (F := Ideal) ⟨0, ![]⟩ .f32 0x00000000#32))
      = Cert.Spec.biasRelu A B := by
  funext i
  obtain ⟨p, c, rfl⟩ : ∃ (p : Fin n) (c : Fin d), i = ix2 p c := ⟨i 0, i 1, eq_ix2 i⟩
  rw [Cert.Spec.biasRelu_apply, maximumf_apply, addf_apply, rowBcast_apply, hB,
    broadcastInDim_apply _ h0 _ (ix2 p c) ix0 (fun a => a.elim0), constant_apply]

/-- The first dense layer of the reference: the dot_general of the node features with the first weights plus
    the first bias array repeated over the rows. -/
theorem ref_v33 (x0 : (⟨S50000x128, .f32⟩ : BufTy).Contents (Elt Ideal)) (x3 : (⟨S128x256, .f32⟩ : BufTy).Contents (Elt Ideal))
    (x4 : (⟨S256, .f32⟩ : BufTy).Contents (Elt Ideal))
    (B : Cert.Spec.Arr2 1 256) (hB : ∀ c : Fin 256, B (ix2 (0 : Fin 1) c) = x4 (ix1 c)) :
    ReadP.val_main_v33 (F := Ideal) x0 x3 x4 = Cert.Spec.lin x0 x3 B := by
  unfold ReadP.val_main_v33 ReadP.val_main_v32 ReadP.val_main_v31 ReadP.val_main_v30
  exact hostDense_eq dot_S50000x128_S128x256_S50000x256_1_0_0_1_n_n rfl x0 x3 x4 bcast_S256_S1x256_1
    bcast_S1x256_S50000x256_0_1 B hB

/-- A later dense layer of the reference, which has no bias: the dot_general by itself. -/
theorem ref_dot (H : FVec Ideal S50000x256 .f32) (W : FVec Ideal S256x256 .f32) (Z : Cert.Spec.Arr2 1 256)
    (hZ : ∀ c : Fin 256, Z (ix2 (0 : Fin 1) c) = Ideal.ofBits .f32 0x00000000#32) :
    Host.dotGeneral (F := Ideal) dot_S50000x256_S256x256_S50000x256_1_0_0_1_n_n none H W = Cert.Spec.lin H W Z :=
  hostDot_eq dot_S50000x256_S256x256_S50000x256_1_0_0_1_n_n rfl H W Z hZ

/-- An activation stage of the reference. -/
theorem ref_relu (A : FVec Ideal S50000x256 .f32) (b : FVec Ideal S256 .f32) (B : Cert.Spec.Arr2 1 256)
    (hB : ∀ c : Fin 256, B (ix2 (0 : Fin 1) c) = b (ix1 c)) :
    maximumf (addf A (broadcastInDim S50000x256 ![0, 1] bcast_S1x256_S50000x256_0_1 (broadcastInDim S1x256 ![1] bcast_S256_S1x256_1 b)))
        (broadcastInDim S50000x256 ![] bcast_S_S50000x256 (constant (F := Ideal) S_ .f32 0x00000000#32))
      = Cert.Spec.biasRelu A B :=
  hostRelu_eq A b bcast_S256_S1x256_1 bcast_S1x256_S50000x256_0_1 bcast_S_S50000x256 B hB

end Cert.ReferenceIdeal.Bridge

end
-- ==== Proof.ProjRef.lean ====
/-
  The reference's projection and normalisation stage is the row-wise function of the specification.

  The reference computes the stage on the whole 2000-row matrix by host operations: a matrix product with the weight
  matrix, the bias row laid out by two broadcasts, two row sums from the zero word, each divided by the word of 64, a
  subtraction of the row means, a square, the reciprocal square root of the mean squared deviation plus the offset
  word, and the scale and shift rows laid out by two broadcasts each.  Read entry by entry over the extended reals
  this is, with the same association, the specification's projection and normalisation of every row; the only
  arithmetic fact used is that the zero word is 0, a neutral starting value for a sum.
-/
import proofs.«173320_j31851477467888_1_alg».proof.Proof.RefRead
import proofs.«173320_j31851477467888_1_alg».proof.Proof.Spec
import proofs.«173320_j31851477467888_1_alg».proof.Proof.LibPlainDot
import proofs.«173320_j31851477467888_1_alg».proof.Proof.LibLayout
import proofs.«173320_j31851477467888_1_alg».proof.Proof.LibRowReduce
import Idealize.ShloMosaic.Lib.Pipeline.Value
import Idealize.ShloMosaic.Lib.ValueIdx
import Idealize.ShloMosaic.PureOps.Ideal.Laws

noncomputable section

open scoped BigOperators

namespace Cert.ReferenceIdeal.Bridge

open Idealize.ShloMosaic Idealize.ShloMosaic.ValueIdx Cert.ReferenceIdeal Cert.ReferenceIdeal.Gen

/-! ## The host's operations of this stage, read at an index -/

/-- The host's quotient taken entry by entry. -/
theorem hostDivf_apply {s : Shape} (a b : FVec Ideal s .f32) (i : s.Idx) : Host.divf a b i = Ideal.div (a i) (b i) := rfl

/-- The host's reciprocal square root taken entry by entry. -/
theorem hostRsqrt_apply {s : Shape} (a : FVec Ideal s .f32) (i : s.Idx) : Host.rsqrt a i = Ideal.rsqrt (a i) := rfl

/-- A scalar constant broadcast to a column holds its word's value at every entry. -/
theorem scalarCol_apply (w : BitVec (FTy.bits .f32)) (i : S2000x1.Idx) :
    broadcastInDim S2000x1 ![] bcast_S_S2000x1 (constant (F := Ideal) S_ .f32 w) i = Ideal.ofBits .f32 w := rfl

/-- A length-64 array laid out as a row and repeated over the 2000 rows holds at (p, c) the array's entry c. -/
theorem rowOf_apply (x : FVec Ideal S64 .f32) (p : Fin 2000) (c : Fin 64) :
    broadcastInDim S2000x64 ![0, 1] bcast_S1x64_S2000x64_0_1 (broadcastInDim S1x64 ![1] bcast_S64_S1x64_1 x) (ix2 p c)
      = x (ix1 c) :=
  (Cert.LibLayout.broadcastInDim_1b_ab_apply _ bcast_S1x64_S2000x64_0_1 p c).trans
    (Cert.LibLayout.broadcastInDim_a_1a_apply x bcast_S64_S1x64_1 (0 : Fin 1) c)

/-- A column repeated over 64 columns holds at (p, c) the column's entry p. -/
theorem colOver_apply (v : FVec Ideal S2000x1 .f32) (p : Fin 2000) (c : Fin 64) :
    broadcastInDim S2000x64 ![0, 1] bcast_S2000x1_S2000x64_0_1 v (ix2 p c) = v (ix2 p (0 : Fin 1)) :=
  Cert.LibLayout.broadcastInDim_a1_ab_apply v bcast_S2000x1_S2000x64_0_1 p c

/-- The host's sum of each row from the zero word, as a column: at row p the sum of the row's entries. -/
theorem rowSumCol_apply (P : FVec Ideal S2000x64 .f32) (p : Fin 2000) :
    broadcastInDim S2000x1 ![0] bcast_S2000_S2000x1_0
        (Host.reduceAdd (F := Ideal) P (constant (F := Ideal) S_ .f32 0x00000000#32) reducesTo_S2000x64_S2000_d1 h_S_)
        (ix2 p (0 : Fin 1))
      = ∑ k : Fin 64, P (ix2 p k) := by
  refine (Cert.LibLayout.broadcastInDim_a_a1_apply _ bcast_S2000_S2000x1_0 p (0 : Fin 1)).trans ?_
  refine (Cert.LibRowReduce.hostRowSum_apply P _ reducesTo_S2000x64_S2000_d1 (by decide) h_S_ p).trans ?_
  rw [constant_apply, Ideal.ofBits_zero_f32, zero_add]

/-! ## The stage in three named pieces -/

/-- The projected matrix: the host's product with the weights plus the bias laid out as a row. -/
def proj (X : FVec Ideal S2000x256 .f32) (W : FVec Ideal S256x64 .f32) (b : FVec Ideal S64 .f32) : FVec Ideal S2000x64 .f32 :=
  addf (Host.dotGeneral dot_S2000x256_S256x64_S2000x64_1_0_0_1_n_n none X W)
    (broadcastInDim S2000x64 ![0, 1] bcast_S1x64_S2000x64_0_1 (broadcastInDim S1x64 ![1] bcast_S64_S1x64_1 b))

/-- The projected matrix at (p, c): the sum of products along the row, plus the bias at c. -/
theorem proj_apply (X : FVec Ideal S2000x256 .f32) (W : FVec Ideal S256x64 .f32) (b : FVec Ideal S64 .f32)
    (p : Fin 2000) (c : Fin 64) :
    proj X W b (ix2 p c) = (∑ q : Fin 256, X (ix2 p q) * W (ix2 q c)) + b (ix1 c) := by
  unfold proj
  rw [addf_apply, rowOf_apply]
  refine congrArg (· + b (ix1 c)) ?_
  exact Cert.LibPlainDot.dotGeneral_apply dot_S2000x256_S256x64_S2000x64_1_0_0_1_n_n rfl none .single X W p c

/-- The column of row means: each row's sum over the word of 64. -/
def meanCol (P : FVec Ideal S2000x64 .f32) : FVec Ideal S2000x1 .f32 :=
  Host.divf
    (broadcastInDim S2000x1 ![0] bcast_S2000_S2000x1_0
      (Host.reduceAdd (F := Ideal) P (constant (F := Ideal) S_ .f32 0x00000000#32) reducesTo_S2000x64_S2000_d1 h_S_))
    (broadcastInDim S2000x1 ![] bcast_S_S2000x1 (constant (F := Ideal) S_ .f32 0x42800000#32))

/-- The column of row means at row p is the mean of row p. -/
theorem meanCol_apply (P : FVec Ideal S2000x64 .f32) (p : Fin 2000) :
    meanCol P (ix2 p (0 : Fin 1)) = Cert.Spec.mean (fun j : Fin 64 => P (ix2 p j)) := by
  unfold meanCol
  rw [hostDivf_apply, rowSumCol_apply, scalarCol_apply]
  rfl

/-- The matrix with its column of row means subtracted from every entry. -/
def centred (P : FVec Ideal S2000x64 .f32) : FVec Ideal S2000x64 .f32 :=
  subf P (broadcastInDim S2000x64 ![0, 1] bcast_S2000x1_S2000x64_0_1 (meanCol P))

/-- The centred matrix at (p, c) is the entry less the mean of its row. -/
theorem centred_apply (P : FVec Ideal S2000x64 .f32) (p : Fin 2000) (c : Fin 64) :
    centred P (ix2 p c) = P (ix2 p c) - Cert.Spec.mean (fun j : Fin 64 => P (ix2 p j)) := by
  unfold centred
  rw [subf_apply, colOver_apply, meanCol_apply]

/-- The column of reciprocal square roots: each row's sum of squared centred entries over the word of 64, plus the
    offset word, under the reciprocal square root. -/
def scaleCol (P : FVec Ideal S2000x64 .f32) : FVec Ideal S2000x1 .f32 :=
  Host.rsqrt (addf
    (Host.divf
      (broadcastInDim S2000x1 ![0] bcast_S2000_S2000x1_0
        (Host.reduceAdd (F := Ideal) (mulf (centred P) (centred P)) (constant (F := Ideal) S_ .f32 0x00000000#32)
          reducesTo_S2000x64_S2000_d1 h_S_))
      (broadcastInDim S2000x1 ![] bcast_S_S2000x1 (constant (F := Ideal) S_ .f32 0x42800000#32)))
    (broadcastInDim S2000x1 ![] bcast_S_S2000x1 (constant (F := Ideal) S_ .f32 0x3727C5AC#32)))

/-- The column of reciprocal square roots at row p: that of the row's mean squared deviation plus the offset. -/
theorem scaleCol_apply (P : FVec Ideal S2000x64 .f32) (p : Fin 2000) :
    scaleCol P (ix2 p (0 : Fin 1))
      = Ideal.rsqrt (Cert.Spec.var (fun j : Fin 64 => P (ix2 p j)) + Cert.Spec.eps) := by
  unfold scaleCol
  rw [hostRsqrt_apply, addf_apply, hostDivf_apply, rowSumCol_apply, scalarCol_apply, scalarCol_apply]
  show Ideal.rsqrt (Ideal.div _ Cert.Spec.cnt + Cert.Spec.eps) = _
  unfold Cert.Spec.var
  refine congrArg (fun t => Ideal.rsqrt (Ideal.div t Cert.Spec.cnt + Cert.Spec.eps)) ?_
  refine Finset.sum_congr rfl fun k _ => ?_
  rw [mulf_apply, centred_apply]

/-- The normalised matrix: centred, scaled by the column of reciprocal square roots, multiplied by the scale laid out as
    a row and shifted by the shift laid out as a row. -/
def normed (P : FVec Ideal S2000x64 .f32) (g be : FVec Ideal S64 .f32) : FVec Ideal S2000x64 .f32 :=
  addf
    (mulf
      (mulf (centred P) (broadcastInDim S2000x64 ![0, 1] bcast_S2000x1_S2000x64_0_1 (scaleCol P)))
      (broadcastInDim S2000x64 ![0, 1] bcast_S1x64_S2000x64_0_1 (broadcastInDim S1x64 ![1] bcast_S64_S1x64_1 g)))
    (broadcastInDim S2000x64 ![0, 1] bcast_S1x64_S2000x64_0_1 (broadcastInDim S1x64 ![1] bcast_S64_S1x64_1 be))

/-- The normalised matrix at (p, c) is the specification's normalisation of row p at c. -/
theorem normed_apply (P : FVec Ideal S2000x64 .f32) (g be : FVec Ideal S64 .f32) (p : Fin 2000) (c : Fin 64) :
    normed P g be (ix2 p c)
      = Cert.Spec.norm (fun j : Fin 64 => P (ix2 p j)) (fun j : Fin 64 => g (ix1 j)) (fun j : Fin 64 => be (ix1 j)) c := by
  unfold normed Cert.Spec.norm
  rw [addf_apply, mulf_apply, mulf_apply, centred_apply, colOver_apply, scaleCol_apply, rowOf_apply, rowOf_apply]

/-! ## The reference's values are these pieces -/

/-- The reference's projected matrix is the projection of the matrix above it: the printed operations, regrouped. -/
theorem v130_eq (x0 : (⟨S50000x128, .f32⟩ : BufTy).Contents (Elt Ideal)) (x1 : (⟨S2x300000, .i32⟩ : BufTy).Contents (Elt Ideal))
    (x2 : (⟨S50000, .i32⟩ : BufTy).Contents (Elt Ideal)) (x3 : (⟨S128x256, .f32⟩ : BufTy).Contents (Elt Ideal))
    (x4 : (⟨S256, .f32⟩ : BufTy).Contents (Elt Ideal)) (x5 : (⟨S3x256x256, .f32⟩ : BufTy).Contents (Elt Ideal))
    (x6 : (⟨S3x256, .f32⟩ : BufTy).Contents (Elt Ideal)) (x7 : (⟨S256x64, .f32⟩ : BufTy).Contents (Elt Ideal))
    (x8 : (⟨S64, .f32⟩ : BufTy).Contents (Elt Ideal)) :
    ReadP.val_main_v130 (F := Ideal) x0 x1 x2 x3 x4 x5 x6 x7 x8
      = proj (ReadP.val_main_v126 (F := Ideal) x0 x1 x2 x3 x4 x5 x6) x7 x8 := rfl

/-- The reference's result is the normalisation of its projected matrix: the printed operations, regrouped. -/
theorem v154_eq (x0 : (⟨S50000x128, .f32⟩ : BufTy).Contents (Elt Ideal)) (x1 : (⟨S2x300000, .i32⟩ : BufTy).Contents (Elt Ideal))
    (x2 : (⟨S50000, .i32⟩ : BufTy).Contents (Elt Ideal)) (x3 : (⟨S128x256, .f32⟩ : BufTy).Contents (Elt Ideal))
    (x4 : (⟨S256, .f32⟩ : BufTy).Contents (Elt Ideal)) (x5 : (⟨S3x256x256, .f32⟩ : BufTy).Contents (Elt Ideal))
    (x6 : (⟨S3x256, .f32⟩ : BufTy).Contents (Elt Ideal)) (x7 : (⟨S256x64, .f32⟩ : BufTy).Contents (Elt Ideal))
    (x8 x9 x10 : (⟨S64, .f32⟩ : BufTy).Contents (Elt Ideal)) :
    ReadP.val_main_v154 (F := Ideal) x0 x1 x2 x3 x4 x5 x6 x7 x8 x9 x10
      = normed (ReadP.val_main_v130 (F := Ideal) x0 x1 x2 x3 x4 x5 x6 x7 x8) x9 x10 := rfl

/-- The reference's result is the specification's projection and normalisation of every row of the matrix above the
    stage, for any bias, scale and shift rows that hold the three length-64 arguments. -/
theorem ref_v154 (x0 : (⟨S50000x128, .f32⟩ : BufTy).Contents (Elt Ideal)) (x1 : (⟨S2x300000, .i32⟩ : BufTy).Contents (Elt Ideal))
    (x2 : (⟨S50000, .i32⟩ : BufTy).Contents (Elt Ideal)) (x3 : (⟨S128x256, .f32⟩ : BufTy).Contents (Elt Ideal))
    (x4 : (⟨S256, .f32⟩ : BufTy).Contents (Elt Ideal)) (x5 : (⟨S3x256x256, .f32⟩ : BufTy).Contents (Elt Ideal))
    (x6 : (⟨S3x256, .f32⟩ : BufTy).Contents (Elt Ideal)) (x7 : (⟨S256x64, .f32⟩ : BufTy).Contents (Elt Ideal))
    (x8 x9 x10 : (⟨S64, .f32⟩ : BufTy).Contents (Elt Ideal)) (B G Be : Cert.Spec.Arr2 1 64)
    (hB : ∀ c : Fin 64, B (ix2 (0 : Fin 1) c) = x8 (ix1 c)) (hG : ∀ c : Fin 64, G (ix2 (0 : Fin 1) c) = x9 (ix1 c))
    (hBe : ∀ c : Fin 64, Be (ix2 (0 : Fin 1) c) = x10 (ix1 c)) :
    ReadP.val_main_v154 (F := Ideal) x0 x1 x2 x3 x4 x5 x6 x7 x8 x9 x10
      = Cert.Spec.projLN (ReadP.val_main_v126 (F := Ideal) x0 x1 x2 x3 x4 x5 x6) x7 B G Be := by
  funext i
  obtain ⟨p, c, rfl⟩ : ∃ (p : Fin 2000) (c : Fin 64), i = ix2 p c := ⟨i 0, i 1, eq_ix2 i⟩
  rw [Cert.Spec.projLN_apply, v154_eq, normed_apply, v130_eq]
  have e1 : (fun j : Fin 64 => proj (ReadP.val_main_v126 (F := Ideal) x0 x1 x2 x3 x4 x5 x6) x7 x8 (ix2 p j))
      = fun j : Fin 64 => Cert.Spec.lin (ReadP.val_main_v126 (F := Ideal) x0 x1 x2 x3 x4 x5 x6) x7 B (ix2 p j) :=
    funext fun j => by rw [proj_apply, Cert.Spec.lin_apply, hB]
  have e2 : (fun j : Fin 64 => x9 (ix1 j)) = fun j : Fin 64 => G (ix2 (0 : Fin 1) j) := funext fun j => (hG j).symm
  have e3 : (fun j : Fin 64 => x10 (ix1 j)) = fun j : Fin 64 => Be (ix2 (0 : Fin 1) j) := funext fun j => (hBe j).symm
  rw [e1, e2, e3]

end Cert.ReferenceIdeal.Bridge

end
-- ==== Proof.Chain.lean ====
/-
  The contents of the idealized kernel's buffers at every segment boundary, named by the reference's stages.

  The program's run is a fold through eight regions and the host stretches between them. Walking that fold once from
  the launch memory: the edge lists, the degree normalisation and every weight slice are what the reference computes
  from the same arguments (the host operations are the same); each dense region's output array is the dense layer of
  its input arrays, which is the reference's matrix product plus its broadcast bias (a bias of zeros in the hidden
  layers, where the reference has none: x + 0 = x); each activation region's output is the reference's bias, add and
  maximum with zero; and the last region's output is the reference's projection and normalisation. So the result
  buffer ends at the reference's last stage of the program's arguments.
-/
import proofs.«173320_j31851477467888_1_alg».proof.Proof.Gen.KernelIdeal.Frame
import proofs.«173320_j31851477467888_1_alg».proof.Proof.RefRead
import proofs.«173320_j31851477467888_1_alg».proof.Proof.ChainHost
import proofs.«173320_j31851477467888_1_alg».proof.Proof.ChainSkip
import proofs.«173320_j31851477467888_1_alg».proof.Proof.Final0
import proofs.«173320_j31851477467888_1_alg».proof.Proof.Final1
import proofs.«173320_j31851477467888_1_alg».proof.Proof.Final2
import proofs.«173320_j31851477467888_1_alg».proof.Proof.Final3
import proofs.«173320_j31851477467888_1_alg».proof.Proof.Final4
import proofs.«173320_j31851477467888_1_alg».proof.Proof.Final5
import proofs.«173320_j31851477467888_1_alg».proof.Proof.Final6
import proofs.«173320_j31851477467888_1_alg».proof.Proof.Final7
import proofs.«173320_j31851477467888_1_alg».proof.Proof.DenseRef
import proofs.«173320_j31851477467888_1_alg».proof.Proof.ProjRef
import Idealize.ShloMosaic.Lib.ValueLayout

set_option maxRecDepth 16384

noncomputable section

namespace Cert.KernelIdeal.Chain

open Cert.KernelIdeal Cert.KernelIdeal.Gen
open Idealize.ShloMosaic Idealize.ShloMosaic.TcCoe Idealize.ShloMosaic.ValueIdx Idealize.SL.Sem

open Cert.ReferenceIdeal.ReadP Cert.ReferenceIdeal.Bridge

variable (m : (ℓ : Loc nD τ sig) → Buf (Elt Ideal) ℓ) (ρ : Dev nD → PrngReg) (c : Dev nD)

/-- The hidden layers' bias row, a row of the zero word. -/
theorem zrow (j : Fin 256) :
    shapeCast S1x256 (broadcastInDim S256 ![] bcast_S_S256 (constant (F := Ideal) S_ .f32 0x00000000#32)) shapeCasts_S256_S1x256 (ix2 (0 : Fin 1) j)
      = Ideal.ofBits .f32 0x00000000#32 :=
  (shapeCast_a_1a_apply _ _ 0 j).trans rfl

/-! ## Up to the first region -/

theorem at1_v3 : W1 m ρ c (Proc.devRef .tc main_v3) = val_main_v3 (F := Ideal) (m ((c : Thread nD τ).loc main_arg1)) :=
  Host.h0_v3 (W0 m ρ c) (m ((c : Thread nD τ).loc main_arg1)) rfl
theorem at1_v6 : W1 m ρ c (Proc.devRef .tc main_v6) = val_main_v6 (F := Ideal) (m ((c : Thread nD τ).loc main_arg1)) :=
  Host.h0_v6 (W0 m ρ c) (m ((c : Thread nD τ).loc main_arg1)) rfl
theorem at1_v12 : W1 m ρ c (Proc.devRef .tc main_v12) = val_main_v12 (F := Ideal) (m ((c : Thread nD τ).loc main_arg1)) :=
  Host.h0_v12 (W0 m ρ c) (m ((c : Thread nD τ).loc main_arg1)) rfl
theorem at1_v13 : W1 m ρ c (Proc.devRef .tc main_v13) = val_main_v13 (F := Ideal) (m ((c : Thread nD τ).loc main_arg1)) :=
  Host.h0_v13 (W0 m ρ c) (m ((c : Thread nD τ).loc main_arg1)) rfl
theorem at1_cst2 : W1 m ρ c (Proc.devRef .tc main_cst_2) = val_main_cst_2 (F := Ideal) :=
  Host.h0_cst2 (W0 m ρ c)
theorem at1_arg0 : W1 m ρ c (Proc.devRef .tc main_arg0) = (m ((c : Thread nD τ).loc main_arg0)) :=
  Skip.s0_arg0 (W0 m ρ c)
theorem at1_arg3 : W1 m ρ c (Proc.devRef .tc main_arg3) = (m ((c : Thread nD τ).loc main_arg3)) :=
  Skip.s0_arg3 (W0 m ρ c)
theorem at1_arg4 : W1 m ρ c (Proc.devRef .tc main_arg4) = (m ((c : Thread nD τ).loc main_arg4)) :=
  Skip.s0_arg4 (W0 m ρ c)
theorem at1_arg5 : W1 m ρ c (Proc.devRef .tc main_arg5) = (m ((c : Thread nD τ).loc main_arg5)) :=
  Skip.s0_arg5 (W0 m ρ c)
theorem at1_arg6 : W1 m ρ c (Proc.devRef .tc main_arg6) = (m ((c : Thread nD τ).loc main_arg6)) :=
  Skip.s0_arg6 (W0 m ρ c)
theorem at2_v14 : W2 m ρ c (Proc.devRef .tc main_v14) = val_main_v14 (F := Ideal) (m ((c : Thread nD τ).loc main_arg1)) :=
  Host.h01_v14 (W1 m ρ c) (m ((c : Thread nD τ).loc main_arg1)) (at1_v12 m ρ c) (at1_v13 m ρ c) (at1_cst2 m ρ c)
theorem at2_v3 : W2 m ρ c (Proc.devRef .tc main_v3) = val_main_v3 (F := Ideal) (m ((c : Thread nD τ).loc main_arg1)) :=
  (Skip.s01_v3 (W1 m ρ c)).trans (at1_v3 m ρ c)
theorem at2_v6 : W2 m ρ c (Proc.devRef .tc main_v6) = val_main_v6 (F := Ideal) (m ((c : Thread nD τ).loc main_arg1)) :=
  (Skip.s01_v6 (W1 m ρ c)).trans (at1_v6 m ρ c)
theorem at2_arg0 : W2 m ρ c (Proc.devRef .tc main_arg0) = (m ((c : Thread nD τ).loc main_arg0)) :=
  (Skip.s01_arg0 (W1 m ρ c)).trans (at1_arg0 m ρ c)
theorem at2_arg3 : W2 m ρ c (Proc.devRef .tc main_arg3) = (m ((c : Thread nD τ).loc main_arg3)) :=
  (Skip.s01_arg3 (W1 m ρ c)).trans (at1_arg3 m ρ c)
theorem at2_arg4 : W2 m ρ c (Proc.devRef .tc main_arg4) = (m ((c : Thread nD τ).loc main_arg4)) :=
  (Skip.s01_arg4 (W1 m ρ c)).trans (at1_arg4 m ρ c)
theorem at2_arg5 : W2 m ρ c (Proc.devRef .tc main_arg5) = (m ((c : Thread nD τ).loc main_arg5)) :=
  (Skip.s01_arg5 (W1 m ρ c)).trans (at1_arg5 m ρ c)
theorem at2_arg6 : W2 m ρ c (Proc.devRef .tc main_arg6) = (m ((c : Thread nD τ).loc main_arg6)) :=
  (Skip.s01_arg6 (W1 m ρ c)).trans (at1_arg6 m ρ c)
theorem at3_v29 : W3 m ρ c (Proc.devRef .tc main_v29) = val_main_v29 (F := Ideal) (m ((c : Thread nD τ).loc main_arg1)) :=
  Host.h02_v29 (W2 m ρ c) (m ((c : Thread nD τ).loc main_arg1)) (at2_v14 m ρ c) (at2_v3 m ρ c) (at2_v6 m ρ c)
theorem at3_v30 : W3 m ρ c (Proc.devRef .tc main_v30) = shapeCast S1x256 (m ((c : Thread nD τ).loc main_arg4)) shapeCasts_S256_S1x256 :=
  Host.h02_v30 (W2 m ρ c) (m ((c : Thread nD τ).loc main_arg4)) (at2_arg4 m ρ c)
theorem at3_v3 : W3 m ρ c (Proc.devRef .tc main_v3) = val_main_v3 (F := Ideal) (m ((c : Thread nD τ).loc main_arg1)) :=
  (Skip.s02_v3 (W2 m ρ c)).trans (at2_v3 m ρ c)
theorem at3_v6 : W3 m ρ c (Proc.devRef .tc main_v6) = val_main_v6 (F := Ideal) (m ((c : Thread nD τ).loc main_arg1)) :=
  (Skip.s02_v6 (W2 m ρ c)).trans (at2_v6 m ρ c)
theorem at3_arg0 : W3 m ρ c (Proc.devRef .tc main_arg0) = (m ((c : Thread nD τ).loc main_arg0)) :=
  (Skip.s02_arg0 (W2 m ρ c)).trans (at2_arg0 m ρ c)
theorem at3_arg3 : W3 m ρ c (Proc.devRef .tc main_arg3) = (m ((c : Thread nD τ).loc main_arg3)) :=
  (Skip.s02_arg3 (W2 m ρ c)).trans (at2_arg3 m ρ c)
theorem at3_arg5 : W3 m ρ c (Proc.devRef .tc main_arg5) = (m ((c : Thread nD τ).loc main_arg5)) :=
  (Skip.s02_arg5 (W2 m ρ c)).trans (at2_arg5 m ρ c)
theorem at3_arg6 : W3 m ρ c (Proc.devRef .tc main_arg6) = (m ((c : Thread nD τ).loc main_arg6)) :=
  (Skip.s02_arg6 (W2 m ρ c)).trans (at2_arg6 m ρ c)

/-! ## The encoder (region 0) and the first hidden layer's product (region 1) -/

theorem at4_v31 : W4 m ρ c (Proc.devRef .tc main_v31) = val_main_v33 (F := Ideal) (m ((c : Thread nD τ).loc main_arg0)) (m ((c : Thread nD τ).loc main_arg3)) (m ((c : Thread nD τ).loc main_arg4)) := by
  refine (W4_arr m ρ c 3).trans ((Final.final0 (V3 m ρ) c).trans ?_)
  rw [show V3 m ρ c main_arg0 = (m ((c : Thread nD τ).loc main_arg0)) from at3_arg0 m ρ c, show V3 m ρ c main_arg3 = (m ((c : Thread nD τ).loc main_arg3)) from at3_arg3 m ρ c,
    show V3 m ρ c main_v30 = _ from at3_v30 m ρ c]
  exact (ref_v33 (m ((c : Thread nD τ).loc main_arg0)) (m ((c : Thread nD τ).loc main_arg3)) (m ((c : Thread nD τ).loc main_arg4)) _ (fun j => shapeCast_a_1a_apply _ _ 0 j)).symm
theorem at4_v3 : W4 m ρ c (Proc.devRef .tc main_v3) = val_main_v3 (F := Ideal) (m ((c : Thread nD τ).loc main_arg1)) :=
  (W4_of_ne m ρ c main_v3 (by decide)).trans (at3_v3 m ρ c)
theorem at4_v6 : W4 m ρ c (Proc.devRef .tc main_v6) = val_main_v6 (F := Ideal) (m ((c : Thread nD τ).loc main_arg1)) :=
  (W4_of_ne m ρ c main_v6 (by decide)).trans (at3_v6 m ρ c)
theorem at4_v29 : W4 m ρ c (Proc.devRef .tc main_v29) = val_main_v29 (F := Ideal) (m ((c : Thread nD τ).loc main_arg1)) :=
  (W4_of_ne m ρ c main_v29 (by decide)).trans (at3_v29 m ρ c)
theorem at4_arg5 : W4 m ρ c (Proc.devRef .tc main_arg5) = (m ((c : Thread nD τ).loc main_arg5)) :=
  (W4_of_ne m ρ c main_arg5 (by decide)).trans (at3_arg5 m ρ c)
theorem at4_arg6 : W4 m ρ c (Proc.devRef .tc main_arg6) = (m ((c : Thread nD τ).loc main_arg6)) :=
  (W4_of_ne m ρ c main_arg6 (by decide)).trans (at3_arg6 m ρ c)
theorem at5_v32 : W5 m ρ c (Proc.devRef .tc main_v32) = broadcastInDim S256 ![] bcast_S_S256 (constant (F := Ideal) S_ .f32 0x00000000#32) :=
  Host.h1_v32 (W4 m ρ c)
theorem at5_v34 : W5 m ρ c (Proc.devRef .tc main_v34) = val_main_v35 (F := Ideal) (m ((c : Thread nD τ).loc main_arg5)) :=
  Host.h1_v34 (W4 m ρ c) (m ((c : Thread nD τ).loc main_arg5)) (at4_arg5 m ρ c)
theorem at5_v35 : W5 m ρ c (Proc.devRef .tc main_v35) = shapeCast S1x256 (broadcastInDim S256 ![] bcast_S_S256 (constant (F := Ideal) S_ .f32 0x00000000#32)) shapeCasts_S256_S1x256 :=
  Host.h1_v35 (W4 m ρ c)
theorem at5_v31 : W5 m ρ c (Proc.devRef .tc main_v31) = val_main_v33 (F := Ideal) (m ((c : Thread nD τ).loc main_arg0)) (m ((c : Thread nD τ).loc main_arg3)) (m ((c : Thread nD τ).loc main_arg4)) :=
  (Skip.s1_v31 (W4 m ρ c)).trans (at4_v31 m ρ c)
theorem at5_v3 : W5 m ρ c (Proc.devRef .tc main_v3) = val_main_v3 (F := Ideal) (m ((c : Thread nD τ).loc main_arg1)) :=
  (Skip.s1_v3 (W4 m ρ c)).trans (at4_v3 m ρ c)
theorem at5_v6 : W5 m ρ c (Proc.devRef .tc main_v6) = val_main_v6 (F := Ideal) (m ((c : Thread nD τ).loc main_arg1)) :=
  (Skip.s1_v6 (W4 m ρ c)).trans (at4_v6 m ρ c)
theorem at5_v29 : W5 m ρ c (Proc.devRef .tc main_v29) = val_main_v29 (F := Ideal) (m ((c : Thread nD τ).loc main_arg1)) :=
  (Skip.s1_v29 (W4 m ρ c)).trans (at4_v29 m ρ c)
theorem at5_arg5 : W5 m ρ c (Proc.devRef .tc main_arg5) = (m ((c : Thread nD τ).loc main_arg5)) :=
  (Skip.s1_arg5 (W4 m ρ c)).trans (at4_arg5 m ρ c)
theorem at5_arg6 : W5 m ρ c (Proc.devRef .tc main_arg6) = (m ((c : Thread nD τ).loc main_arg6)) :=
  (Skip.s1_arg6 (W4 m ρ c)).trans (at4_arg6 m ρ c)
theorem at6_v36 : W6 m ρ c (Proc.devRef .tc main_v36) = val_main_v38 (F := Ideal) (m ((c : Thread nD τ).loc main_arg0)) (m ((c : Thread nD τ).loc main_arg3)) (m ((c : Thread nD τ).loc main_arg4)) (m ((c : Thread nD τ).loc main_arg5)) := by
  refine (W6_arr m ρ c 3).trans ((Final.final1 (V5 m ρ) c).trans ?_)
  rw [show V5 m ρ c main_v31 = _ from at5_v31 m ρ c, show V5 m ρ c main_v34 = _ from at5_v34 m ρ c,
    show V5 m ρ c main_v35 = _ from at5_v35 m ρ c]
  exact (ref_dot _ _ _ zrow).symm
theorem at6_v3 : W6 m ρ c (Proc.devRef .tc main_v3) = val_main_v3 (F := Ideal) (m ((c : Thread nD τ).loc main_arg1)) :=
  (W6_of_ne m ρ c main_v3 (by decide)).trans (at5_v3 m ρ c)
theorem at6_v6 : W6 m ρ c (Proc.devRef .tc main_v6) = val_main_v6 (F := Ideal) (m ((c : Thread nD τ).loc main_arg1)) :=
  (W6_of_ne m ρ c main_v6 (by decide)).trans (at5_v6 m ρ c)
theorem at6_v29 : W6 m ρ c (Proc.devRef .tc main_v29) = val_main_v29 (F := Ideal) (m ((c : Thread nD τ).loc main_arg1)) :=
  (W6_of_ne m ρ c main_v29 (by decide)).trans (at5_v29 m ρ c)
theorem at6_v32 : W6 m ρ c (Proc.devRef .tc main_v32) = broadcastInDim S256 ![] bcast_S_S256 (constant (F := Ideal) S_ .f32 0x00000000#32) :=
  (W6_of_ne m ρ c main_v32 (by decide)).trans (at5_v32 m ρ c)
theorem at6_arg5 : W6 m ρ c (Proc.devRef .tc main_arg5) = (m ((c : Thread nD τ).loc main_arg5)) :=
  (W6_of_ne m ρ c main_arg5 (by decide)).trans (at5_arg5 m ρ c)
theorem at6_arg6 : W6 m ρ c (Proc.devRef .tc main_arg6) = (m ((c : Thread nD τ).loc main_arg6)) :=
  (W6_of_ne m ρ c main_arg6 (by decide)).trans (at5_arg6 m ρ c)

/-! ## Layer 1: aggregation (host), bias and rectifier (region 2), the next product (region 3) -/

theorem at7_v54 : W7 m ρ c (Proc.devRef .tc main_v54) = val_main_v56 (F := Ideal) (m ((c : Thread nD τ).loc main_arg0)) (m ((c : Thread nD τ).loc main_arg1)) (m ((c : Thread nD τ).loc main_arg3)) (m ((c : Thread nD τ).loc main_arg4)) (m ((c : Thread nD τ).loc main_arg5)) :=
  Host.h2_v54 (W6 m ρ c) (m ((c : Thread nD τ).loc main_arg0)) (m ((c : Thread nD τ).loc main_arg1)) (m ((c : Thread nD τ).loc main_arg3)) (m ((c : Thread nD τ).loc main_arg4)) (m ((c : Thread nD τ).loc main_arg5)) (at6_v36 m ρ c) (at6_v3 m ρ c) (at6_v6 m ρ c) (at6_v29 m ρ c)
theorem at7_v57 : W7 m ρ c (Proc.devRef .tc main_v57) = shapeCast S1x256 (val_main_v37 (F := Ideal) (m ((c : Thread nD τ).loc main_arg6))) shapeCasts_S256_S1x256 :=
  Host.h2_v57 (W6 m ρ c) (m ((c : Thread nD τ).loc main_arg6)) (at6_arg6 m ρ c)
theorem at7_v3 : W7 m ρ c (Proc.devRef .tc main_v3) = val_main_v3 (F := Ideal) (m ((c : Thread nD τ).loc main_arg1)) :=
  (Skip.s2_v3 (W6 m ρ c)).trans (at6_v3 m ρ c)
theorem at7_v6 : W7 m ρ c (Proc.devRef .tc main_v6) = val_main_v6 (F := Ideal) (m ((c : Thread nD τ).loc main_arg1)) :=
  (Skip.s2_v6 (W6 m ρ c)).trans (at6_v6 m ρ c)
theorem at7_v29 : W7 m ρ c (Proc.devRef .tc main_v29) = val_main_v29 (F := Ideal) (m ((c : Thread nD τ).loc main_arg1)) :=
  (Skip.s2_v29 (W6 m ρ c)).trans (at6_v29 m ρ c)
theorem at7_v32 : W7 m ρ c (Proc.devRef .tc main_v32) = broadcastInDim S256 ![] bcast_S_S256 (constant (F := Ideal) S_ .f32 0x00000000#32) :=
  (Skip.s2_v32 (W6 m ρ c)).trans (at6_v32 m ρ c)
theorem at7_arg5 : W7 m ρ c (Proc.devRef .tc main_arg5) = (m ((c : Thread nD τ).loc main_arg5)) :=
  (Skip.s2_arg5 (W6 m ρ c)).trans (at6_arg5 m ρ c)
theorem at7_arg6 : W7 m ρ c (Proc.devRef .tc main_arg6) = (m ((c : Thread nD τ).loc main_arg6)) :=
  (Skip.s2_arg6 (W6 m ρ c)).trans (at6_arg6 m ρ c)
theorem at8_v58 : W8 m ρ c (Proc.devRef .tc main_v58) = val_main_v60 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W8_arr m ρ c 2).trans ((Final.final2 (V7 m ρ) c).trans ?_)
  rw [show V7 m ρ c main_v54 = _ from at7_v54 m ρ c, show V7 m ρ c main_v57 = _ from at7_v57 m ρ c]
  exact (ref_relu (val_main_v56 (F := Ideal) (m ((c : Thread nD τ).loc main_arg0)) (m ((c : Thread nD τ).loc main_arg1)) (m ((c : Thread nD τ).loc main_arg3)) (m ((c : Thread nD τ).loc main_arg4)) (m ((c : Thread nD τ).loc main_arg5))) (val_main_v37 (F := Ideal) (m ((c : Thread nD τ).loc main_arg6))) _ (fun j => shapeCast_a_1a_apply _ _ 0 j)).symm
theorem at8_v3 : W8 m ρ c (Proc.devRef .tc main_v3) = val_main_v3 (F := Ideal) (m ((c : Thread nD τ).loc main_arg1)) :=
  (W8_of_ne m ρ c main_v3 (by decide)).trans (at7_v3 m ρ c)
theorem at8_v6 : W8 m ρ c (Proc.devRef .tc main_v6) = val_main_v6 (F := Ideal) (m ((c : Thread nD τ).loc main_arg1)) :=
  (W8_of_ne m ρ c main_v6 (by decide)).trans (at7_v6 m ρ c)
theorem at8_v29 : W8 m ρ c (Proc.devRef .tc main_v29) = val_main_v29 (F := Ideal) (m ((c : Thread nD τ).loc main_arg1)) :=
  (W8_of_ne m ρ c main_v29 (by decide)).trans (at7_v29 m ρ c)
theorem at8_v32 : W8 m ρ c (Proc.devRef .tc main_v32) = broadcastInDim S256 ![] bcast_S_S256 (constant (F := Ideal) S_ .f32 0x00000000#32) :=
  (W8_of_ne m ρ c main_v32 (by decide)).trans (at7_v32 m ρ c)
theorem at8_arg5 : W8 m ρ c (Proc.devRef .tc main_arg5) = (m ((c : Thread nD τ).loc main_arg5)) :=
  (W8_of_ne m ρ c main_arg5 (by decide)).trans (at7_arg5 m ρ c)
theorem at8_arg6 : W8 m ρ c (Proc.devRef .tc main_arg6) = (m ((c : Thread nD τ).loc main_arg6)) :=
  (W8_of_ne m ρ c main_arg6 (by decide)).trans (at7_arg6 m ρ c)
theorem at9_v60 : W9 m ρ c (Proc.devRef .tc main_v60) = val_main_v62 (F := Ideal) (m ((c : Thread nD τ).loc main_arg5)) :=
  Host.h3_v60 (W8 m ρ c) (m ((c : Thread nD τ).loc main_arg5)) (at8_arg5 m ρ c)
theorem at9_v61 : W9 m ρ c (Proc.devRef .tc main_v61) = shapeCast S1x256 (broadcastInDim S256 ![] bcast_S_S256 (constant (F := Ideal) S_ .f32 0x00000000#32)) shapeCasts_S256_S1x256 :=
  (Host.h3_v61 (W8 m ρ c)).trans (congrArg (fun z => shapeCast S1x256 z shapeCasts_S256_S1x256) (at8_v32 m ρ c))
theorem at9_v58 : W9 m ρ c (Proc.devRef .tc main_v58) = val_main_v60 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (Skip.s3_v58 (W8 m ρ c)).trans (at8_v58 m ρ c)
theorem at9_v3 : W9 m ρ c (Proc.devRef .tc main_v3) = val_main_v3 (F := Ideal) (m ((c : Thread nD τ).loc main_arg1)) :=
  (Skip.s3_v3 (W8 m ρ c)).trans (at8_v3 m ρ c)
theorem at9_v6 : W9 m ρ c (Proc.devRef .tc main_v6) = val_main_v6 (F := Ideal) (m ((c : Thread nD τ).loc main_arg1)) :=
  (Skip.s3_v6 (W8 m ρ c)).trans (at8_v6 m ρ c)
theorem at9_v29 : W9 m ρ c (Proc.devRef .tc main_v29) = val_main_v29 (F := Ideal) (m ((c : Thread nD τ).loc main_arg1)) :=
  (Skip.s3_v29 (W8 m ρ c)).trans (at8_v29 m ρ c)
theorem at9_v32 : W9 m ρ c (Proc.devRef .tc main_v32) = broadcastInDim S256 ![] bcast_S_S256 (constant (F := Ideal) S_ .f32 0x00000000#32) :=
  (Skip.s3_v32 (W8 m ρ c)).trans (at8_v32 m ρ c)
theorem at9_arg5 : W9 m ρ c (Proc.devRef .tc main_arg5) = (m ((c : Thread nD τ).loc main_arg5)) :=
  (Skip.s3_arg5 (W8 m ρ c)).trans (at8_arg5 m ρ c)
theorem at9_arg6 : W9 m ρ c (Proc.devRef .tc main_arg6) = (m ((c : Thread nD τ).loc main_arg6)) :=
  (Skip.s3_arg6 (W8 m ρ c)).trans (at8_arg6 m ρ c)
theorem at10_v62 : W10 m ρ c (Proc.devRef .tc main_v62) = val_main_v65 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W10_arr m ρ c 3).trans ((Final.final3 (V9 m ρ) c).trans ?_)
  rw [show V9 m ρ c main_v58 = _ from at9_v58 m ρ c, show V9 m ρ c main_v60 = _ from at9_v60 m ρ c,
    show V9 m ρ c main_v61 = _ from at9_v61 m ρ c]
  exact (ref_dot _ _ _ zrow).symm
theorem at10_v3 : W10 m ρ c (Proc.devRef .tc main_v3) = val_main_v3 (F := Ideal) (m ((c : Thread nD τ).loc main_arg1)) :=
  (W10_of_ne m ρ c main_v3 (by decide)).trans (at9_v3 m ρ c)
theorem at10_v6 : W10 m ρ c (Proc.devRef .tc main_v6) = val_main_v6 (F := Ideal) (m ((c : Thread nD τ).loc main_arg1)) :=
  (W10_of_ne m ρ c main_v6 (by decide)).trans (at9_v6 m ρ c)
theorem at10_v29 : W10 m ρ c (Proc.devRef .tc main_v29) = val_main_v29 (F := Ideal) (m ((c : Thread nD τ).loc main_arg1)) :=
  (W10_of_ne m ρ c main_v29 (by decide)).trans (at9_v29 m ρ c)
theorem at10_v32 : W10 m ρ c (Proc.devRef .tc main_v32) = broadcastInDim S256 ![] bcast_S_S256 (constant (F := Ideal) S_ .f32 0x00000000#32) :=
  (W10_of_ne m ρ c main_v32 (by decide)).trans (at9_v32 m ρ c)
theorem at10_arg5 : W10 m ρ c (Proc.devRef .tc main_arg5) = (m ((c : Thread nD τ).loc main_arg5)) :=
  (W10_of_ne m ρ c main_arg5 (by decide)).trans (at9_arg5 m ρ c)
theorem at10_arg6 : W10 m ρ c (Proc.devRef .tc main_arg6) = (m ((c : Thread nD τ).loc main_arg6)) :=
  (W10_of_ne m ρ c main_arg6 (by decide)).trans (at9_arg6 m ρ c)

/-! ## Layer 2 -/

theorem at11_v80 : W11 m ρ c (Proc.devRef .tc main_v80) = val_main_v83 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  Host.h4_v80 (W10 m ρ c) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (at10_v62 m ρ c) (at10_v3 m ρ c) (at10_v6 m ρ c) (at10_v29 m ρ c)
theorem at11_v83 : W11 m ρ c (Proc.devRef .tc main_v83) = shapeCast S1x256 (val_main_v64 (F := Ideal) (m ((c : Thread nD τ).loc main_arg6))) shapeCasts_S256_S1x256 :=
  Host.h4_v83 (W10 m ρ c) (m ((c : Thread nD τ).loc main_arg6)) (at10_arg6 m ρ c)
theorem at11_v3 : W11 m ρ c (Proc.devRef .tc main_v3) = val_main_v3 (F := Ideal) (m ((c : Thread nD τ).loc main_arg1)) :=
  (Skip.s4_v3 (W10 m ρ c)).trans (at10_v3 m ρ c)
theorem at11_v6 : W11 m ρ c (Proc.devRef .tc main_v6) = val_main_v6 (F := Ideal) (m ((c : Thread nD τ).loc main_arg1)) :=
  (Skip.s4_v6 (W10 m ρ c)).trans (at10_v6 m ρ c)
theorem at11_v29 : W11 m ρ c (Proc.devRef .tc main_v29) = val_main_v29 (F := Ideal) (m ((c : Thread nD τ).loc main_arg1)) :=
  (Skip.s4_v29 (W10 m ρ c)).trans (at10_v29 m ρ c)
theorem at11_v32 : W11 m ρ c (Proc.devRef .tc main_v32) = broadcastInDim S256 ![] bcast_S_S256 (constant (F := Ideal) S_ .f32 0x00000000#32) :=
  (Skip.s4_v32 (W10 m ρ c)).trans (at10_v32 m ρ c)
theorem at11_arg5 : W11 m ρ c (Proc.devRef .tc main_arg5) = (m ((c : Thread nD τ).loc main_arg5)) :=
  (Skip.s4_arg5 (W10 m ρ c)).trans (at10_arg5 m ρ c)
theorem at11_arg6 : W11 m ρ c (Proc.devRef .tc main_arg6) = (m ((c : Thread nD τ).loc main_arg6)) :=
  (Skip.s4_arg6 (W10 m ρ c)).trans (at10_arg6 m ρ c)
theorem at12_v84 : W12 m ρ c (Proc.devRef .tc main_v84) = val_main_v87 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W12_arr m ρ c 2).trans ((Final.final4 (V11 m ρ) c).trans ?_)
  rw [show V11 m ρ c main_v80 = _ from at11_v80 m ρ c, show V11 m ρ c main_v83 = _ from at11_v83 m ρ c]
  exact (ref_relu (val_main_v83 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (val_main_v64 (F := Ideal) (m ((c : Thread nD τ).loc main_arg6))) _ (fun j => shapeCast_a_1a_apply _ _ 0 j)).symm
theorem at12_v3 : W12 m ρ c (Proc.devRef .tc main_v3) = val_main_v3 (F := Ideal) (m ((c : Thread nD τ).loc main_arg1)) :=
  (W12_of_ne m ρ c main_v3 (by decide)).trans (at11_v3 m ρ c)
theorem at12_v6 : W12 m ρ c (Proc.devRef .tc main_v6) = val_main_v6 (F := Ideal) (m ((c : Thread nD τ).loc main_arg1)) :=
  (W12_of_ne m ρ c main_v6 (by decide)).trans (at11_v6 m ρ c)
theorem at12_v29 : W12 m ρ c (Proc.devRef .tc main_v29) = val_main_v29 (F := Ideal) (m ((c : Thread nD τ).loc main_arg1)) :=
  (W12_of_ne m ρ c main_v29 (by decide)).trans (at11_v29 m ρ c)
theorem at12_v32 : W12 m ρ c (Proc.devRef .tc main_v32) = broadcastInDim S256 ![] bcast_S_S256 (constant (F := Ideal) S_ .f32 0x00000000#32) :=
  (W12_of_ne m ρ c main_v32 (by decide)).trans (at11_v32 m ρ c)
theorem at12_arg5 : W12 m ρ c (Proc.devRef .tc main_arg5) = (m ((c : Thread nD τ).loc main_arg5)) :=
  (W12_of_ne m ρ c main_arg5 (by decide)).trans (at11_arg5 m ρ c)
theorem at12_arg6 : W12 m ρ c (Proc.devRef .tc main_arg6) = (m ((c : Thread nD τ).loc main_arg6)) :=
  (W12_of_ne m ρ c main_arg6 (by decide)).trans (at11_arg6 m ρ c)
theorem at13_v86 : W13 m ρ c (Proc.devRef .tc main_v86) = val_main_v89 (F := Ideal) (m ((c : Thread nD τ).loc main_arg5)) :=
  Host.h5_v86 (W12 m ρ c) (m ((c : Thread nD τ).loc main_arg5)) (at12_arg5 m ρ c)
theorem at13_v87 : W13 m ρ c (Proc.devRef .tc main_v87) = shapeCast S1x256 (broadcastInDim S256 ![] bcast_S_S256 (constant (F := Ideal) S_ .f32 0x00000000#32)) shapeCasts_S256_S1x256 :=
  (Host.h5_v87 (W12 m ρ c)).trans (congrArg (fun z => shapeCast S1x256 z shapeCasts_S256_S1x256) (at12_v32 m ρ c))
theorem at13_v84 : W13 m ρ c (Proc.devRef .tc main_v84) = val_main_v87 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (Skip.s5_v84 (W12 m ρ c)).trans (at12_v84 m ρ c)
theorem at13_v3 : W13 m ρ c (Proc.devRef .tc main_v3) = val_main_v3 (F := Ideal) (m ((c : Thread nD τ).loc main_arg1)) :=
  (Skip.s5_v3 (W12 m ρ c)).trans (at12_v3 m ρ c)
theorem at13_v6 : W13 m ρ c (Proc.devRef .tc main_v6) = val_main_v6 (F := Ideal) (m ((c : Thread nD τ).loc main_arg1)) :=
  (Skip.s5_v6 (W12 m ρ c)).trans (at12_v6 m ρ c)
theorem at13_v29 : W13 m ρ c (Proc.devRef .tc main_v29) = val_main_v29 (F := Ideal) (m ((c : Thread nD τ).loc main_arg1)) :=
  (Skip.s5_v29 (W12 m ρ c)).trans (at12_v29 m ρ c)
theorem at13_arg6 : W13 m ρ c (Proc.devRef .tc main_arg6) = (m ((c : Thread nD τ).loc main_arg6)) :=
  (Skip.s5_arg6 (W12 m ρ c)).trans (at12_arg6 m ρ c)
theorem at14_v88 : W14 m ρ c (Proc.devRef .tc main_v88) = val_main_v92 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W14_arr m ρ c 3).trans ((Final.final5 (V13 m ρ) c).trans ?_)
  rw [show V13 m ρ c main_v84 = _ from at13_v84 m ρ c, show V13 m ρ c main_v86 = _ from at13_v86 m ρ c,
    show V13 m ρ c main_v87 = _ from at13_v87 m ρ c]
  exact (ref_dot _ _ _ zrow).symm
theorem at14_v3 : W14 m ρ c (Proc.devRef .tc main_v3) = val_main_v3 (F := Ideal) (m ((c : Thread nD τ).loc main_arg1)) :=
  (W14_of_ne m ρ c main_v3 (by decide)).trans (at13_v3 m ρ c)
theorem at14_v6 : W14 m ρ c (Proc.devRef .tc main_v6) = val_main_v6 (F := Ideal) (m ((c : Thread nD τ).loc main_arg1)) :=
  (W14_of_ne m ρ c main_v6 (by decide)).trans (at13_v6 m ρ c)
theorem at14_v29 : W14 m ρ c (Proc.devRef .tc main_v29) = val_main_v29 (F := Ideal) (m ((c : Thread nD τ).loc main_arg1)) :=
  (W14_of_ne m ρ c main_v29 (by decide)).trans (at13_v29 m ρ c)
theorem at14_arg6 : W14 m ρ c (Proc.devRef .tc main_arg6) = (m ((c : Thread nD τ).loc main_arg6)) :=
  (W14_of_ne m ρ c main_arg6 (by decide)).trans (at13_arg6 m ρ c)

/-! ## Layer 3, the pooling and the projection -/

theorem at15_v106 : W15 m ρ c (Proc.devRef .tc main_v106) = val_main_v110 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  Host.h6_v106 (W14 m ρ c) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (at14_v88 m ρ c) (at14_v3 m ρ c) (at14_v6 m ρ c) (at14_v29 m ρ c)
theorem at15_v109 : W15 m ρ c (Proc.devRef .tc main_v109) = shapeCast S1x256 (val_main_v91 (F := Ideal) (m ((c : Thread nD τ).loc main_arg6))) shapeCasts_S256_S1x256 :=
  Host.h6_v109 (W14 m ρ c) (m ((c : Thread nD τ).loc main_arg6)) (at14_arg6 m ρ c)
theorem at16_v110 : W16 m ρ c (Proc.devRef .tc main_v110) = val_main_v114 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W16_arr m ρ c 2).trans ((Final.final6 (V15 m ρ) c).trans ?_)
  rw [show V15 m ρ c main_v106 = _ from at15_v106 m ρ c, show V15 m ρ c main_v109 = _ from at15_v109 m ρ c]
  exact (ref_relu (val_main_v110 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (val_main_v91 (F := Ideal) (m ((c : Thread nD τ).loc main_arg6))) _ (fun j => shapeCast_a_1a_apply _ _ 0 j)).symm
theorem at16_arg2 : W16 m ρ c (Proc.devRef .tc main_arg2) = (m ((c : Thread nD τ).loc main_arg2)) :=
  ((Skip.s7_arg2 (W16 m ρ c)).symm.trans (W18_of_ne m ρ c main_arg2 (by decide)).symm).trans (W18_main_arg2 m ρ c)
theorem at16_arg8 : W16 m ρ c (Proc.devRef .tc main_arg8) = (m ((c : Thread nD τ).loc main_arg8)) :=
  ((Skip.s7_arg8 (W16 m ρ c)).symm.trans (W18_of_ne m ρ c main_arg8 (by decide)).symm).trans (W18_main_arg8 m ρ c)
theorem at16_arg9 : W16 m ρ c (Proc.devRef .tc main_arg9) = (m ((c : Thread nD τ).loc main_arg9)) :=
  ((Skip.s7_arg9 (W16 m ρ c)).symm.trans (W18_of_ne m ρ c main_arg9 (by decide)).symm).trans (W18_main_arg9 m ρ c)
theorem at16_arg10 : W16 m ρ c (Proc.devRef .tc main_arg10) = (m ((c : Thread nD τ).loc main_arg10)) :=
  ((Skip.s7_arg10 (W16 m ρ c)).symm.trans (W18_of_ne m ρ c main_arg10 (by decide)).symm).trans (W18_main_arg10 m ρ c)
theorem at17_v122 : W17 m ρ c (Proc.devRef .tc main_v122) = val_main_v126 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  Host.h7_v122 (W16 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (at16_v110 m ρ c) (at16_arg2 m ρ c)
theorem at17_v123 : W17 m ρ c (Proc.devRef .tc main_v123) = shapeCast S1x64 (m ((c : Thread nD τ).loc main_arg8)) shapeCasts_S64_S1x64 :=
  Host.h7_v123 (W16 m ρ c) (m ((c : Thread nD τ).loc main_arg8)) (at16_arg8 m ρ c)
theorem at17_v124 : W17 m ρ c (Proc.devRef .tc main_v124) = shapeCast S1x64 (m ((c : Thread nD τ).loc main_arg9)) shapeCasts_S64_S1x64 :=
  Host.h7_v124 (W16 m ρ c) (m ((c : Thread nD τ).loc main_arg9)) (at16_arg9 m ρ c)
theorem at17_v125 : W17 m ρ c (Proc.devRef .tc main_v125) = shapeCast S1x64 (m ((c : Thread nD τ).loc main_arg10)) shapeCasts_S64_S1x64 :=
  Host.h7_v125 (W16 m ρ c) (m ((c : Thread nD τ).loc main_arg10)) (at16_arg10 m ρ c)
theorem at17_arg7 : W17 m ρ c (Proc.devRef .tc main_arg7) = (m ((c : Thread nD τ).loc main_arg7)) :=
  ((W18_arr m ρ c 1).trans (((dat7 (V17 m ρ) c).arrAt_in 1 rfl _).trans (A_eq7 (V17 m ρ) c 1))).symm.trans (W18_main_arg7 m ρ c)

/-- THE RESULT: after the last region the result buffer holds the reference's last stage of the program's arguments. -/
theorem at18_v126 : W18 m ρ c (Proc.devRef .tc main_v126) = val_main_v154 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W18_arr m ρ c 5).trans ((Final.final7 (V17 m ρ) c).trans ?_)
  rw [show V17 m ρ c main_v122 = _ from at17_v122 m ρ c, show V17 m ρ c main_arg7 = _ from at17_arg7 m ρ c,
    show V17 m ρ c main_v123 = _ from at17_v123 m ρ c, show V17 m ρ c main_v124 = _ from at17_v124 m ρ c,
    show V17 m ρ c main_v125 = _ from at17_v125 m ρ c]
  exact (ref_v154 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) _ _ _ (fun j => shapeCast_a_1a_apply _ _ 0 j) (fun j => shapeCast_a_1a_apply _ _ 0 j)
    (fun j => shapeCast_a_1a_apply _ _ 0 j)).symm

end Cert.KernelIdeal.Chain

end
-- ==== Proof.lean ====
/-
  A three-layer graph convolution network with mean pooling and a normalised projection: the Pallas program and its
  jnp reference compute the same extended reals.

  Both programs build the same edge lists (with self loops), the same symmetric degree normalisation, and per layer
  the same gather of source rows, scaling and scatter-add into destination rows, on the host. They differ only in
  the dense stages, which the kernel computes in Pallas regions over tiles of rows: the encoder and the three hidden
  products (a matrix unit product into a zero accumulator plus a bias row, the bias a row of zeros in the hidden
  layers), the three bias-and-rectifier stages, and the projection with its layer normalisation. Each of those is a
  function of one row of its input at a time, so the tiles put together are the whole matrix's rows; and over the
  extended reals the matrix unit's product is the host's dot_general, a lane sum is the host's sum, x + 0 = x, and a
  change of float format is the identity. No law that needs finiteness is used, so the precondition is never opened.

  The kernel's run is read off its generated frame (KernelRun, Final0–7, ChainHost / ChainSkip, Chain); the
  reference's run and its stages are the modules RefRun / RefRead; DenseTile / ProjTile read the kernel
  bodies at an entry, DenseRef / ProjRef the reference's stages. `preserves` has no conjunct: the idealization
  pass rewrote nothing.
-/
import proofs.«173320_j31851477467888_1_alg».proof.Defs
import proofs.«173320_j31851477467888_1_alg».proof.Proof.Gen.Kernel
import proofs.«173320_j31851477467888_1_alg».proof.Proof.Gen.Kernel.Skeleton
import proofs.«173320_j31851477467888_1_alg».proof.Proof.Gen.Kernel.Launch
import proofs.«173320_j31851477467888_1_alg».proof.Proof.Gen.Kernel.Points
import proofs.«173320_j31851477467888_1_alg».proof.Proof.Gen.Kernel.Frame
import proofs.«173320_j31851477467888_1_alg».proof.Proof.Gen.KernelIdeal
import proofs.«173320_j31851477467888_1_alg».proof.Proof.Gen.KernelIdeal.Skeleton
import proofs.«173320_j31851477467888_1_alg».proof.Proof.Gen.KernelIdeal.Launch
import proofs.«173320_j31851477467888_1_alg».proof.Proof.Gen.KernelIdeal.Points
import proofs.«173320_j31851477467888_1_alg».proof.Proof.Gen.KernelIdeal.Frame
import proofs.«173320_j31851477467888_1_alg».proof.Proof.Gen.ReferenceIdeal
import proofs.«173320_j31851477467888_1_alg».proof.Proof.Gen.Pre_finite_inputs
import proofs.«173320_j31851477467888_1_alg».proof.Proof.RefRun
import proofs.«173320_j31851477467888_1_alg».proof.Proof.RefRead
import proofs.«173320_j31851477467888_1_alg».proof.Proof.KernelRun
import proofs.«173320_j31851477467888_1_alg».proof.Proof.Chain
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The idealized reference runs and keeps its arguments: its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- From memories that agree on the arguments both programs end with the same result: the kernel's result buffer holds
    the last boundary's contents, which are the reference's last stage of the arguments (Chain.at18_v126), and the
    reference's run ends at that stage of its own, equal, arguments. -/
theorem algebraic : Cert.algebraic_KernelIdeal_ReferenceIdeal := by
  intro m ρ m' ρ' _ hagree
  refine ⟨fun c => Cert.KernelIdeal.Gen.W18 m ρ c (Proc.devRef .tc Cert.KernelIdeal.main_v126), Cert.KernelIdeal.RunK.run_result m ρ, ?_⟩
  refine (θ_run Cert.ReferenceIdeal.defs _ _).mono (fun _ h c => ⟨(h c).1.trans ?_, (h c).2⟩)
    (Cert.ReferenceIdeal.RunP.run (F := Ideal) m' ρ')
  obtain ⟨a0, a1, a2, a3, a4, a5, a6, a7, a8, a9, a10⟩ := hagree c
  rw [Cert.ReferenceIdeal.ReadP.val_main_v154_eq, a0, a1, a2, a3, a4, a5, a6, a7, a8, a9, a10]
  exact (Cert.KernelIdeal.Chain.at18_v126 m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
